-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x320000 : Shape := ⟨2, ![2, 320000]⟩
abbrev S10000x32 : Shape := ⟨2, ![10000, 32]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x32 : S_.BroadcastsInDim S10000x32 (![] : Fin 0 → Fin S10000x32.rank)
  reducesTo_S10000x32_S_d0_1 : S10000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_arg9 : FVec F S64x32 .f32) (main_arg10 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x32 .f32) (main_arg8 : FVec F S32 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S10000x128 .f32) (main_arg1 : IVec S2x320000 32) (main_arg2 : FVec F S10000x32 .f32) (main_arg3 : FVec F S128x64 .f32) (main_arg4 : FVec F S64 .f32) (main_arg5 : FVec F S64x64 .f32) (main_arg6 : FVec F S64 .f32) (main_arg7 : FVec F S64x32 .f32) (main_arg8 : FVec F S32 .f32) (main_arg9 : FVec F S64x32 .f32) (main_arg10 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x32 .f32 := Host.absf main_arg2
  let main_cst_0 : FVec F S_ .f32 := constant S_ .f32 0x7F800000#32
  let main_v5 : FVec F S10000x32 .f32 := broadcastInDim S10000x32 ![] bcast_S_S10000x32 main_cst_0
  let main_v6 : IVec S10000x32 1 := cmpf .olt main_v4 main_v5
  let main_c_1 : IVec S_ 1 := constantI S_ 1 1#1
  let main_v7 : IVec S_ 1 := (fun x v => Host.reduce IntOp.andi x v reducesTo_S10000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S10000x128 : Shape := ⟨2, ![10000, 128]⟩
abbrev S2x320000 : Shape := ⟨2, ![2, 320000]⟩
abbrev S10000x32 : Shape := ⟨2, ![10000, 32]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x64 : Shape := ⟨2, ![10000, 64]⟩
abbrev S1000x128 : Shape := ⟨2, ![1000, 128]⟩
abbrev S1000x64 : Shape := ⟨2, ![1000, 64]⟩
abbrev S330000x64 : Shape := ⟨2, ![330000, 64]⟩
abbrev S1x64 : Shape := ⟨2, ![1, 64]⟩
abbrev S1000x32 : Shape := ⟨2, ![1000, 32]⟩
abbrev S330000x32 : Shape := ⟨2, ![330000, 32]⟩
abbrev S1x32 : Shape := ⟨2, ![1, 32]⟩
abbrev S10000x10000 : Shape := ⟨2, ![10000, 10000]⟩
abbrev S200x32 : Shape := ⟨2, ![200, 32]⟩
abbrev S200x10000 : Shape := ⟨2, ![200, 10000]⟩
abbrev S32x10000 : Shape := ⟨2, ![32, 10000]⟩

abbrev nBuf : Space → Nat
  | .hbm => 146
  | .vmem => 25
  | .smem => 0
  | _ => 0

abbrev hbmTy0_0 (i : Nat) : BufTy := match i % 128 with
  | 0 => ⟨S10000x128, .f32⟩
  | 1 => ⟨S2x320000, .i32⟩
  | 2 => ⟨S10000x32, .f32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S10000, .i32⟩
  | 12 => ⟨S1x320000, .i32⟩
  | 13 => ⟨S320000, .i32⟩
  | 14 => ⟨S330000, .i32⟩
  | 15 => ⟨S1x320000, .i32⟩
  | 16 => ⟨S320000, .i32⟩
  | 17 => ⟨S330000, .i32⟩
  | 18 => ⟨S_, .f32⟩
  | 19 => ⟨S330000, .f32⟩
  | 20 => ⟨S_, .f32⟩
  | 21 => ⟨S10000, .f32⟩
  | 22 => ⟨S330000x1, .i32⟩
  | 23 => ⟨S10000, .f32⟩
  | 24 => ⟨S_, .f32⟩
  | 25 => ⟨S10000, .f32⟩
  | 26 => ⟨S10000, .i1⟩
  | 27 => ⟨S_, .f32⟩
  | 28 => ⟨S10000, .f32⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S330000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S330000, .f32⟩
  | 53 => ⟨S10000x64, .f32⟩
  | 54 => ⟨S330000x1, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x64, .f32⟩
  | 64 => ⟨S330000x64, .f32⟩
  | 65 => ⟨S330000x64, .f32⟩
  | 66 => ⟨S_, .f32⟩
  | 67 => ⟨S10000x64, .f32⟩
  | 68 => ⟨S330000x1, .i32⟩
  | 69 => ⟨S10000x64, .f32⟩
  | 70 => ⟨S1x64, .f32⟩
  | 71 => ⟨S10000x64, .f32⟩
  | 72 => ⟨S10000x64, .f32⟩
  | 73 => ⟨S_, .f32⟩
  | 74 => ⟨S10000x64, .f32⟩
  | 75 => ⟨S10000x64, .f32⟩
  | 76 => ⟨S10000x64, .f32⟩
  | 77 => ⟨S330000x1, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000x64, .f32⟩
  | 87 => ⟨S330000x64, .f32⟩
  | 88 => ⟨S330000x64, .f32⟩
  | 89 => ⟨S_, .f32⟩
  | 90 => ⟨S10000x64, .f32⟩
  | 91 => ⟨S330000x1, .i32⟩
  | 92 => ⟨S10000x64, .f32⟩
  | 93 => ⟨S1x64, .f32⟩
  | 94 => ⟨S10000x64, .f32⟩
  | 95 => ⟨S10000x64, .f32⟩
  | 96 => ⟨S_, .f32⟩
  | 97 => ⟨S10000x64, .f32⟩
  | 98 => ⟨S10000x64, .f32⟩
  | 99 => ⟨S10000x32, .f32⟩
  | 100 => ⟨S330000x1, .f32⟩
  | 101 => ⟨S_, .i32⟩
  | 102 => ⟨S330000, .i32⟩
  | 103 => ⟨S330000, .i1⟩
  | 104 => ⟨S_, .i32⟩
  | 105 => ⟨S330000, .i32⟩
  | 106 => ⟨S330000, .i32⟩
  | 107 => ⟨S330000, .i32⟩
  | 108 => ⟨S330000x1, .i32⟩
  | 109 => ⟨S330000x32, .f32⟩
  | 110 => ⟨S330000x32, .f32⟩
  | 111 => ⟨S330000x32, .f32⟩
  | 112 => ⟨S_, .f32⟩
  | 113 => ⟨S10000x32, .f32⟩
  | 114 => ⟨S330000x1, .i32⟩
  | 115 => ⟨S10000x32, .f32⟩
  | 116 => ⟨S1x32, .f32⟩
  | 117 => ⟨S10000x32, .f32⟩
  | 118 => ⟨S10000x32, .f32⟩
  | 119 => ⟨S10000x32, .f32⟩
  | 120 => ⟨S330000x1, .f32⟩
  | 121 => ⟨S_, .i32⟩
  | 122 => ⟨S330000, .i32⟩
  | 123 => ⟨S330000, .i1⟩
  | 124 => ⟨S_, .i32⟩
  | 125 => ⟨S330000, .i32⟩
  | 126 => ⟨S330000, .i32⟩
  | 127 => ⟨S330000, .i32⟩
  | _ => ⟨S10000x128, .f32⟩

abbrev hbmTy0_1 (i : Nat) : BufTy := match i % 128 with
  | 0 => ⟨S330000x1, .i32⟩
  | 1 => ⟨S330000x32, .f32⟩
  | 2 => ⟨S330000x32, .f32⟩
  | 3 => ⟨S330000x32, .f32⟩
  | 4 => ⟨S_, .f32⟩
  | 5 => ⟨S10000x32, .f32⟩
  | 6 => ⟨S330000x1, .i32⟩
  | 7 => ⟨S10000x32, .f32⟩
  | 8 => ⟨S1x32, .f32⟩
  | 9 => ⟨S10000x32, .f32⟩
  | 10 => ⟨S10000x32, .f32⟩
  | 11 => ⟨S_, .f32⟩
  | 12 => ⟨S10000x32, .f32⟩
  | 13 => ⟨S10000x32, .f32⟩
  | 14 => ⟨S10000x32, .f32⟩
  | 15 => ⟨S10000x32, .f32⟩
  | 16 => ⟨S10000x32, .f32⟩
  | 17 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x64, .f32⟩
  | .local _ .vmem, ⟨3, _⟩ => ⟨S1000x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S64x64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S64x32, .f32⟩
  | .local _ .vmem, ⟨13, _⟩ => ⟨S1000x32, .f32⟩
  | .local _ .vmem, ⟨14, _⟩ => ⟨S1000x32, .f32⟩
  | .local _ .vmem, ⟨15, _⟩ => ⟨S1000x64, .f32⟩
  | .local _ .vmem, ⟨16, _⟩ => ⟨S1000x64, .f32⟩
  | .local _ .vmem, ⟨17, _⟩ => ⟨S64x32, .f32⟩
  | .local _ .vmem, ⟨18, _⟩ => ⟨S1000x32, .f32⟩
  | .local _ .vmem, ⟨19, _⟩ => ⟨S1000x32, .f32⟩
  | .local _ .vmem, ⟨20, _⟩ => ⟨S200x32, .f32⟩
  | .local _ .vmem, ⟨21, _⟩ => ⟨S200x32, .f32⟩
  | .local _ .vmem, ⟨22, _⟩ => ⟨S10000x32, .f32⟩
  | .local _ .vmem, ⟨23, _⟩ => ⟨S200x10000, .f32⟩
  | .local _ .vmem, ⟨24, _⟩ => ⟨S200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_v86 : Ref sig .tc := ⟨.hbm, 122, rfl⟩
abbrev main_v87 : Ref sig .tc := ⟨.hbm, 123, rfl⟩
abbrev main_c_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S200x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S200x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  inb_S1000x128_S1000x128_0_0 : ∀ a, (![0, 0] : Fin 2 → Nat) a + S1000x128.size a ≤ S1000x128.size a
  h_S1000x128 : 0 < S1000x128.numel
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1000x32_S1000x32_0_0 : ∀ a, (![0, 0] : Fin 2 → Nat) a + S1000x32.size a ≤ S1000x32.size a
  h_S1000x32 : 0 < S1000x32.numel
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  inb_S200x32_S200x32_0_0 : ∀ a, (![0, 0] : Fin 2 → Nat) a + S200x32.size a ≤ S200x32.size a
  h_S200x32 : 0 < S200x32.numel
  shapeCasts_S200x32_S200x32 : S200x32.ShapeCasts S200x32
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  transposes_S10000x32_p1_0_S32x10000 : S10000x32.Transposes [1, 0] S32x10000
  inb_S200x10000_S200x10000_0_0 : ∀ a, (![0, 0] : Fin 2 → Nat) a + S200x10000.size a ≤ S200x10000.size a
  h_S200x10000 : 0 < S200x10000.numel
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S1000x128_S128x64_S1000x64_1_0_0_1_n_n_wf : DotDims.WF S1000x128 S128x64 S1000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S1000x64_S64x64_S1000x64_1_0_0_1_n_n_wf : DotDims.WF S1000x64 S64x64 S1000x64 [1] [0] [0] [1] [] []
  dot_S1000x64_S64x32_S1000x32_1_0_0_1_n_n_wf : DotDims.WF S1000x64 S64x32 S1000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S200x32_S32x10000_S200x10000_1_0_0_1_n_n_wf : DotDims.WF S200x32 S32x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S10000x64.size a
  hwx0_2 : ∀ i : grid0.Coords, EltTy.bits .f32 = 32 ∨ (Rect.block (s := S10000x64) S1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S10000x64.size a
  hwx1_0 : ∀ i : grid1.Coords, EltTy.bits .f32 = 32 ∨ (Rect.block (s := S10000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S10000x64.size a
  hwx1_2 : ∀ i : grid1.Coords, EltTy.bits .f32 = 32 ∨ (Rect.block (s := S10000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S10000x64.size a
  hwx2_0 : ∀ i : grid2.Coords, EltTy.bits .f32 = 32 ∨ (Rect.block (s := S10000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x32.size a ≤ S10000x32.size a
  hwx2_2 : ∀ i : grid2.Coords, EltTy.bits .f32 = 32 ∨ (Rect.block (s := S10000x32) S1000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x64.size a ≤ S10000x64.size a
  hwx3_0 : ∀ i : grid3.Coords, EltTy.bits .f32 = 32 ∨ (Rect.block (s := S10000x64) S1000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x32.size a ≤ S10000x32.size a
  hwx3_2 : ∀ i : grid3.Coords, EltTy.bits .f32 = 32 ∨ (Rect.block (s := S10000x32) S1000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S200x32.size a ≤ S10000x32.size a
  hwx4_0 : ∀ i : grid4.Coords, EltTy.bits .f32 = 32 ∨ (Rect.block (s := S10000x32) S200x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S10000x32.size a
  hwx4_1 : ∀ i : grid4.Coords, EltTy.bits .f32 = 32 ∨ (Rect.block (s := S10000x32) S10000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S200x10000.size a ≤ S10000x10000.size a
  hwx4_2 : ∀ i : grid4.Coords, EltTy.bits .f32 = 32 ∨ (Rect.block (s := S10000x10000) S200x10000.size (cc4_transform_2 i) (hinb4_2 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x32_S1000x32_1_0_0_1_n_n : DotDims S1000x64 S64x32 S1000x32 where
  lhsContracting := [1]
  rhsContracting := [0]
  lhsNonContracting := [0]
  rhsNonContracting := [1]
  lhsBatch := []
  rhsBatch := []
  wf := dot_S1000x64_S64x32_S1000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S200x32_S32x10000_S200x10000_1_0_0_1_n_n : DotDims S200x32 S32x10000 S200x10000 where
  lhsContracting := [1]
  rhsContracting := [0]
  lhsNonContracting := [0]
  rhsNonContracting := [1]
  lhsBatch := []
  rhsBatch := []
  wf := dot_S200x32_S32x10000_S200x10000_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S1000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S1000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v105) S200x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S10000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S200x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S10000x32 : Shape := ⟨2, ![10000, 32]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10000x64 : Shape := ⟨2, ![10000, 64]⟩
abbrev S330000x64 : Shape := ⟨2, ![330000, 64]⟩
abbrev S1x64 : Shape := ⟨2, ![1, 64]⟩
abbrev S330000x32 : Shape := ⟨2, ![330000, 32]⟩
abbrev S1x32 : Shape := ⟨2, ![1, 32]⟩
abbrev S32x10000 : Shape := ⟨2, ![32, 10000]⟩
abbrev S10000x10000 : Shape := ⟨2, ![10000, 10000]⟩

abbrev nBuf : Space → Nat
  | .hbm => 155
  | .vmem => 0
  | .smem => 0
  | _ => 0

abbrev hbmTy0_0 (i : Nat) : BufTy := match i % 128 with
  | 0 => ⟨S10000x128, .f32⟩
  | 1 => ⟨S2x320000, .i32⟩
  | 2 => ⟨S10000x32, .f32⟩
  | 3 => ⟨S128x64, .f32⟩
  | 4 => ⟨S64, .f32⟩
  | 5 => ⟨S64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S10000, .i32⟩
  | 12 => ⟨S1x320000, .i32⟩
  | 13 => ⟨S320000, .i32⟩
  | 14 => ⟨S330000, .i32⟩
  | 15 => ⟨S1x320000, .i32⟩
  | 16 => ⟨S320000, .i32⟩
  | 17 => ⟨S330000, .i32⟩
  | 18 => ⟨S_, .f32⟩
  | 19 => ⟨S330000, .f32⟩
  | 20 => ⟨S_, .f32⟩
  | 21 => ⟨S10000, .f32⟩
  | 22 => ⟨S330000x1, .i32⟩
  | 23 => ⟨S10000, .f32⟩
  | 24 => ⟨S_, .f32⟩
  | 25 => ⟨S10000, .f32⟩
  | 26 => ⟨S10000, .i1⟩
  | 27 => ⟨S_, .f32⟩
  | 28 => ⟨S10000, .f32⟩
  | 29 => ⟨S10000, .f32⟩
  | 30 => ⟨S_, .f32⟩
  | 31 => ⟨S_, .f32⟩
  | 32 => ⟨S10000, .f32⟩
  | 33 => ⟨S10000, .f32⟩
  | 34 => ⟨S_, .i32⟩
  | 35 => ⟨S330000, .i32⟩
  | 36 => ⟨S330000, .i1⟩
  | 37 => ⟨S_, .i32⟩
  | 38 => ⟨S330000, .i32⟩
  | 39 => ⟨S330000, .i32⟩
  | 40 => ⟨S330000, .i32⟩
  | 41 => ⟨S330000x1, .i32⟩
  | 42 => ⟨S330000, .f32⟩
  | 43 => ⟨S_, .i32⟩
  | 44 => ⟨S330000, .i32⟩
  | 45 => ⟨S330000, .i1⟩
  | 46 => ⟨S_, .i32⟩
  | 47 => ⟨S330000, .i32⟩
  | 48 => ⟨S330000, .i32⟩
  | 49 => ⟨S330000, .i32⟩
  | 50 => ⟨S330000x1, .i32⟩
  | 51 => ⟨S330000, .f32⟩
  | 52 => ⟨S330000, .f32⟩
  | 53 => ⟨S10000x64, .f32⟩
  | 54 => ⟨S330000x1, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x64, .f32⟩
  | 64 => ⟨S330000x64, .f32⟩
  | 65 => ⟨S330000x64, .f32⟩
  | 66 => ⟨S_, .f32⟩
  | 67 => ⟨S10000x64, .f32⟩
  | 68 => ⟨S330000x1, .i32⟩
  | 69 => ⟨S10000x64, .f32⟩
  | 70 => ⟨S1x64, .f32⟩
  | 71 => ⟨S10000x64, .f32⟩
  | 72 => ⟨S10000x64, .f32⟩
  | 73 => ⟨S_, .f32⟩
  | 74 => ⟨S10000x64, .f32⟩
  | 75 => ⟨S10000x64, .f32⟩
  | 76 => ⟨S10000x64, .f32⟩
  | 77 => ⟨S330000x1, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000x64, .f32⟩
  | 87 => ⟨S330000x64, .f32⟩
  | 88 => ⟨S330000x64, .f32⟩
  | 89 => ⟨S_, .f32⟩
  | 90 => ⟨S10000x64, .f32⟩
  | 91 => ⟨S330000x1, .i32⟩
  | 92 => ⟨S10000x64, .f32⟩
  | 93 => ⟨S1x64, .f32⟩
  | 94 => ⟨S10000x64, .f32⟩
  | 95 => ⟨S10000x64, .f32⟩
  | 96 => ⟨S_, .f32⟩
  | 97 => ⟨S10000x64, .f32⟩
  | 98 => ⟨S10000x64, .f32⟩
  | 99 => ⟨S10000x32, .f32⟩
  | 100 => ⟨S330000x1, .f32⟩
  | 101 => ⟨S_, .i32⟩
  | 102 => ⟨S330000, .i32⟩
  | 103 => ⟨S330000, .i1⟩
  | 104 => ⟨S_, .i32⟩
  | 105 => ⟨S330000, .i32⟩
  | 106 => ⟨S330000, .i32⟩
  | 107 => ⟨S330000, .i32⟩
  | 108 => ⟨S330000x1, .i32⟩
  | 109 => ⟨S330000x32, .f32⟩
  | 110 => ⟨S330000x32, .f32⟩
  | 111 => ⟨S330000x32, .f32⟩
  | 112 => ⟨S_, .f32⟩
  | 113 => ⟨S10000x32, .f32⟩
  | 114 => ⟨S330000x1, .i32⟩
  | 115 => ⟨S10000x32, .f32⟩
  | 116 => ⟨S1x32, .f32⟩
  | 117 => ⟨S10000x32, .f32⟩
  | 118 => ⟨S10000x32, .f32⟩
  | 119 => ⟨S10000x32, .f32⟩
  | 120 => ⟨S330000x1, .f32⟩
  | 121 => ⟨S_, .i32⟩
  | 122 => ⟨S330000, .i32⟩
  | 123 => ⟨S330000, .i1⟩
  | 124 => ⟨S_, .i32⟩
  | 125 => ⟨S330000, .i32⟩
  | 126 => ⟨S330000, .i32⟩
  | 127 => ⟨S330000, .i32⟩
  | _ => ⟨S10000x128, .f32⟩

abbrev hbmTy0_1 (i : Nat) : BufTy := match i % 128 with
  | 0 => ⟨S330000x1, .i32⟩
  | 1 => ⟨S330000x32, .f32⟩
  | 2 => ⟨S330000x32, .f32⟩
  | 3 => ⟨S330000x32, .f32⟩
  | 4 => ⟨S_, .f32⟩
  | 5 => ⟨S10000x32, .f32⟩
  | 6 => ⟨S330000x1, .i32⟩
  | 7 => ⟨S10000x32, .f32⟩
  | 8 => ⟨S1x32, .f32⟩
  | 9 => ⟨S10000x32, .f32⟩
  | 10 => ⟨S10000x32, .f32⟩
  | 11 => ⟨S_, .f32⟩
  | 12 => ⟨S10000x32, .f32⟩
  | 13 => ⟨S10000x32, .f32⟩
  | 14 => ⟨S10000x32, .f32⟩
  | 15 => ⟨S10000x32, .f32⟩
  | 16 => ⟨S10000x32, .f32⟩
  | 17 => ⟨S32x10000, .f32⟩
  | 18 => ⟨S10000x10000, .f32⟩
  | 19 => ⟨S10000x10000, .f32⟩
  | 20 => ⟨S10000x10000, .f32⟩
  | 21 => ⟨S_, .f32⟩
  | 22 => ⟨S10000x10000, .f32⟩
  | 23 => ⟨S10000x10000, .f32⟩
  | 24 => ⟨S_, .f32⟩
  | 25 => ⟨S10000x10000, .f32⟩
  | 26 => ⟨S10000x10000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_cst : Ref sig .tc := ⟨.hbm, 73, rfl⟩
abbrev main_call1_v0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call2_cst : Ref sig .tc := ⟨.hbm, 96, rfl⟩
abbrev main_call2_v0 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_v86 : Ref sig .tc := ⟨.hbm, 122, rfl⟩
abbrev main_v87 : Ref sig .tc := ⟨.hbm, 123, rfl⟩
abbrev main_c_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_18 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_20 : Ref sig .tc := ⟨.hbm, 149, rfl⟩
abbrev main_v110 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_v113 : Ref sig .tc := ⟨.hbm, 154, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x64_0_1 : S330000x1.BroadcastsInDim S330000x64 (![0, 1] : Fin 2 → Fin S330000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S330000x1_S330000x32_0_1 : S330000x1.BroadcastsInDim S330000x32 (![0, 1] : Fin 2 → Fin S330000x32.rank)
  bcast_S_S10000x32 : S_.BroadcastsInDim S10000x32 (![] : Fin 0 → Fin S10000x32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  transposes_S10000x32_S32x10000_1_0 : S10000x32.Transposes [1, 0] S32x10000
  bcast_S_S10000x10000 : S_.BroadcastsInDim S10000x10000 (![] : Fin 0 → Fin S10000x10000.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  dot_S10000x128_S128x64_S10000x64_1_0_0_1_n_n_wf : DotDims.WF S10000x128 S128x64 S10000x64 [1] [0] [0] [1] [] []
  gather_S10000x64_S330000x1_S330000x64_1_0_n_n_0_1_164_wf : GatherDims.WF S10000x64 S330000x1 S330000x64 [1] [0] [] [0] [] 1 ![1, 64]
  scatter_S10000x64_S330000x1_S330000x64_1_0_0_1_wf : ScatterDims.WF S10000x64 S330000x1 S330000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S10000x32_S330000x1_S330000x32_1_0_n_n_0_1_132_wf : GatherDims.WF S10000x32 S330000x1 S330000x32 [1] [0] [] [0] [] 1 ![1, 32]
  scatter_S10000x32_S330000x1_S330000x32_1_0_0_1_wf : ScatterDims.WF S10000x32 S330000x1 S330000x32 [1] [0] [0] 1
  dot_S10000x32_S32x10000_S10000x10000_1_0_0_1_n_n_wf : DotDims.WF S10000x32 S32x10000 S10000x10000 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S330000x1_S330000x64_1_0_n_n_0_1_164 : GatherDims S10000x64 S330000x1 S330000x64 where
  offsetDims := [1]
  collapsedSliceDims := [0]
  operandBatchingDims := []
  startIndicesBatchingDims := []
  startIndexMap := [0]
  indexVectorDim := 1
  sliceSizes := ![1, 64]
  wf := gather_S10000x64_S330000x1_S330000x64_1_0_n_n_0_1_164_wf
def scatter_S10000x64_S330000x1_S330000x64_1_0_0_1 : ScatterDims S10000x64 S330000x1 S330000x64 where
  updateWindowDims := [1]
  insertedWindowDims := [0]
  scatterDimsToOperandDims := [0]
  indexVectorDim := 1
  wf := scatter_S10000x64_S330000x1_S330000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S10000x32_S330000x1_S330000x32_1_0_n_n_0_1_132 : GatherDims S10000x32 S330000x1 S330000x32 where
  offsetDims := [1]
  collapsedSliceDims := [0]
  operandBatchingDims := []
  startIndicesBatchingDims := []
  startIndexMap := [0]
  indexVectorDim := 1
  sliceSizes := ![1, 32]
  wf := gather_S10000x32_S330000x1_S330000x32_1_0_n_n_0_1_132_wf
def scatter_S10000x32_S330000x1_S330000x32_1_0_0_1 : ScatterDims S10000x32 S330000x1 S330000x32 where
  updateWindowDims := [1]
  insertedWindowDims := [0]
  scatterDimsToOperandDims := [0]
  indexVectorDim := 1
  wf := scatter_S10000x32_S330000x1_S330000x32_1_0_0_1_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.K.Region0.lean ====
/-
  Region 0 of @main: one dense layer's feature transform, the input features times the first layer's weights (10000×128 by 128×64), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.Kernel.Launch
import proofs.«161064_j52209622450442_1_alg».proof.Proof.Gen.Kernel.Skeleton
import proofs.«161064_j52209622450442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand sits in its current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1000x128 := Rect.unit (s := S1000x128) ![0, 0] S1000x128.size inb_S1000x128_S1000x128_0_0
abbrev r0_1 : Rect S128x64 := Rect.unit (s := S128x64) ![0, 0] S128x64.size inb_S128x64_S128x64_0_0
abbrev r0_2 : Rect S1000x64 := Rect.unit (s := S1000x64) ![0, 0] S1000x64.size inb_S1000x64_S1000x64_0_0

/-- The output block after the body: one store of the product of the two blocks read. -/
def out0_2 (x0 : Vec F S1000x128 .f32) (x1 : Vec F S128x64 .f32) : Vec F S1000x64 .f32 :=
  View.canon [⟨r0_2, k0_pay1 (View.ld x0 r0_0) (View.ld x1 r0_1)⟩]

/-- The one store covers the output block. -/
theorem cover0_2 (p0 : Vec F S1000x64 .f32) (y : S1000x64.Idx) :
    ∃ pc ∈ ([⟨r0_2, p0⟩] : List (View.Piece (Elt F) S1000x64 .f32)), y ∈ pc.1.set :=
  View.cover_of_tiled [⟨r0_2, p0⟩] S1000x64.size (by rfl) y

set_option maxHeartbeats 1000000 in
/-- The body on whole staging buffers, the inputs at contents `x0`, `x1` and the output at anything, runs to the
    continuation with the inputs unchanged and the output at `out0_2 x0 x1`. -/
theorem sound_kernel0 (c : Dev nD) (E : Set ℕ) (i : grid0.Coords) (arg0 : Memref sig .tc .vmem S1000x128 .f32) (harg0 : arg0.IsWhole) (arg1 : Memref sig .tc .vmem S128x64 .f32) (harg1 : arg1.IsWhole) (arg2 : Memref sig .tc .vmem S1000x64 .f32) (harg2 : arg2.IsWhole)
    (x0 : Vec F S1000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__dense_kernel i arg0 harg0 arg1 harg1 arg2 harg2) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at the product of the two blocks; the invariant holds the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.Region1.lean ====
/-
  Region 1 of @main: one dense layer's feature transform, the first hidden features times the second layer's weights (10000×64 by 64×64), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.Kernel.Launch
import proofs.«161064_j52209622450442_1_alg».proof.Proof.Gen.Kernel.Skeleton
import proofs.«161064_j52209622450442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand sits in its current staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S1000x64 := Rect.unit (s := S1000x64) ![0, 0] S1000x64.size inb_S1000x64_S1000x64_0_0
abbrev r1_1 : Rect S64x64 := Rect.unit (s := S64x64) ![0, 0] S64x64.size inb_S64x64_S64x64_0_0
abbrev r1_2 : Rect S1000x64 := Rect.unit (s := S1000x64) ![0, 0] S1000x64.size inb_S1000x64_S1000x64_0_0

/-- The output block after the body: one store of the product of the two blocks read. -/
def out1_2 (x0 : Vec F S1000x64 .f32) (x1 : Vec F S64x64 .f32) : Vec F S1000x64 .f32 :=
  View.canon [⟨r1_2, k1_pay1 (View.ld x0 r1_0) (View.ld x1 r1_1)⟩]

/-- The one store covers the output block. -/
theorem cover1_2 (p0 : Vec F S1000x64 .f32) (y : S1000x64.Idx) :
    ∃ pc ∈ ([⟨r1_2, p0⟩] : List (View.Piece (Elt F) S1000x64 .f32)), y ∈ pc.1.set :=
  View.cover_of_tiled [⟨r1_2, p0⟩] S1000x64.size (by rfl) y

set_option maxHeartbeats 1000000 in
/-- The body on whole staging buffers, the inputs at contents `x0`, `x1` and the output at anything, runs to the
    continuation with the inputs unchanged and the output at `out1_2 x0 x1`. -/
theorem sound_kernel1 (c : Dev nD) (E : Set ℕ) (i : grid1.Coords) (arg0 : Memref sig .tc .vmem S1000x64 .f32) (harg0 : arg0.IsWhole) (arg1 : Memref sig .tc .vmem S64x64 .f32) (harg1 : arg1.IsWhole) (arg2 : Memref sig .tc .vmem S1000x64 .f32) (harg2 : arg2.IsWhole)
    (x0 : Vec F S1000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__dense_kernel i arg0 harg0 arg1 harg1 arg2 harg2) K := by
  simp only [cc1__dense_kernel_eq_skeleton]; unfold cc1__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at the product of the two blocks; the invariant holds the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Gen

end
-- ==== Proof.K.Region2.lean ====
/-
  Region 2 of @main: one dense layer's feature transform, the second hidden features times the weights of the mean's layer (10000×64 by 64×32), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.Kernel.Launch
import proofs.«161064_j52209622450442_1_alg».proof.Proof.Gen.Kernel.Skeleton
import proofs.«161064_j52209622450442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand sits in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S1000x64 := Rect.unit (s := S1000x64) ![0, 0] S1000x64.size inb_S1000x64_S1000x64_0_0
abbrev r2_1 : Rect S64x32 := Rect.unit (s := S64x32) ![0, 0] S64x32.size inb_S64x32_S64x32_0_0
abbrev r2_2 : Rect S1000x32 := Rect.unit (s := S1000x32) ![0, 0] S1000x32.size inb_S1000x32_S1000x32_0_0

/-- The output block after the body: one store of the product of the two blocks read. -/
def out2_2 (x0 : Vec F S1000x64 .f32) (x1 : Vec F S64x32 .f32) : Vec F S1000x32 .f32 :=
  View.canon [⟨r2_2, k2_pay1 (View.ld x0 r2_0) (View.ld x1 r2_1)⟩]

/-- The one store covers the output block. -/
theorem cover2_2 (p0 : Vec F S1000x32 .f32) (y : S1000x32.Idx) :
    ∃ pc ∈ ([⟨r2_2, p0⟩] : List (View.Piece (Elt F) S1000x32 .f32)), y ∈ pc.1.set :=
  View.cover_of_tiled [⟨r2_2, p0⟩] S1000x32.size (by rfl) y

set_option maxHeartbeats 1000000 in
/-- The body on whole staging buffers, the inputs at contents `x0`, `x1` and the output at anything, runs to the
    continuation with the inputs unchanged and the output at `out2_2 x0 x1`. -/
theorem sound_kernel2 (c : Dev nD) (E : Set ℕ) (i : grid2.Coords) (arg0 : Memref sig .tc .vmem S1000x64 .f32) (harg0 : arg0.IsWhole) (arg1 : Memref sig .tc .vmem S64x32 .f32) (harg1 : arg1.IsWhole) (arg2 : Memref sig .tc .vmem S1000x32 .f32) (harg2 : arg2.IsWhole)
    (x0 : Vec F S1000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__dense_kernel i arg0 harg0 arg1 harg1 arg2 harg2) K := by
  simp only [cc2__dense_kernel_eq_skeleton]; unfold cc2__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t`
    each input's buffer at its block and the output's at the product of the two blocks; the invariant holds the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Gen

end
-- ==== Proof.K.Region3.lean ====
/-
  Region 3 of @main: one dense layer's feature transform, the second hidden features times the weights of the log-deviation's layer (10000×64 by 64×32), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.Kernel.Launch
import proofs.«161064_j52209622450442_1_alg».proof.Proof.Gen.Kernel.Skeleton
import proofs.«161064_j52209622450442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the left operand sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand, fetched once, sits in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S1000x64 := Rect.unit (s := S1000x64) ![0, 0] S1000x64.size inb_S1000x64_S1000x64_0_0
abbrev r3_1 : Rect S64x32 := Rect.unit (s := S64x32) ![0, 0] S64x32.size inb_S64x32_S64x32_0_0
abbrev r3_2 : Rect S1000x32 := Rect.unit (s := S1000x32) ![0, 0] S1000x32.size inb_S1000x32_S1000x32_0_0

/-- The output block after the body: one store of the product of the two blocks read. -/
def out3_2 (x0 : Vec F S1000x64 .f32) (x1 : Vec F S64x32 .f32) : Vec F S1000x32 .f32 :=
  View.canon [⟨r3_2, k3_pay1 (View.ld x0 r3_0) (View.ld x1 r3_1)⟩]

/-- The one store covers the output block. -/
theorem cover3_2 (p0 : Vec F S1000x32 .f32) (y : S1000x32.Idx) :
    ∃ pc ∈ ([⟨r3_2, p0⟩] : List (View.Piece (Elt F) S1000x32 .f32)), y ∈ pc.1.set :=
  View.cover_of_tiled [⟨r3_2, p0⟩] S1000x32.size (by rfl) y

set_option maxHeartbeats 1000000 in
/-- The body on whole staging buffers, the inputs at contents `x0`, `x1` and the output at anything, runs to the
    continuation with the inputs unchanged and the output at `out3_2 x0 x1`. -/
theorem sound_kernel3 (c : Dev nD) (E : Set ℕ) (i : grid3.Coords) (arg0 : Memref sig .tc .vmem S1000x64 .f32) (harg0 : arg0.IsWhole) (arg1 : Memref sig .tc .vmem S64x32 .f32) (harg1 : arg1.IsWhole) (arg2 : Memref sig .tc .vmem S1000x32 .f32) (harg2 : arg2.IsWhole)
    (x0 : Vec F S1000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__dense_kernel i arg0 harg0 arg1 harg1 arg2 harg2) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t`
    each input's buffer at its block and the output's at the product of the two blocks; the invariant holds the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Gen

end
-- ==== Proof.K.Region4.lean ====
/- REGION 4 of @main: custom_call 4, `cc4__decode_kernel` (pipeline 4), at the region-entry contents `V`.
   The decode kernel computes `logistic (zr · zcᵀ)` on a grid of 50 points: window 0 is a 200x32 block of `z`,
   window 1 the whole 10000x32 `z`, window 2 a 200x10000 block of the output. Windows 0 and 1 read ONE array, so the
   core holds it for them at two complementary halves of the full share. -/
import proofs.«161064_j52209622450442_1_alg».proof.Proof.Gen.Kernel.Launch
import proofs.«161064_j52209622450442_1_alg».proof.Proof.Gen.Kernel.Skeleton
import proofs.«161064_j52209622450442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point: fetched at the first point, and at the
    later ones the block index has not moved and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S200x32 := Rect.unit (s := S200x32) ![0, 0] S200x32.size inb_S200x32_S200x32_0_0
abbrev r4_1 : Rect S10000x32 := Rect.unit (s := S10000x32) ![0, 0] S10000x32.size inb_S10000x32_S10000x32_0_0
abbrev r4_2 : Rect S200x10000 := Rect.unit (s := S200x10000) ![0, 0] S200x10000.size inb_S200x10000_S200x10000_0_0

/-! ## What the body leaves in the output window's buffer -/

/-- Window 2's staging buffer after the body, from the input windows' blocks: its one store, of
    `logistic (x0 · x1ᵀ)` (the skeleton's payload) over the whole buffer. -/
def out4_2 (x0 : Vec F S200x32 .f32) (x1 : Vec F S10000x32 .f32) : Vec F S200x10000 .f32 :=
  View.canon [⟨r4_2, k4_pay1 (View.ld x0 r4_0) (View.ld x1 r4_1)⟩]

/-- The store's rectangle is the whole buffer, so it covers it. -/
theorem cover4_2 (p0 : Vec F S200x10000 .f32) (y : S200x10000.Idx) :
    ∃ pc ∈ ([⟨r4_2, p0⟩] : List (View.Piece (Elt F) S200x10000 .f32)), y ∈ pc.1.set :=
  View.cover_of_tiled [⟨r4_2, p0⟩] S200x10000.size (by rfl) y

/-! ## The body's triple -/

set_option maxHeartbeats 1000000 in
/-- The kernel body on whole staging memrefs, the inputs' at contents `x0`, `x1` and the output's at anything, runs
    to the continuation holding the inputs' as they were and the output's at `out4_2 x0 x1`: it loads the two inputs,
    loads the output buffer (the value is unused) and stores the payload over all of it. -/
theorem sound_kernel4 (c : Dev nD) (E : Set ℕ) (i : grid4.Coords) (arg0 : Memref sig .tc .vmem S200x32 .f32) (harg0 : arg0.IsWhole) (arg1 : Memref sig .tc .vmem S10000x32 .f32) (harg1 : arg1.IsWhole) (arg2 : Memref sig .tc .vmem S200x10000 .f32) (harg2 : arg2.IsWhole)
    (x0 : Vec F S200x32 .f32) (x1 : Vec F S10000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__decode_kernel i arg0 harg0 arg1 harg1 arg2 harg2) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the invariant the scoped
    rest and the generator register, untouched; nothing owed. Windows 0 and 1 read the same array: the core holds it
    for window 0 at the left half of the full share and for window 1 at the right half, which compose to the whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's arrays out of the core's unscoped buffers, and back

Windows 0 and 1 read one array, so the buffers behind the three windows' arrays are two: the core's whole hold of
the shared input splits along the share into the two halves the input windows hold it at, and joins back. -/

/-- The buffers behind the windows' arrays: the shared input and the output. -/
theorem arrImage4 : Finset.univ.image (Pipeline.arrRef spec4) = {main_v105, main_v106} := by decide

/-- The pipeline's arrays at contents `G`, window by window: the shared input at the left half of the full share
    for window 0 and at the right half for window 1, the output whole; each array is a whole buffer. -/
theorem arrays4_eq (c : Dev nD) (G : (w : Fin cfg4.W) → Buf (Elt F) ((cfg4.win w).arr.view.loc (c : Thread nD τ))) :
    ((dat4 V c).arrays G : sProp 𝕄)
      = iprop((((c : Thread nD τ).loc main_v105) ↦{fullShare.left} G 0) ∗ (((c : Thread nD τ).loc main_v105) ↦{fullShare.right} G 1)
          ∗ (((c : Thread nD τ).loc main_v106) ↦{fullShare} G 2)) := by
  unfold Dat.arrays
  rw [bigSep_W4, (arr_whole4 0).set_eq_univ, (arr_whole4 2).set_eq_univ]
  rfl

/-- ENTRY: the core's unscoped buffers at `V` are the pipeline's arrays at their entry contents and the unscoped
    rest; the shared input, held whole, is split into the two halves of its share. -/
theorem entry4 (c : Dev nD) :
    (unscopedBufs c (V c) : sProp 𝕄)
      ⊢ iprop((dat4 V c).arrays ((dat4 V c).arrAt · 0) ∗ Pipeline.unscopedRest (Ix := Unit) (Name := ℕ) (U := UR sig nD τ) (Lvl := ℕ) spec4 c (V c)) := by
  have hsplit : (unscopedBufs c (V c) : sProp 𝕄)
      = iprop(Pipeline.arrBufs spec4 c (V c) ∗ Pipeline.unscopedRest (Ix := Unit) (Name := ℕ) (U := UR sig nD τ) (Lvl := ℕ) spec4 c (V c)) :=
    Pipeline.unscopedBufs_split₀ cfgs 4 winFacts₀4.arr_unscoped c (V c)
  rw [hsplit]
  refine sep_mono ?_ .rfl
  rw [arrays4_eq]
  unfold Pipeline.arrBufs
  rw [arrImage4, bigSep_insert (by decide), bigSep_singleton]
  exact (sep_mono (pointsTo_share (PosShare.mem_left_op_right fullShare)).1 .rfl).trans sep_assoc.1

/-- EXIT: the pipeline's arrays at what its write-backs leave and the unscoped rest at `V` are the core's unscoped
    buffers at any contents `V'` that has the arrays there and agrees with `V` off them; the two halves of the
    shared input's share, at equal contents, join to the whole. -/
theorem exit4 (c : Dev nD) (V' : (b : Ref sig .tc) → Buf (Elt F) ((c : Thread nD τ).loc b))
    (hF : ∀ w, (dat4 V c).arrAt w cfg4.N = V' (Pipeline.arrRef spec4 w))
    (hrest : ∀ b, b ∉ Finset.univ.image (Pipeline.arrRef spec4) → V' b = V c b) :
    iprop((dat4 V c).arrays ((dat4 V c).arrAt · cfg4.N) ∗ Pipeline.unscopedRest (Ix := Unit) (Name := ℕ) (U := UR sig nD τ) (Lvl := ℕ) spec4 c (V c))
      ⊢ (unscopedBufs c V' : sProp 𝕄) := by
  have hsplit : (unscopedBufs c V' : sProp 𝕄)
      = iprop(Pipeline.arrBufs spec4 c V' ∗ Pipeline.unscopedRest (Ix := Unit) (Name := ℕ) (U := UR sig nD τ) (Lvl := ℕ) spec4 c V') :=
    Pipeline.unscopedBufs_split₀ cfgs 4 winFacts₀4.arr_unscoped c V'
  rw [hsplit]
  refine sep_mono ?_ (Entails.of_eq ?_)
  · rw [arrays4_eq, hF 0, hF 1, hF 2]
    unfold Pipeline.arrBufs
    rw [arrImage4, bigSep_insert (by decide), bigSep_singleton]
    exact sep_assoc.2.trans (sep_mono (pointsTo_share (PosShare.mem_left_op_right fullShare)).2 .rfl)
  · unfold Pipeline.unscopedRest
    exact bigSep_congr fun b hb => by rw [hrest b (Finset.mem_sdiff.mp hb).2]

end Region4

end Cert.Kernel.Gen

end
-- ==== Proof.K.Run.lean ====
/-
  The run of the whole program: its @main is ten stretches of host operations and five kernel regions. The four
  dense regions compute the feature transforms of the four graph-convolution layers; the last region decodes
  the latent vectors into the predicted adjacency. Between two items a core holds every unscoped buffer whole;
  a host stretch changes the buffers it writes, a region changes its result array only, to what its grid
  points' blocks, written back, make. Chaining the items gives: every weakly fair execution of @main ends with
  every unscoped buffer at the last of these contents.
-/
import proofs.«161064_j52209622450442_1_alg».proof.Proof.Gen.Kernel.Regions
import proofs.«161064_j52209622450442_1_alg».proof.Proof.K.Region0
import proofs.«161064_j52209622450442_1_alg».proof.Proof.K.Region1
import proofs.«161064_j52209622450442_1_alg».proof.Proof.K.Region2
import proofs.«161064_j52209622450442_1_alg».proof.Proof.K.Region3
import proofs.«161064_j52209622450442_1_alg».proof.Proof.K.Region4
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## The buffers' contents after each item from the first region on -/

/-- After region 0: the first layer's transform `x · W0` in its result array. -/
def U4 (c : Dev nD) : Valuation τ sig (Elt F) :=
  Function.update (V3 m c) main_v31 ((dat0 (atTc (V3 m)) c).arrAt 2 cfg0.N)
def U5 (c : Dev nD) : Valuation τ sig (Elt F) := StableHlo.after hostOps1 (U4 m c)
def U6 (c : Dev nD) : Valuation τ sig (Elt F) := StableHlo.after hostOps1_1 (U5 m c)
/-- After region 1: the second layer's transform. -/
def U7 (c : Dev nD) : Valuation τ sig (Elt F) :=
  Function.update (U6 m c) main_v49 ((dat1 (atTc (U6 m)) c).arrAt 2 cfg1.N)
def U8 (c : Dev nD) : Valuation τ sig (Elt F) := StableHlo.after hostOps2 (U7 m c)
def U9 (c : Dev nD) : Valuation τ sig (Elt F) := StableHlo.after hostOps2_1 (U8 m c)
/-- After region 2: the transform of the mean's layer. -/
def U10 (c : Dev nD) : Valuation τ sig (Elt F) :=
  Function.update (U9 m c) main_v67 ((dat2 (atTc (U9 m)) c).arrAt 2 cfg2.N)
def U11 (c : Dev nD) : Valuation τ sig (Elt F) := StableHlo.after hostOps3 (U10 m c)
/-- After region 3: the transform of the log-deviation's layer. -/
def U12 (c : Dev nD) : Valuation τ sig (Elt F) :=
  Function.update (U11 m c) main_v84 ((dat3 (atTc (U11 m)) c).arrAt 2 cfg3.N)
def U13 (c : Dev nD) : Valuation τ sig (Elt F) := StableHlo.after hostOps4 (U12 m c)
/-- After region 4: the decoded adjacency. -/
def U14 (c : Dev nD) : Valuation τ sig (Elt F) :=
  Function.update (U13 m c) main_v106 ((dat4 (atTc (U13 m)) c).arrAt 2 cfg4.N)

/-- What the regions leave, as the family the chained valuations are written over. -/
def outs : Outs (F := F) := fun j r c => match j with
  | 4 => U4 m c r | 7 => U7 m c r | 10 => U10 m c r | 12 => U12 m c r | 14 => U14 m c r | _ => V0 m c r

theorem V4_eq (c : Dev nD) : V4 m (outs m) c = U4 m c := by
  show Function.update (V3 m c) main_v31 (U4 m c main_v31) = U4 m c
  unfold U4; rw [Function.update_self]
theorem V5_eq (c : Dev nD) : V5 m (outs m) c = U5 m c := by
  show StableHlo.after hostOps1 (V4 m (outs m) c) = _; rw [V4_eq]; rfl
theorem V6_eq (c : Dev nD) : V6 m (outs m) c = U6 m c := by
  show StableHlo.after hostOps1_1 (V5 m (outs m) c) = _; rw [V5_eq]; rfl
theorem V7_eq (c : Dev nD) : V7 m (outs m) c = U7 m c := by
  show Function.update (V6 m (outs m) c) main_v49 (U7 m c main_v49) = U7 m c
  rw [V6_eq]; unfold U7; rw [Function.update_self]
theorem V8_eq (c : Dev nD) : V8 m (outs m) c = U8 m c := by
  show StableHlo.after hostOps2 (V7 m (outs m) c) = _; rw [V7_eq]; rfl
theorem V9_eq (c : Dev nD) : V9 m (outs m) c = U9 m c := by
  show StableHlo.after hostOps2_1 (V8 m (outs m) c) = _; rw [V8_eq]; rfl
theorem V10_eq (c : Dev nD) : V10 m (outs m) c = U10 m c := by
  show Function.update (V9 m (outs m) c) main_v67 (U10 m c main_v67) = U10 m c
  rw [V9_eq]; unfold U10; rw [Function.update_self]
theorem V11_eq (c : Dev nD) : V11 m (outs m) c = U11 m c := by
  show StableHlo.after hostOps3 (V10 m (outs m) c) = _; rw [V10_eq]; rfl
theorem V12_eq (c : Dev nD) : V12 m (outs m) c = U12 m c := by
  show Function.update (V11 m (outs m) c) main_v84 (U12 m c main_v84) = U12 m c
  rw [V11_eq]; unfold U12; rw [Function.update_self]
theorem V13_eq (c : Dev nD) : V13 m (outs m) c = U13 m c := by
  show StableHlo.after hostOps4 (V12 m (outs m) c) = _; rw [V12_eq]; rfl
theorem V14_eq (c : Dev nD) : V14 m (outs m) c = U14 m c := by
  show Function.update (V13 m (outs m) c) main_v106 (U14 m c main_v106) = U14 m c
  rw [V13_eq]; unfold U14; rw [Function.update_self]

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (atTc (V3 m)) c
  | ⟨1, _⟩ => fun c => dat1 (atTc (U6 m)) c
  | ⟨2, _⟩ => fun c => dat2 (atTc (U9 m)) c
  | ⟨3, _⟩ => fun c => dat3 (atTc (U11 m)) c
  | ⟨4, _⟩ => fun c => dat4 (atTc (U13 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- An unscoped TensorCore reference is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Equal contents, the same thread state. -/
theorem held_congr {c : Dev nD} {W W' : Valuation τ sig (Elt F)} (h : W = W') :
    (iprop(StableHlo.held (c : Thread nD τ) (Pipeline.ucRefs τ sig) W ∗ R c) : sProp 𝕄)
      ⊢ iprop(StableHlo.held (c : Thread nD τ) (Pipeline.ucRefs τ sig) W' ∗ R c) := by
  subst h; exact .rfl

/-! ## The regions as segments -/

/-- At region 0's exit each of its arrays holds what the pipeline leaves: the two operands as entered, the result
    the blocks written back. -/
theorem hF0 (c : Dev nD) (w : Fin cfg0.W) : (dat0 (atTc (V3 m)) c).arrAt w cfg0.N = atTc (U4 m) c (Pipeline.arrRef spec0 w) :=
  match w with
  | ⟨0, _⟩ => ((dat0 (atTc (V3 m)) c).arrAt_in 0 rfl _).trans ((A_eq0 (atTc (V3 m)) c 0).trans
      (Function.update_of_ne (StableHlo.devRef_ne_of_ne (by decide) : (Proc.devRef .tc main_arg0 : DevRef τ sig) ≠ Proc.devRef .tc main_v31) _ _).symm)
  | ⟨1, _⟩ => ((dat0 (atTc (V3 m)) c).arrAt_in 1 rfl _).trans ((A_eq0 (atTc (V3 m)) c 1).trans
      (Function.update_of_ne (StableHlo.devRef_ne_of_ne (by decide) : (Proc.devRef .tc main_arg3 : DevRef τ sig) ≠ Proc.devRef .tc main_v31) _ _).symm)
  | ⟨2, _⟩ => by
      have h : U4 m c (Proc.devRef .tc main_v31) = (dat0 (atTc (V3 m)) c).arrAt 2 cfg0.N := by
        unfold U4; exact Function.update_self _ _ _
      exact h.symm
/-- Every other buffer holds what it held at entry. -/
theorem hrest0 (c : Dev nD) : ∀ b, b ∉ Finset.univ.image (Pipeline.arrRef spec0) → atTc (U4 m) c b = atTc (V3 m) c b :=
  fun b hb => Function.update_of_ne (StableHlo.devRef_ne_of_ne (fun e => hb (Finset.mem_image.mpr ⟨2, Finset.mem_univ _, e.symm⟩))) _ _

set_option backward.isDefEq.respectTransparency.types false in
/-- Region 0 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: the two operands as entered, the result
    the blocks written back. -/
theorem hF1 (c : Dev nD) (w : Fin cfg1.W) : (dat1 (atTc (U6 m)) c).arrAt w cfg1.N = atTc (U7 m) c (Pipeline.arrRef spec1 w) :=
  match w with
  | ⟨0, _⟩ => ((dat1 (atTc (U6 m)) c).arrAt_in 0 rfl _).trans ((A_eq1 (atTc (U6 m)) c 0).trans
      (Function.update_of_ne (StableHlo.devRef_ne_of_ne (by decide) : (Proc.devRef .tc main_v48 : DevRef τ sig) ≠ Proc.devRef .tc main_v49) _ _).symm)
  | ⟨1, _⟩ => ((dat1 (atTc (U6 m)) c).arrAt_in 1 rfl _).trans ((A_eq1 (atTc (U6 m)) c 1).trans
      (Function.update_of_ne (StableHlo.devRef_ne_of_ne (by decide) : (Proc.devRef .tc main_arg5 : DevRef τ sig) ≠ Proc.devRef .tc main_v49) _ _).symm)
  | ⟨2, _⟩ => by
      have h : U7 m c (Proc.devRef .tc main_v49) = (dat1 (atTc (U6 m)) c).arrAt 2 cfg1.N := by
        unfold U7; exact Function.update_self _ _ _
      exact h.symm
/-- Every other buffer holds what it held at entry. -/
theorem hrest1 (c : Dev nD) : ∀ b, b ∉ Finset.univ.image (Pipeline.arrRef spec1) → atTc (U7 m) c b = atTc (U6 m) c b :=
  fun b hb => Function.update_of_ne (StableHlo.devRef_ne_of_ne (fun e => hb (Finset.mem_image.mpr ⟨2, Finset.mem_univ _, e.symm⟩))) _ _

set_option backward.isDefEq.respectTransparency.types false in
/-- Region 1 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U6 m)) c).loose
  hwaits := Pipeline.hwaits_of_owed_zero _ _ _ _ L lv 1 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec1 c (atTc (U6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U6 m) c) (atTc (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: the two operands as entered, the result
    the blocks written back. -/
theorem hF2 (c : Dev nD) (w : Fin cfg2.W) : (dat2 (atTc (U9 m)) c).arrAt w cfg2.N = atTc (U10 m) c (Pipeline.arrRef spec2 w) :=
  match w with
  | ⟨0, _⟩ => ((dat2 (atTc (U9 m)) c).arrAt_in 0 rfl _).trans ((A_eq2 (atTc (U9 m)) c 0).trans
      (Function.update_of_ne (StableHlo.devRef_ne_of_ne (by decide) : (Proc.devRef .tc main_v66 : DevRef τ sig) ≠ Proc.devRef .tc main_v67) _ _).symm)
  | ⟨1, _⟩ => ((dat2 (atTc (U9 m)) c).arrAt_in 1 rfl _).trans ((A_eq2 (atTc (U9 m)) c 1).trans
      (Function.update_of_ne (StableHlo.devRef_ne_of_ne (by decide) : (Proc.devRef .tc main_arg7 : DevRef τ sig) ≠ Proc.devRef .tc main_v67) _ _).symm)
  | ⟨2, _⟩ => by
      have h : U10 m c (Proc.devRef .tc main_v67) = (dat2 (atTc (U9 m)) c).arrAt 2 cfg2.N := by
        unfold U10; exact Function.update_self _ _ _
      exact h.symm
/-- Every other buffer holds what it held at entry. -/
theorem hrest2 (c : Dev nD) : ∀ b, b ∉ Finset.univ.image (Pipeline.arrRef spec2) → atTc (U10 m) c b = atTc (U9 m) c b :=
  fun b hb => Function.update_of_ne (StableHlo.devRef_ne_of_ne (fun e => hb (Finset.mem_image.mpr ⟨2, Finset.mem_univ _, e.symm⟩))) _ _

set_option backward.isDefEq.respectTransparency.types false in
/-- Region 2 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (atTc (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U9 m) c) (atTc (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: the two operands as entered, the result
    the blocks written back. -/
theorem hF3 (c : Dev nD) (w : Fin cfg3.W) : (dat3 (atTc (U11 m)) c).arrAt w cfg3.N = atTc (U12 m) c (Pipeline.arrRef spec3 w) :=
  match w with
  | ⟨0, _⟩ => ((dat3 (atTc (U11 m)) c).arrAt_in 0 rfl _).trans ((A_eq3 (atTc (U11 m)) c 0).trans
      (Function.update_of_ne (StableHlo.devRef_ne_of_ne (by decide) : (Proc.devRef .tc main_v66 : DevRef τ sig) ≠ Proc.devRef .tc main_v84) _ _).symm)
  | ⟨1, _⟩ => ((dat3 (atTc (U11 m)) c).arrAt_in 1 rfl _).trans ((A_eq3 (atTc (U11 m)) c 1).trans
      (Function.update_of_ne (StableHlo.devRef_ne_of_ne (by decide) : (Proc.devRef .tc main_arg9 : DevRef τ sig) ≠ Proc.devRef .tc main_v84) _ _).symm)
  | ⟨2, _⟩ => by
      have h : U12 m c (Proc.devRef .tc main_v84) = (dat3 (atTc (U11 m)) c).arrAt 2 cfg3.N := by
        unfold U12; exact Function.update_self _ _ _
      exact h.symm
/-- Every other buffer holds what it held at entry. -/
theorem hrest3 (c : Dev nD) : ∀ b, b ∉ Finset.univ.image (Pipeline.arrRef spec3) → atTc (U12 m) c b = atTc (U11 m) c b :=
  fun b hb => Function.update_of_ne (StableHlo.devRef_ne_of_ne (fun e => hb (Finset.mem_image.mpr ⟨2, Finset.mem_univ _, e.symm⟩))) _ _

set_option backward.isDefEq.respectTransparency.types false in
/-- Region 3 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U11 m)) c).loose
  hwaits := Pipeline.hwaits_of_owed_zero _ _ _ _ L lv 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (atTc (U11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U11 m) c) (atTc (U12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit its arrays hold what the pipeline leaves: the latent vectors (read through two windows) as
    entered, the adjacency the blocks written back. -/
theorem hF4 (c : Dev nD) (w : Fin cfg4.W) : (dat4 (atTc (U13 m)) c).arrAt w cfg4.N = atTc (U14 m) c (Pipeline.arrRef spec4 w) :=
  match w with
  | ⟨0, _⟩ => ((dat4 (atTc (U13 m)) c).arrAt_in 0 rfl _).trans ((A_eq4 (atTc (U13 m)) c 0).trans
      (Function.update_of_ne (StableHlo.devRef_ne_of_ne (by decide) : (Proc.devRef .tc main_v105 : DevRef τ sig) ≠ Proc.devRef .tc main_v106) _ _).symm)
  | ⟨1, _⟩ => ((dat4 (atTc (U13 m)) c).arrAt_in 1 rfl _).trans ((A_eq4 (atTc (U13 m)) c 1).trans
      (Function.update_of_ne (StableHlo.devRef_ne_of_ne (by decide) : (Proc.devRef .tc main_v105 : DevRef τ sig) ≠ Proc.devRef .tc main_v106) _ _).symm)
  | ⟨2, _⟩ => by
      have h : U14 m c (Proc.devRef .tc main_v106) = (dat4 (atTc (U13 m)) c).arrAt 2 cfg4.N := by
        unfold U14; exact Function.update_self _ _ _
      exact h.symm
theorem hrest4 (c : Dev nD) : ∀ b, b ∉ Finset.univ.image (Pipeline.arrRef spec4) → atTc (U14 m) c b = atTc (U13 m) c b :=
  fun b hb => Function.update_of_ne (StableHlo.devRef_ne_of_ne (fun e => hb (Finset.mem_image.mpr ⟨2, Finset.mem_univ _, e.symm⟩))) _ _

set_option backward.isDefEq.respectTransparency.types false in
/-- Region 4 as a segment of @main. Its two input windows read ONE array, the latent vectors: the array's full
    share is dealt between them in halves at entry and joined again at exit. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (atTc (U13 m)) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (atTc (U13 m) c)
  hentry c := by
    rw [Pipeline.ownSems0_none]
    have hsplit : (unscopedBufs c (atTc (U13 m) c) : sProp 𝕄)
        ⊢ iprop((pdats m 4 c).arrays ((pdats m 4 c).arrAt · 0) ∗ Pipeline.unscopedRest (Ix := Unit) (Name := ℕ) (U := UR sig nD τ) (Lvl := ℕ) spec4 c (atTc (U13 m) c)) :=
      entry4 (atTc (U13 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest (Ix := Unit) (Name := ℕ) (U := UR sig nD τ) (Lvl := ℕ) spec4 c (atTc (U13 m) c))
        ⊢ (unscopedBufs c (atTc (U14 m) c) : sProp 𝕄) :=
      exit4 (atTc (U13 m)) c (atTc (U14 m) c) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last region the dues are set apart from the buffers and the generator register. -/
theorem last_step (c : Dev nD) :
    (iprop(StableHlo.held (c : Thread nD τ) (Pipeline.ucRefs τ sig) (U14 m c) ∗ R c) : sProp 𝕄)
      ⊢ iprop((StableHlo.held (c : Thread nD τ) (Pipeline.ucRefs τ sig) (U14 m c) ∗ ∃ r, prngReg c r)
          ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

/-! ## The launch -/

set_option backward.isDefEq.respectTransparency.types false in
/-- Every weakly fair execution of @main from memory `m` with zero counters terminates, and every final memory
    holds each unscoped buffer at the last contents of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U14 m c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m) (reg4 m))
    (fun c Q => by
      rewrite [main_chain c, Seg.run_eq_chain,
        show (segs m (outs m) 𝒱₀ L lv (fun _ => R) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U14 m c) ∗ ∃ r, prngReg c r))
    (hch := fun c => ⟨.rfl, .rfl, .rfl, .rfl,
      held_congr (V4_eq m c).symm, .rfl,
      held_congr (V6_eq m c), held_congr (V7_eq m c).symm, .rfl,
      held_congr (V9_eq m c), held_congr (V10_eq m c).symm,
      held_congr (V11_eq m c), held_congr (V12_eq m c).symm,
      held_congr (V13_eq m c),
      last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun _ h => h)

/-- Each argument array ends as launched. -/
theorem U14_arg (c : Dev nD) (r : Ref sig .tc) (h : V14 m (outs m) c r = m ((c : Thread nD τ).loc r)) :
    U14 m c r = m ((c : Thread nD τ).loc r) := by rw [← V14_eq]; exact h

end Cert.Kernel.Gen

end
-- ==== Proof.KI.Region0.lean ====
/-
  Region 0 of @main: one dense layer's feature transform, the input features times the first layer's weights (10000×128 by 128×64), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.KernelIdeal.Launch
import proofs.«161064_j52209622450442_1_alg».proof.Proof.Gen.KernelIdeal.Skeleton
import proofs.«161064_j52209622450442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of the left operand sits in its current staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand, fetched once, sits in its staging buffer at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev r0_0 : Rect S1000x128 := Rect.unit (s := S1000x128) ![0, 0] S1000x128.size inb_S1000x128_S1000x128_0_0
abbrev r0_1 : Rect S128x64 := Rect.unit (s := S128x64) ![0, 0] S128x64.size inb_S128x64_S128x64_0_0
abbrev r0_2 : Rect S1000x64 := Rect.unit (s := S1000x64) ![0, 0] S1000x64.size inb_S1000x64_S1000x64_0_0

/-- The output block after the body: one store of the product of the two blocks read. -/
def out0_2 (x0 : Vec F S1000x128 .f32) (x1 : Vec F S128x64 .f32) : Vec F S1000x64 .f32 :=
  View.canon [⟨r0_2, k0_pay1 (View.ld x0 r0_0) (View.ld x1 r0_1)⟩]

/-- The one store covers the output block. -/
theorem cover0_2 (p0 : Vec F S1000x64 .f32) (y : S1000x64.Idx) :
    ∃ pc ∈ ([⟨r0_2, p0⟩] : List (View.Piece (Elt F) S1000x64 .f32)), y ∈ pc.1.set :=
  View.cover_of_tiled [⟨r0_2, p0⟩] S1000x64.size (by rfl) y

set_option maxHeartbeats 1000000 in
/-- The body on whole staging buffers, the inputs at contents `x0`, `x1` and the output at anything, runs to the
    continuation with the inputs unchanged and the output at `out0_2 x0 x1`. -/
theorem sound_kernel0 (c : Dev nD) (E : Set ℕ) (i : grid0.Coords) (arg0 : Memref sig .tc .vmem S1000x128 .f32) (harg0 : arg0.IsWhole) (arg1 : Memref sig .tc .vmem S128x64 .f32) (harg1 : arg1.IsWhole) (arg2 : Memref sig .tc .vmem S1000x64 .f32) (harg2 : arg2.IsWhole)
    (x0 : Vec F S1000x128 .f32) (x1 : Vec F S128x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__dense_kernel i arg0 harg0 arg1 harg1 arg2 harg2) K := by
  simp only [cc0__dense_kernel_eq_skeleton]; unfold cc0__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at the product of the two blocks; the invariant holds the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.Region1.lean ====
/-
  Region 1 of @main: one dense layer's feature transform, the first hidden features times the second layer's weights (10000×64 by 64×64), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.KernelIdeal.Launch
import proofs.«161064_j52209622450442_1_alg».proof.Proof.Gen.KernelIdeal.Skeleton
import proofs.«161064_j52209622450442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block of the left operand sits in its current staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand, fetched once, sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev r1_0 : Rect S1000x64 := Rect.unit (s := S1000x64) ![0, 0] S1000x64.size inb_S1000x64_S1000x64_0_0
abbrev r1_1 : Rect S64x64 := Rect.unit (s := S64x64) ![0, 0] S64x64.size inb_S64x64_S64x64_0_0
abbrev r1_2 : Rect S1000x64 := Rect.unit (s := S1000x64) ![0, 0] S1000x64.size inb_S1000x64_S1000x64_0_0

/-- The output block after the body: one store of the product of the two blocks read. -/
def out1_2 (x0 : Vec F S1000x64 .f32) (x1 : Vec F S64x64 .f32) : Vec F S1000x64 .f32 :=
  View.canon [⟨r1_2, k1_pay1 (View.ld x0 r1_0) (View.ld x1 r1_1)⟩]

/-- The one store covers the output block. -/
theorem cover1_2 (p0 : Vec F S1000x64 .f32) (y : S1000x64.Idx) :
    ∃ pc ∈ ([⟨r1_2, p0⟩] : List (View.Piece (Elt F) S1000x64 .f32)), y ∈ pc.1.set :=
  View.cover_of_tiled [⟨r1_2, p0⟩] S1000x64.size (by rfl) y

set_option maxHeartbeats 1000000 in
/-- The body on whole staging buffers, the inputs at contents `x0`, `x1` and the output at anything, runs to the
    continuation with the inputs unchanged and the output at `out1_2 x0 x1`. -/
theorem sound_kernel1 (c : Dev nD) (E : Set ℕ) (i : grid1.Coords) (arg0 : Memref sig .tc .vmem S1000x64 .f32) (harg0 : arg0.IsWhole) (arg1 : Memref sig .tc .vmem S64x64 .f32) (harg1 : arg1.IsWhole) (arg2 : Memref sig .tc .vmem S1000x64 .f32) (harg2 : arg2.IsWhole)
    (x0 : Vec F S1000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__dense_kernel i arg0 harg0 arg1 harg1 arg2 harg2) K := by
  simp only [cc1__dense_kernel_eq_skeleton]; unfold cc1__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at point `t`
    each input's buffer at its block and the output's at the product of the two blocks; the invariant holds the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Gen

end
-- ==== Proof.KI.Region2.lean ====
/-
  Region 2 of @main: one dense layer's feature transform, the second hidden features times the weights of the mean's layer (10000×64 by 64×32), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.KernelIdeal.Launch
import proofs.«161064_j52209622450442_1_alg».proof.Proof.Gen.KernelIdeal.Skeleton
import proofs.«161064_j52209622450442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block of the left operand sits in its current staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand, fetched once, sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev r2_0 : Rect S1000x64 := Rect.unit (s := S1000x64) ![0, 0] S1000x64.size inb_S1000x64_S1000x64_0_0
abbrev r2_1 : Rect S64x32 := Rect.unit (s := S64x32) ![0, 0] S64x32.size inb_S64x32_S64x32_0_0
abbrev r2_2 : Rect S1000x32 := Rect.unit (s := S1000x32) ![0, 0] S1000x32.size inb_S1000x32_S1000x32_0_0

/-- The output block after the body: one store of the product of the two blocks read. -/
def out2_2 (x0 : Vec F S1000x64 .f32) (x1 : Vec F S64x32 .f32) : Vec F S1000x32 .f32 :=
  View.canon [⟨r2_2, k2_pay1 (View.ld x0 r2_0) (View.ld x1 r2_1)⟩]

/-- The one store covers the output block. -/
theorem cover2_2 (p0 : Vec F S1000x32 .f32) (y : S1000x32.Idx) :
    ∃ pc ∈ ([⟨r2_2, p0⟩] : List (View.Piece (Elt F) S1000x32 .f32)), y ∈ pc.1.set :=
  View.cover_of_tiled [⟨r2_2, p0⟩] S1000x32.size (by rfl) y

set_option maxHeartbeats 1000000 in
/-- The body on whole staging buffers, the inputs at contents `x0`, `x1` and the output at anything, runs to the
    continuation with the inputs unchanged and the output at `out2_2 x0 x1`. -/
theorem sound_kernel2 (c : Dev nD) (E : Set ℕ) (i : grid2.Coords) (arg0 : Memref sig .tc .vmem S1000x64 .f32) (harg0 : arg0.IsWhole) (arg1 : Memref sig .tc .vmem S64x32 .f32) (harg1 : arg1.IsWhole) (arg2 : Memref sig .tc .vmem S1000x32 .f32) (harg2 : arg2.IsWhole)
    (x0 : Vec F S1000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__dense_kernel i arg0 harg0 arg1 harg1 arg2 harg2) K := by
  simp only [cc2__dense_kernel_eq_skeleton]; unfold cc2__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at point `t`
    each input's buffer at its block and the output's at the product of the two blocks; the invariant holds the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Gen

end
-- ==== Proof.KI.Region3.lean ====
/-
  Region 3 of @main: one dense layer's feature transform, the second hidden features times the weights of the log-deviation's layer (10000×64 by 64×32), tiled over the rows in 10 blocks of 1000.
  At a grid point the body reads a block of 1000 rows of the left operand and the whole right operand and stores
  their matrix product into the output block. Here: the blocks as read off the arrays the region is entered
  with, what the body leaves in the output block, the body's triple, and the pipeline's proof data with the
  body obligation at every point. Everything holds for any float interpretation.
-/
import proofs.«161064_j52209622450442_1_alg».proof.Proof.Gen.KernelIdeal.Launch
import proofs.«161064_j52209622450442_1_alg».proof.Proof.Gen.KernelIdeal.Skeleton
import proofs.«161064_j52209622450442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block of the left operand sits in its current staging buffer at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The right operand, fetched once, sits in its staging buffer at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev r3_0 : Rect S1000x64 := Rect.unit (s := S1000x64) ![0, 0] S1000x64.size inb_S1000x64_S1000x64_0_0
abbrev r3_1 : Rect S64x32 := Rect.unit (s := S64x32) ![0, 0] S64x32.size inb_S64x32_S64x32_0_0
abbrev r3_2 : Rect S1000x32 := Rect.unit (s := S1000x32) ![0, 0] S1000x32.size inb_S1000x32_S1000x32_0_0

/-- The output block after the body: one store of the product of the two blocks read. -/
def out3_2 (x0 : Vec F S1000x64 .f32) (x1 : Vec F S64x32 .f32) : Vec F S1000x32 .f32 :=
  View.canon [⟨r3_2, k3_pay1 (View.ld x0 r3_0) (View.ld x1 r3_1)⟩]

/-- The one store covers the output block. -/
theorem cover3_2 (p0 : Vec F S1000x32 .f32) (y : S1000x32.Idx) :
    ∃ pc ∈ ([⟨r3_2, p0⟩] : List (View.Piece (Elt F) S1000x32 .f32)), y ∈ pc.1.set :=
  View.cover_of_tiled [⟨r3_2, p0⟩] S1000x32.size (by rfl) y

set_option maxHeartbeats 1000000 in
/-- The body on whole staging buffers, the inputs at contents `x0`, `x1` and the output at anything, runs to the
    continuation with the inputs unchanged and the output at `out3_2 x0 x1`. -/
theorem sound_kernel3 (c : Dev nD) (E : Set ℕ) (i : grid3.Coords) (arg0 : Memref sig .tc .vmem S1000x64 .f32) (harg0 : arg0.IsWhole) (arg1 : Memref sig .tc .vmem S64x32 .f32) (harg1 : arg1.IsWhole) (arg2 : Memref sig .tc .vmem S1000x32 .f32) (harg2 : arg2.IsWhole)
    (x0 : Vec F S1000x64 .f32) (x1 : Vec F S64x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__dense_kernel i arg0 harg0 arg1 harg1 arg2 harg2) K := by
  simp only [cc3__dense_kernel_eq_skeleton]; unfold cc3__dense_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of pipeline 3 on core `c`: the arrays as the region finds them; after the body at point `t`
    each input's buffer at its block and the output's at the product of the two blocks; the invariant holds the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Gen

end
-- ==== Proof.KI.Region4.lean ====
/- REGION 4 of @main: custom_call 4, `cc4__decode_kernel` (pipeline 4), at the region-entry contents `V`.
   The decode kernel computes `logistic (zr · zcᵀ)` on a grid of 50 points: window 0 is a 200x32 block of `z`,
   window 1 the whole 10000x32 `z`, window 2 a 200x10000 block of the output. Windows 0 and 1 read ONE array, so the
   core holds it for them at two complementary halves of the full share. -/
import proofs.«161064_j52209622450442_1_alg».proof.Proof.Gen.KernelIdeal.Launch
import proofs.«161064_j52209622450442_1_alg».proof.Proof.Gen.KernelIdeal.Skeleton
import proofs.«161064_j52209622450442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place: the window is fetched at every point, uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point: fetched at the first point, and at the
    later ones the block index has not moved and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each staging buffer whole -/

abbrev r4_0 : Rect S200x32 := Rect.unit (s := S200x32) ![0, 0] S200x32.size inb_S200x32_S200x32_0_0
abbrev r4_1 : Rect S10000x32 := Rect.unit (s := S10000x32) ![0, 0] S10000x32.size inb_S10000x32_S10000x32_0_0
abbrev r4_2 : Rect S200x10000 := Rect.unit (s := S200x10000) ![0, 0] S200x10000.size inb_S200x10000_S200x10000_0_0

/-! ## What the body leaves in the output window's buffer -/

/-- Window 2's staging buffer after the body, from the input windows' blocks: its one store, of
    `logistic (x0 · x1ᵀ)` (the skeleton's payload) over the whole buffer. -/
def out4_2 (x0 : Vec F S200x32 .f32) (x1 : Vec F S10000x32 .f32) : Vec F S200x10000 .f32 :=
  View.canon [⟨r4_2, k4_pay1 (View.ld x0 r4_0) (View.ld x1 r4_1)⟩]

/-- The store's rectangle is the whole buffer, so it covers it. -/
theorem cover4_2 (p0 : Vec F S200x10000 .f32) (y : S200x10000.Idx) :
    ∃ pc ∈ ([⟨r4_2, p0⟩] : List (View.Piece (Elt F) S200x10000 .f32)), y ∈ pc.1.set :=
  View.cover_of_tiled [⟨r4_2, p0⟩] S200x10000.size (by rfl) y

/-! ## The body's triple -/

set_option maxHeartbeats 1000000 in
/-- The kernel body on whole staging memrefs, the inputs' at contents `x0`, `x1` and the output's at anything, runs
    to the continuation holding the inputs' as they were and the output's at `out4_2 x0 x1`: it loads the two inputs,
    loads the output buffer (the value is unused) and stores the payload over all of it. -/
theorem sound_kernel4 (c : Dev nD) (E : Set ℕ) (i : grid4.Coords) (arg0 : Memref sig .tc .vmem S200x32 .f32) (harg0 : arg0.IsWhole) (arg1 : Memref sig .tc .vmem S10000x32 .f32) (harg1 : arg1.IsWhole) (arg2 : Memref sig .tc .vmem S200x10000 .f32) (harg2 : arg2.IsWhole)
    (x0 : Vec F S200x32 .f32) (x1 : Vec F S10000x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__decode_kernel i arg0 harg0 arg1 harg1 arg2 harg2) K := by
  simp only [cc4__decode_kernel_eq_skeleton]; unfold cc4__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at point
    `t` each input's buffer at its block and the output's at `out4_2` of the input blocks; the invariant the scoped
    rest and the generator register, untouched; nothing owed. Windows 0 and 1 read the same array: the core holds it
    for window 0 at the left half of the full share and for window 1 at the right half, which compose to the whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The region's arrays out of the core's unscoped buffers, and back

Windows 0 and 1 read one array, so the buffers behind the three windows' arrays are two: the core's whole hold of
the shared input splits along the share into the two halves the input windows hold it at, and joins back. -/

/-- The buffers behind the windows' arrays: the shared input and the output. -/
theorem arrImage4 : Finset.univ.image (Pipeline.arrRef spec4) = {main_v105, main_v106} := by decide

/-- The pipeline's arrays at contents `G`, window by window: the shared input at the left half of the full share
    for window 0 and at the right half for window 1, the output whole; each array is a whole buffer. -/
theorem arrays4_eq (c : Dev nD) (G : (w : Fin cfg4.W) → Buf (Elt F) ((cfg4.win w).arr.view.loc (c : Thread nD τ))) :
    ((dat4 V c).arrays G : sProp 𝕄)
      = iprop((((c : Thread nD τ).loc main_v105) ↦{fullShare.left} G 0) ∗ (((c : Thread nD τ).loc main_v105) ↦{fullShare.right} G 1)
          ∗ (((c : Thread nD τ).loc main_v106) ↦{fullShare} G 2)) := by
  unfold Dat.arrays
  rw [bigSep_W4, (arr_whole4 0).set_eq_univ, (arr_whole4 2).set_eq_univ]
  rfl

/-- ENTRY: the core's unscoped buffers at `V` are the pipeline's arrays at their entry contents and the unscoped
    rest; the shared input, held whole, is split into the two halves of its share. -/
theorem entry4 (c : Dev nD) :
    (unscopedBufs c (V c) : sProp 𝕄)
      ⊢ iprop((dat4 V c).arrays ((dat4 V c).arrAt · 0) ∗ Pipeline.unscopedRest (Ix := Unit) (Name := ℕ) (U := UR sig nD τ) (Lvl := ℕ) spec4 c (V c)) := by
  have hsplit : (unscopedBufs c (V c) : sProp 𝕄)
      = iprop(Pipeline.arrBufs spec4 c (V c) ∗ Pipeline.unscopedRest (Ix := Unit) (Name := ℕ) (U := UR sig nD τ) (Lvl := ℕ) spec4 c (V c)) :=
    Pipeline.unscopedBufs_split₀ cfgs 4 winFacts₀4.arr_unscoped c (V c)
  rw [hsplit]
  refine sep_mono ?_ .rfl
  rw [arrays4_eq]
  unfold Pipeline.arrBufs
  rw [arrImage4, bigSep_insert (by decide), bigSep_singleton]
  exact (sep_mono (pointsTo_share (PosShare.mem_left_op_right fullShare)).1 .rfl).trans sep_assoc.1

/-- EXIT: the pipeline's arrays at what its write-backs leave and the unscoped rest at `V` are the core's unscoped
    buffers at any contents `V'` that has the arrays there and agrees with `V` off them; the two halves of the
    shared input's share, at equal contents, join to the whole. -/
theorem exit4 (c : Dev nD) (V' : (b : Ref sig .tc) → Buf (Elt F) ((c : Thread nD τ).loc b))
    (hF : ∀ w, (dat4 V c).arrAt w cfg4.N = V' (Pipeline.arrRef spec4 w))
    (hrest : ∀ b, b ∉ Finset.univ.image (Pipeline.arrRef spec4) → V' b = V c b) :
    iprop((dat4 V c).arrays ((dat4 V c).arrAt · cfg4.N) ∗ Pipeline.unscopedRest (Ix := Unit) (Name := ℕ) (U := UR sig nD τ) (Lvl := ℕ) spec4 c (V c))
      ⊢ (unscopedBufs c V' : sProp 𝕄) := by
  have hsplit : (unscopedBufs c V' : sProp 𝕄)
      = iprop(Pipeline.arrBufs spec4 c V' ∗ Pipeline.unscopedRest (Ix := Unit) (Name := ℕ) (U := UR sig nD τ) (Lvl := ℕ) spec4 c V') :=
    Pipeline.unscopedBufs_split₀ cfgs 4 winFacts₀4.arr_unscoped c V'
  rw [hsplit]
  refine sep_mono ?_ (Entails.of_eq ?_)
  · rw [arrays4_eq, hF 0, hF 1, hF 2]
    unfold Pipeline.arrBufs
    rw [arrImage4, bigSep_insert (by decide), bigSep_singleton]
    exact sep_assoc.2.trans (sep_mono (pointsTo_share (PosShare.mem_left_op_right fullShare)).2 .rfl)
  · unfold Pipeline.unscopedRest
    exact bigSep_congr fun b hb => by rw [hrest b (Finset.mem_sdiff.mp hb).2]

end Region4

end Cert.KernelIdeal.Gen

end
-- ==== Proof.KI.Run.lean ====
/-
  The run of the whole program: its @main is ten stretches of host operations and five kernel regions. The four
  dense regions compute the feature transforms of the four graph-convolution layers; the last region decodes
  the latent vectors into the predicted adjacency. Between two items a core holds every unscoped buffer whole;
  a host stretch changes the buffers it writes, a region changes its result array only, to what its grid
  points' blocks, written back, make. Chaining the items gives: every weakly fair execution of @main ends with
  every unscoped buffer at the last of these contents.
-/
import proofs.«161064_j52209622450442_1_alg».proof.Proof.Gen.KernelIdeal.Regions
import proofs.«161064_j52209622450442_1_alg».proof.Proof.KI.Region0
import proofs.«161064_j52209622450442_1_alg».proof.Proof.KI.Region1
import proofs.«161064_j52209622450442_1_alg».proof.Proof.KI.Region2
import proofs.«161064_j52209622450442_1_alg».proof.Proof.KI.Region3
import proofs.«161064_j52209622450442_1_alg».proof.Proof.KI.Region4
import Idealize.ShloMosaic.Lib.Pipeline.Frame
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A core's buffer contents read at the TensorCore's references. -/
abbrev atTc (W : Dev nD → Valuation τ sig (Elt F)) : (c : Dev nD) → (b : Ref sig .tc) → Buf (Elt F) ((c : Thread nD τ).loc b) :=
  fun c b => W c b

/-! ## The buffers' contents after each item from the first region on -/

/-- After region 0: the first layer's transform `x · W0` in its result array. -/
def U4 (c : Dev nD) : Valuation τ sig (Elt F) :=
  Function.update (V3 m c) main_v31 ((dat0 (atTc (V3 m)) c).arrAt 2 cfg0.N)
def U5 (c : Dev nD) : Valuation τ sig (Elt F) := StableHlo.after hostOps1 (U4 m c)
def U6 (c : Dev nD) : Valuation τ sig (Elt F) := StableHlo.after hostOps1_1 (U5 m c)
/-- After region 1: the second layer's transform. -/
def U7 (c : Dev nD) : Valuation τ sig (Elt F) :=
  Function.update (U6 m c) main_v49 ((dat1 (atTc (U6 m)) c).arrAt 2 cfg1.N)
def U8 (c : Dev nD) : Valuation τ sig (Elt F) := StableHlo.after hostOps2 (U7 m c)
def U9 (c : Dev nD) : Valuation τ sig (Elt F) := StableHlo.after hostOps2_1 (U8 m c)
/-- After region 2: the transform of the mean's layer. -/
def U10 (c : Dev nD) : Valuation τ sig (Elt F) :=
  Function.update (U9 m c) main_v67 ((dat2 (atTc (U9 m)) c).arrAt 2 cfg2.N)
def U11 (c : Dev nD) : Valuation τ sig (Elt F) := StableHlo.after hostOps3 (U10 m c)
/-- After region 3: the transform of the log-deviation's layer. -/
def U12 (c : Dev nD) : Valuation τ sig (Elt F) :=
  Function.update (U11 m c) main_v84 ((dat3 (atTc (U11 m)) c).arrAt 2 cfg3.N)
def U13 (c : Dev nD) : Valuation τ sig (Elt F) := StableHlo.after hostOps4 (U12 m c)
/-- After region 4: the decoded adjacency. -/
def U14 (c : Dev nD) : Valuation τ sig (Elt F) :=
  Function.update (U13 m c) main_v106 ((dat4 (atTc (U13 m)) c).arrAt 2 cfg4.N)

/-- What the regions leave, as the family the chained valuations are written over. -/
def outs : Outs (F := F) := fun j r c => match j with
  | 4 => U4 m c r | 7 => U7 m c r | 10 => U10 m c r | 12 => U12 m c r | 14 => U14 m c r | _ => V0 m c r

theorem V4_eq (c : Dev nD) : V4 m (outs m) c = U4 m c := by
  show Function.update (V3 m c) main_v31 (U4 m c main_v31) = U4 m c
  unfold U4; rw [Function.update_self]
theorem V5_eq (c : Dev nD) : V5 m (outs m) c = U5 m c := by
  show StableHlo.after hostOps1 (V4 m (outs m) c) = _; rw [V4_eq]; rfl
theorem V6_eq (c : Dev nD) : V6 m (outs m) c = U6 m c := by
  show StableHlo.after hostOps1_1 (V5 m (outs m) c) = _; rw [V5_eq]; rfl
theorem V7_eq (c : Dev nD) : V7 m (outs m) c = U7 m c := by
  show Function.update (V6 m (outs m) c) main_v49 (U7 m c main_v49) = U7 m c
  rw [V6_eq]; unfold U7; rw [Function.update_self]
theorem V8_eq (c : Dev nD) : V8 m (outs m) c = U8 m c := by
  show StableHlo.after hostOps2 (V7 m (outs m) c) = _; rw [V7_eq]; rfl
theorem V9_eq (c : Dev nD) : V9 m (outs m) c = U9 m c := by
  show StableHlo.after hostOps2_1 (V8 m (outs m) c) = _; rw [V8_eq]; rfl
theorem V10_eq (c : Dev nD) : V10 m (outs m) c = U10 m c := by
  show Function.update (V9 m (outs m) c) main_v67 (U10 m c main_v67) = U10 m c
  rw [V9_eq]; unfold U10; rw [Function.update_self]
theorem V11_eq (c : Dev nD) : V11 m (outs m) c = U11 m c := by
  show StableHlo.after hostOps3 (V10 m (outs m) c) = _; rw [V10_eq]; rfl
theorem V12_eq (c : Dev nD) : V12 m (outs m) c = U12 m c := by
  show Function.update (V11 m (outs m) c) main_v84 (U12 m c main_v84) = U12 m c
  rw [V11_eq]; unfold U12; rw [Function.update_self]
theorem V13_eq (c : Dev nD) : V13 m (outs m) c = U13 m c := by
  show StableHlo.after hostOps4 (V12 m (outs m) c) = _; rw [V12_eq]; rfl
theorem V14_eq (c : Dev nD) : V14 m (outs m) c = U14 m c := by
  show Function.update (V13 m (outs m) c) main_v106 (U14 m c main_v106) = U14 m c
  rw [V13_eq]; unfold U14; rw [Function.update_self]

/-! ## The proof data family and what rides beside the buffers -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (atTc (V3 m)) c
  | ⟨1, _⟩ => fun c => dat1 (atTc (U6 m)) c
  | ⟨2, _⟩ => fun c => dat2 (atTc (U9 m)) c
  | ⟨3, _⟩ => fun c => dat3 (atTc (U11 m)) c
  | ⟨4, _⟩ => fun c => dat4 (atTc (U13 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- An unscoped TensorCore reference is among those a core holds between items. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Equal contents, the same thread state. -/
theorem held_congr {c : Dev nD} {W W' : Valuation τ sig (Elt F)} (h : W = W') :
    (iprop(StableHlo.held (c : Thread nD τ) (Pipeline.ucRefs τ sig) W ∗ R c) : sProp 𝕄)
      ⊢ iprop(StableHlo.held (c : Thread nD τ) (Pipeline.ucRefs τ sig) W' ∗ R c) := by
  subst h; exact .rfl

/-! ## The regions as segments -/

/-- At region 0's exit each of its arrays holds what the pipeline leaves: the two operands as entered, the result
    the blocks written back. -/
theorem hF0 (c : Dev nD) (w : Fin cfg0.W) : (dat0 (atTc (V3 m)) c).arrAt w cfg0.N = atTc (U4 m) c (Pipeline.arrRef spec0 w) :=
  match w with
  | ⟨0, _⟩ => ((dat0 (atTc (V3 m)) c).arrAt_in 0 rfl _).trans ((A_eq0 (atTc (V3 m)) c 0).trans
      (Function.update_of_ne (StableHlo.devRef_ne_of_ne (by decide) : (Proc.devRef .tc main_arg0 : DevRef τ sig) ≠ Proc.devRef .tc main_v31) _ _).symm)
  | ⟨1, _⟩ => ((dat0 (atTc (V3 m)) c).arrAt_in 1 rfl _).trans ((A_eq0 (atTc (V3 m)) c 1).trans
      (Function.update_of_ne (StableHlo.devRef_ne_of_ne (by decide) : (Proc.devRef .tc main_arg3 : DevRef τ sig) ≠ Proc.devRef .tc main_v31) _ _).symm)
  | ⟨2, _⟩ => by
      have h : U4 m c (Proc.devRef .tc main_v31) = (dat0 (atTc (V3 m)) c).arrAt 2 cfg0.N := by
        unfold U4; exact Function.update_self _ _ _
      exact h.symm
/-- Every other buffer holds what it held at entry. -/
theorem hrest0 (c : Dev nD) : ∀ b, b ∉ Finset.univ.image (Pipeline.arrRef spec0) → atTc (U4 m) c b = atTc (V3 m) c b :=
  fun b hb => Function.update_of_ne (StableHlo.devRef_ne_of_ne (fun e => hb (Finset.mem_image.mpr ⟨2, Finset.mem_univ _, e.symm⟩))) _ _

set_option backward.isDefEq.respectTransparency.types false in
/-- Region 0 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (V3 m) c) (atTc (U4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: the two operands as entered, the result
    the blocks written back. -/
theorem hF1 (c : Dev nD) (w : Fin cfg1.W) : (dat1 (atTc (U6 m)) c).arrAt w cfg1.N = atTc (U7 m) c (Pipeline.arrRef spec1 w) :=
  match w with
  | ⟨0, _⟩ => ((dat1 (atTc (U6 m)) c).arrAt_in 0 rfl _).trans ((A_eq1 (atTc (U6 m)) c 0).trans
      (Function.update_of_ne (StableHlo.devRef_ne_of_ne (by decide) : (Proc.devRef .tc main_v48 : DevRef τ sig) ≠ Proc.devRef .tc main_v49) _ _).symm)
  | ⟨1, _⟩ => ((dat1 (atTc (U6 m)) c).arrAt_in 1 rfl _).trans ((A_eq1 (atTc (U6 m)) c 1).trans
      (Function.update_of_ne (StableHlo.devRef_ne_of_ne (by decide) : (Proc.devRef .tc main_arg5 : DevRef τ sig) ≠ Proc.devRef .tc main_v49) _ _).symm)
  | ⟨2, _⟩ => by
      have h : U7 m c (Proc.devRef .tc main_v49) = (dat1 (atTc (U6 m)) c).arrAt 2 cfg1.N := by
        unfold U7; exact Function.update_self _ _ _
      exact h.symm
/-- Every other buffer holds what it held at entry. -/
theorem hrest1 (c : Dev nD) : ∀ b, b ∉ Finset.univ.image (Pipeline.arrRef spec1) → atTc (U7 m) c b = atTc (U6 m) c b :=
  fun b hb => Function.update_of_ne (StableHlo.devRef_ne_of_ne (fun e => hb (Finset.mem_image.mpr ⟨2, Finset.mem_univ _, e.symm⟩))) _ _

set_option backward.isDefEq.respectTransparency.types false in
/-- Region 1 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (U6 m)) c).loose
  hwaits := Pipeline.hwaits_of_owed_zero _ _ _ _ L lv 1 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec1 c (atTc (U6 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (U6 m) c) (atTc (U7 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: the two operands as entered, the result
    the blocks written back. -/
theorem hF2 (c : Dev nD) (w : Fin cfg2.W) : (dat2 (atTc (U9 m)) c).arrAt w cfg2.N = atTc (U10 m) c (Pipeline.arrRef spec2 w) :=
  match w with
  | ⟨0, _⟩ => ((dat2 (atTc (U9 m)) c).arrAt_in 0 rfl _).trans ((A_eq2 (atTc (U9 m)) c 0).trans
      (Function.update_of_ne (StableHlo.devRef_ne_of_ne (by decide) : (Proc.devRef .tc main_v66 : DevRef τ sig) ≠ Proc.devRef .tc main_v67) _ _).symm)
  | ⟨1, _⟩ => ((dat2 (atTc (U9 m)) c).arrAt_in 1 rfl _).trans ((A_eq2 (atTc (U9 m)) c 1).trans
      (Function.update_of_ne (StableHlo.devRef_ne_of_ne (by decide) : (Proc.devRef .tc main_arg7 : DevRef τ sig) ≠ Proc.devRef .tc main_v67) _ _).symm)
  | ⟨2, _⟩ => by
      have h : U10 m c (Proc.devRef .tc main_v67) = (dat2 (atTc (U9 m)) c).arrAt 2 cfg2.N := by
        unfold U10; exact Function.update_self _ _ _
      exact h.symm
/-- Every other buffer holds what it held at entry. -/
theorem hrest2 (c : Dev nD) : ∀ b, b ∉ Finset.univ.image (Pipeline.arrRef spec2) → atTc (U10 m) c b = atTc (U9 m) c b :=
  fun b hb => Function.update_of_ne (StableHlo.devRef_ne_of_ne (fun e => hb (Finset.mem_image.mpr ⟨2, Finset.mem_univ _, e.symm⟩))) _ _

set_option backward.isDefEq.respectTransparency.types false in
/-- Region 2 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (atTc (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (U9 m) c) (atTc (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: the two operands as entered, the result
    the blocks written back. -/
theorem hF3 (c : Dev nD) (w : Fin cfg3.W) : (dat3 (atTc (U11 m)) c).arrAt w cfg3.N = atTc (U12 m) c (Pipeline.arrRef spec3 w) :=
  match w with
  | ⟨0, _⟩ => ((dat3 (atTc (U11 m)) c).arrAt_in 0 rfl _).trans ((A_eq3 (atTc (U11 m)) c 0).trans
      (Function.update_of_ne (StableHlo.devRef_ne_of_ne (by decide) : (Proc.devRef .tc main_v66 : DevRef τ sig) ≠ Proc.devRef .tc main_v84) _ _).symm)
  | ⟨1, _⟩ => ((dat3 (atTc (U11 m)) c).arrAt_in 1 rfl _).trans ((A_eq3 (atTc (U11 m)) c 1).trans
      (Function.update_of_ne (StableHlo.devRef_ne_of_ne (by decide) : (Proc.devRef .tc main_arg9 : DevRef τ sig) ≠ Proc.devRef .tc main_v84) _ _).symm)
  | ⟨2, _⟩ => by
      have h : U12 m c (Proc.devRef .tc main_v84) = (dat3 (atTc (U11 m)) c).arrAt 2 cfg3.N := by
        unfold U12; exact Function.update_self _ _ _
      exact h.symm
/-- Every other buffer holds what it held at entry. -/
theorem hrest3 (c : Dev nD) : ∀ b, b ∉ Finset.univ.image (Pipeline.arrRef spec3) → atTc (U12 m) c b = atTc (U11 m) c b :=
  fun b hb => Function.update_of_ne (StableHlo.devRef_ne_of_ne (fun e => hb (Finset.mem_image.mpr ⟨2, Finset.mem_univ _, e.symm⟩))) _ _

set_option backward.isDefEq.respectTransparency.types false in
/-- Region 3 as a segment of @main: entered with every unscoped buffer at the contents the stretch before it left,
    left with the result array at what the blocks written back make and every other buffer unchanged. Its arrays are
    split out of the unscoped buffers and put back; the generator register goes into the invariant and comes out;
    nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (U11 m)) c).loose
  hwaits := Pipeline.hwaits_of_owed_zero _ _ _ _ L lv 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (atTc (U11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (U11 m) c) (atTc (U12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit its arrays hold what the pipeline leaves: the latent vectors (read through two windows) as
    entered, the adjacency the blocks written back. -/
theorem hF4 (c : Dev nD) (w : Fin cfg4.W) : (dat4 (atTc (U13 m)) c).arrAt w cfg4.N = atTc (U14 m) c (Pipeline.arrRef spec4 w) :=
  match w with
  | ⟨0, _⟩ => ((dat4 (atTc (U13 m)) c).arrAt_in 0 rfl _).trans ((A_eq4 (atTc (U13 m)) c 0).trans
      (Function.update_of_ne (StableHlo.devRef_ne_of_ne (by decide) : (Proc.devRef .tc main_v105 : DevRef τ sig) ≠ Proc.devRef .tc main_v106) _ _).symm)
  | ⟨1, _⟩ => ((dat4 (atTc (U13 m)) c).arrAt_in 1 rfl _).trans ((A_eq4 (atTc (U13 m)) c 1).trans
      (Function.update_of_ne (StableHlo.devRef_ne_of_ne (by decide) : (Proc.devRef .tc main_v105 : DevRef τ sig) ≠ Proc.devRef .tc main_v106) _ _).symm)
  | ⟨2, _⟩ => by
      have h : U14 m c (Proc.devRef .tc main_v106) = (dat4 (atTc (U13 m)) c).arrAt 2 cfg4.N := by
        unfold U14; exact Function.update_self _ _ _
      exact h.symm
theorem hrest4 (c : Dev nD) : ∀ b, b ∉ Finset.univ.image (Pipeline.arrRef spec4) → atTc (U14 m) c b = atTc (U13 m) c b :=
  fun b hb => Function.update_of_ne (StableHlo.devRef_ne_of_ne (fun e => hb (Finset.mem_image.mpr ⟨2, Finset.mem_univ _, e.symm⟩))) _ _

set_option backward.isDefEq.respectTransparency.types false in
/-- Region 4 as a segment of @main. Its two input windows read ONE array, the latent vectors: the array's full
    share is dealt between them in halves at entry and joined again at exit. -/
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (atTc (U13 m)) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (atTc (U13 m) c)
  hentry c := by
    rw [Pipeline.ownSems0_none]
    have hsplit : (unscopedBufs c (atTc (U13 m) c) : sProp 𝕄)
        ⊢ iprop((pdats m 4 c).arrays ((pdats m 4 c).arrAt · 0) ∗ Pipeline.unscopedRest (Ix := Unit) (Name := ℕ) (U := UR sig nD τ) (Lvl := ℕ) spec4 c (atTc (U13 m) c)) :=
      entry4 (atTc (U13 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest (Ix := Unit) (Name := ℕ) (U := UR sig nD τ) (Lvl := ℕ) spec4 c (atTc (U13 m) c))
        ⊢ (unscopedBufs c (atTc (U14 m) c) : sProp 𝕄) :=
      exit4 (atTc (U13 m)) c (atTc (U14 m) c) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After the last region the dues are set apart from the buffers and the generator register. -/
theorem last_step (c : Dev nD) :
    (iprop(StableHlo.held (c : Thread nD τ) (Pipeline.ucRefs τ sig) (U14 m c) ∗ R c) : sProp 𝕄)
      ⊢ iprop((StableHlo.held (c : Thread nD τ) (Pipeline.ucRefs τ sig) (U14 m c) ∗ ∃ r, prngReg c r)
          ∗ ∃ W, owes (c : Thread nD τ) (0 : CellTallies nD τ sig Unit) W) := by
  iintro ⟨Hh, ⟨Hp, HO⟩⟩
  isplitl [Hh Hp]
  · isplitl [Hh]; · iexact Hh
    iexact Hp
  iexact HO

/-! ## The launch -/

set_option backward.isDefEq.respectTransparency.types false in
/-- Every weakly fair execution of @main from memory `m` with zero counters terminates, and every final memory
    holds each unscoped buffer at the last contents of the chain. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U14 m c b) := by
  refine Pipeline.θ_run_regions_kit_dev (pcfgs (F := F)) adm (pdats m) () cellOf_inj emb₁ defs₀ 𝒱₀ L lv m ρ main
    (segs m (outs m) 𝒱₀ L lv (fun _ => R) () (pdats m) (reg0 m) (reg1 m) (reg2 m) (reg3 m) (reg4 m))
    (fun c Q => by
      rewrite [main_chain c, Seg.run_eq_chain,
        show (segs m (outs m) 𝒱₀ L lv (fun _ => R) () (pdats m) (reg0 m) (reg1 m) (reg2 m) (reg3 m) (reg4 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U14 m c) ∗ ∃ r, prngReg c r))
    (hch := fun c => ⟨.rfl, .rfl, .rfl, .rfl,
      held_congr (V4_eq m c).symm, .rfl,
      held_congr (V6_eq m c), held_congr (V7_eq m c).symm, .rfl,
      held_congr (V9_eq m c), held_congr (V10_eq m c).symm,
      held_congr (V11_eq m c), held_congr (V12_eq m c).symm,
      held_congr (V13_eq m c),
      last_step m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U14 m c b)
    (hfin := fun c s' => by
      iintro ⟨⟨Hh, -⟩, HSI⟩
      unfold StableHlo.held
      imodintro
      iapply (pointsTo_read_all (Pipeline.ucRefs τ sig) (fun b => (((c : Thread nD τ)).1, b)) (U14 m c) s')
      isplitl [Hh] <;> iassumption)
    (hQ := fun _ h => h)

/-- Each argument array ends as launched. -/
theorem U14_arg (c : Dev nD) (r : Ref sig .tc) (h : V14 m (outs m) c r = m ((c : Thread nD τ).loc r)) :
    U14 m c r = m ((c : Thread nD τ).loc r) := by rw [← V14_eq]; exact h

end Cert.KernelIdeal.Gen

end
-- ==== Proof.BridgeHost.lean ====
/-
  The host stretches of the kernel's program, one live value at a time. Between its five kernel regions the program
  runs the same graph plumbing as the reference: the symmetric normalisation of the edge list with self-loops, and
  per layer the gather of source rows, the scaling by the edge norm, the scatter-add into destination rows, the
  bias, and the rectifier or the reparameterisation. Each lemma says: the buffer a stretch leaves holds the
  reference's value of the same name at the arguments, GIVEN that each dense region's result array holds the
  reference's matrix product (hypotheses `h31`, `h49`, `h67`, `h84`). Both sides are the same operations applied
  to equal operands, so after naming the operands the two terms coincide.
-/
import proofs.«161064_j52209622450442_1_alg».proof.Proof.Gen.KernelIdeal.Regions
import proofs.«161064_j52209622450442_1_alg».proof.Proof.RefRead
import Idealize.ShloMosaic.Lib.StableHlo.Run

set_option maxRecDepth 16384

noncomputable section

namespace Cert.Bridge

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F)) (c : Dev nD)

/-- Argument 0 as launched on core `c`. -/
abbrev a0 := m ((c.tc : Thread nD τ).loc main_arg0)
/-- Argument 1 as launched on core `c`. -/
abbrev a1 := m ((c.tc : Thread nD τ).loc main_arg1)
/-- Argument 2 as launched on core `c`. -/
abbrev a2 := m ((c.tc : Thread nD τ).loc main_arg2)
/-- Argument 3 as launched on core `c`. -/
abbrev a3 := m ((c.tc : Thread nD τ).loc main_arg3)
/-- Argument 4 as launched on core `c`. -/
abbrev a4 := m ((c.tc : Thread nD τ).loc main_arg4)
/-- Argument 5 as launched on core `c`. -/
abbrev a5 := m ((c.tc : Thread nD τ).loc main_arg5)
/-- Argument 6 as launched on core `c`. -/
abbrev a6 := m ((c.tc : Thread nD τ).loc main_arg6)
/-- Argument 7 as launched on core `c`. -/
abbrev a7 := m ((c.tc : Thread nD τ).loc main_arg7)
/-- Argument 8 as launched on core `c`. -/
abbrev a8 := m ((c.tc : Thread nD τ).loc main_arg8)
/-- Argument 9 as launched on core `c`. -/
abbrev a9 := m ((c.tc : Thread nD τ).loc main_arg9)
/-- Argument 10 as launched on core `c`. -/
abbrev a10 := m ((c.tc : Thread nD τ).loc main_arg10)

theorem st_v3 : V1 m c main_v3 = Cert.ReferenceIdeal.ReadP.val_main_v3 (a1 m c) := by
  have e0 : V0 m c main_arg1 = a1 m c := rfl
  show StableHlo.after hostOps0 (V0 m c) (Proc.devRef .tc main_v3) = _
  after_results
  rw [e0]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_cst_3]
  rfl

theorem st_v6 : V1 m c main_v6 = Cert.ReferenceIdeal.ReadP.val_main_v6 (a1 m c) := by
  have e0 : V0 m c main_arg1 = a1 m c := rfl
  show StableHlo.after hostOps0 (V0 m c) (Proc.devRef .tc main_v6) = _
  after_results
  rw [e0]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_cst_3]
  rfl

theorem st_v12 : V1 m c main_v12 = Cert.ReferenceIdeal.ReadP.val_main_v12 (a1 m c) := by
  have e0 : V0 m c main_arg1 = a1 m c := rfl
  show StableHlo.after hostOps0 (V0 m c) (Proc.devRef .tc main_v12) = _
  after_results
  rw [e0]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_cst_3]
  rfl

theorem st_v14 : V1 m c main_v14 = Cert.ReferenceIdeal.ReadP.val_main_v14 (a1 m c) := by
  have e0 : V0 m c main_arg1 = a1 m c := rfl
  show StableHlo.after hostOps0 (V0 m c) (Proc.devRef .tc main_v14) = _
  after_results
  rw [e0]
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_cst_3]
  rfl

theorem st_cst_3 : V1 m c main_cst_3 = Cert.ReferenceIdeal.ReadP.val_main_cst_3 := by
  show StableHlo.after hostOps0 (V0 m c) (Proc.devRef .tc main_cst_3) = _
  after_results
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_cst_2, Cert.ReferenceIdeal.ReadP.val_main_v13, Cert.ReferenceIdeal.ReadP.val_main_v14, Cert.ReferenceIdeal.ReadP.val_main_cst_3]

theorem st_v15 : V2 m c main_v15 = Cert.ReferenceIdeal.ReadP.val_main_v15 (a1 m c) := by
  have e0 : V1 m c main_v12 = Cert.ReferenceIdeal.ReadP.val_main_v12 (a1 m c) := st_v12 m c
  have e1 : V1 m c main_v14 = Cert.ReferenceIdeal.ReadP.val_main_v14 (a1 m c) := st_v14 m c
  have e2 : V1 m c main_cst_3 = Cert.ReferenceIdeal.ReadP.val_main_cst_3 := st_cst_3 m c
  show StableHlo.after hostOps0_1 (V1 m c) (Proc.devRef .tc main_v15) = _
  generalize V1 m c = W at e0 e1 e2 ⊢
  after_results_simp
  rw [e0, e1, e2]
  simp only [Cert.ReferenceIdeal.ReadP.val_main_call0_v0, Cert.ReferenceIdeal.ReadP.val_main_call0_v1, Cert.ReferenceIdeal.ReadP.val_main_v15]
  rfl

set_option maxHeartbeats 1000000 in
theorem st_v30 : V3 m c main_v30 = Cert.ReferenceIdeal.ReadP.val_main_v30 (a1 m c) := by
  have e0 : V2 m c main_v3 = Cert.ReferenceIdeal.ReadP.val_main_v3 (a1 m c) := (V2_of m c main_v3 (by decide)).trans (st_v3 m c)
  have e1 : V2 m c main_v6 = Cert.ReferenceIdeal.ReadP.val_main_v6 (a1 m c) := (V2_of m c main_v6 (by decide)).trans (st_v6 m c)
  have e2 : V2 m c main_v15 = Cert.ReferenceIdeal.ReadP.val_main_v15 (a1 m c) := st_v15 m c
  show StableHlo.after hostOps0_2 (V2 m c) (Proc.devRef .tc main_v30) = _
  generalize V2 m c = W at e0 e1 e2 ⊢
  after_results_simp
  rw [e0, e1, e2]
  simp only [Cert.ReferenceIdeal.ReadP.val_main_c, Cert.ReferenceIdeal.ReadP.val_main_v16, Cert.ReferenceIdeal.ReadP.val_main_v17, Cert.ReferenceIdeal.ReadP.val_main_c_4, Cert.ReferenceIdeal.ReadP.val_main_v18, Cert.ReferenceIdeal.ReadP.val_main_v19, Cert.ReferenceIdeal.ReadP.val_main_v20, Cert.ReferenceIdeal.ReadP.val_main_v21, Cert.ReferenceIdeal.ReadP.val_main_v22, Cert.ReferenceIdeal.ReadP.val_main_c_5, Cert.ReferenceIdeal.ReadP.val_main_v23, Cert.ReferenceIdeal.ReadP.val_main_v24, Cert.ReferenceIdeal.ReadP.val_main_c_6, Cert.ReferenceIdeal.ReadP.val_main_v25, Cert.ReferenceIdeal.ReadP.val_main_v26, Cert.ReferenceIdeal.ReadP.val_main_v27, Cert.ReferenceIdeal.ReadP.val_main_v28, Cert.ReferenceIdeal.ReadP.val_main_v29, Cert.ReferenceIdeal.ReadP.val_main_v30]
  rfl

set_option maxHeartbeats 1000000 in
theorem st_v47 (h31 : V4 m outs c main_v31 = Cert.ReferenceIdeal.ReadP.val_main_v31 (a0 m c) (a3 m c)) : V5 m outs c main_v47 = Cert.ReferenceIdeal.ReadP.val_main_v47 (a0 m c) (a1 m c) (a3 m c) (a4 m c) := by
  have e0 : V4 m outs c main_v30 = Cert.ReferenceIdeal.ReadP.val_main_v30 (a1 m c) := (V4_of m outs c main_v30 (by decide)).trans (st_v30 m c)
  have e1 : V4 m outs c main_v3 = Cert.ReferenceIdeal.ReadP.val_main_v3 (a1 m c) := (V4_of m outs c main_v3 (by decide)).trans <| (V3_of m c main_v3 (by decide)).trans <| (V2_of m c main_v3 (by decide)).trans (st_v3 m c)
  have e2 : V4 m outs c main_v6 = Cert.ReferenceIdeal.ReadP.val_main_v6 (a1 m c) := (V4_of m outs c main_v6 (by decide)).trans <| (V3_of m c main_v6 (by decide)).trans <| (V2_of m c main_v6 (by decide)).trans (st_v6 m c)
  have e3 : V4 m outs c main_v31 = Cert.ReferenceIdeal.ReadP.val_main_v31 (a0 m c) (a3 m c) := h31
  have e4 : V4 m outs c main_arg4 = a4 m c := (V4_of m outs c main_arg4 (by decide)).trans <| (V3_of m c main_arg4 (by decide)).trans <| (V2_of m c main_arg4 (by decide)).trans <| (V1_of m c main_arg4 (by decide)).trans rfl
  show StableHlo.after hostOps1 (V4 m outs c) (Proc.devRef .tc main_v47) = _
  generalize V4 m outs c = W at e0 e1 e2 e3 e4 ⊢
  after_results_simp
  rw [e0, e1, e2, e3, e4]
  simp only [Cert.ReferenceIdeal.ReadP.val_main_v32, Cert.ReferenceIdeal.ReadP.val_main_c_7, Cert.ReferenceIdeal.ReadP.val_main_v33, Cert.ReferenceIdeal.ReadP.val_main_v34, Cert.ReferenceIdeal.ReadP.val_main_c_8, Cert.ReferenceIdeal.ReadP.val_main_v35, Cert.ReferenceIdeal.ReadP.val_main_v36, Cert.ReferenceIdeal.ReadP.val_main_v37, Cert.ReferenceIdeal.ReadP.val_main_v38, Cert.ReferenceIdeal.ReadP.val_main_v39, Cert.ReferenceIdeal.ReadP.val_main_v40, Cert.ReferenceIdeal.ReadP.val_main_v41, Cert.ReferenceIdeal.ReadP.val_main_cst_9, Cert.ReferenceIdeal.ReadP.val_main_v42, Cert.ReferenceIdeal.ReadP.val_main_v43, Cert.ReferenceIdeal.ReadP.val_main_v44, Cert.ReferenceIdeal.ReadP.val_main_v45, Cert.ReferenceIdeal.ReadP.val_main_v46, Cert.ReferenceIdeal.ReadP.val_main_v47]
  rfl

theorem st_v48 (h31 : V4 m outs c main_v31 = Cert.ReferenceIdeal.ReadP.val_main_v31 (a0 m c) (a3 m c)) : V6 m outs c main_v48 = Cert.ReferenceIdeal.ReadP.val_main_v48 (a0 m c) (a1 m c) (a3 m c) (a4 m c) := by
  have e0 : V5 m outs c main_v47 = Cert.ReferenceIdeal.ReadP.val_main_v47 (a0 m c) (a1 m c) (a3 m c) (a4 m c) := st_v47 m outs c h31
  show StableHlo.after hostOps1_1 (V5 m outs c) (Proc.devRef .tc main_v48) = _
  generalize V5 m outs c = W at e0 ⊢
  after_results_simp
  rw [e0]
  simp only [Cert.ReferenceIdeal.ReadP.val_main_call1_cst, Cert.ReferenceIdeal.ReadP.val_main_call1_v0, Cert.ReferenceIdeal.ReadP.val_main_v48]
  rfl

set_option maxHeartbeats 1000000 in
theorem st_v65 (h31 : V4 m outs c main_v31 = Cert.ReferenceIdeal.ReadP.val_main_v31 (a0 m c) (a3 m c)) (h49 : V7 m outs c main_v49 = Cert.ReferenceIdeal.ReadP.val_main_v49 (a0 m c) (a1 m c) (a3 m c) (a4 m c) (a5 m c)) : V8 m outs c main_v65 = Cert.ReferenceIdeal.ReadP.val_main_v65 (a0 m c) (a1 m c) (a3 m c) (a4 m c) (a5 m c) (a6 m c) := by
  have e0 : V7 m outs c main_v30 = Cert.ReferenceIdeal.ReadP.val_main_v30 (a1 m c) := (V7_of m outs c main_v30 (by decide)).trans <| (V6_of m outs c main_v30 (by decide)).trans <| (V5_of m outs c main_v30 (by decide)).trans <| (V4_of m outs c main_v30 (by decide)).trans (st_v30 m c)
  have e1 : V7 m outs c main_v3 = Cert.ReferenceIdeal.ReadP.val_main_v3 (a1 m c) := (V7_of m outs c main_v3 (by decide)).trans <| (V6_of m outs c main_v3 (by decide)).trans <| (V5_of m outs c main_v3 (by decide)).trans <| (V4_of m outs c main_v3 (by decide)).trans <| (V3_of m c main_v3 (by decide)).trans <| (V2_of m c main_v3 (by decide)).trans (st_v3 m c)
  have e2 : V7 m outs c main_v6 = Cert.ReferenceIdeal.ReadP.val_main_v6 (a1 m c) := (V7_of m outs c main_v6 (by decide)).trans <| (V6_of m outs c main_v6 (by decide)).trans <| (V5_of m outs c main_v6 (by decide)).trans <| (V4_of m outs c main_v6 (by decide)).trans <| (V3_of m c main_v6 (by decide)).trans <| (V2_of m c main_v6 (by decide)).trans (st_v6 m c)
  have e3 : V7 m outs c main_v49 = Cert.ReferenceIdeal.ReadP.val_main_v49 (a0 m c) (a1 m c) (a3 m c) (a4 m c) (a5 m c) := h49
  have e4 : V7 m outs c main_arg6 = a6 m c := (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl
  show StableHlo.after hostOps2 (V7 m outs c) (Proc.devRef .tc main_v65) = _
  generalize V7 m outs c = W at e0 e1 e2 e3 e4 ⊢
  after_results_simp
  rw [e0, e1, e2, e3, e4]
  simp only [Cert.ReferenceIdeal.ReadP.val_main_v50, Cert.ReferenceIdeal.ReadP.val_main_c_10, Cert.ReferenceIdeal.ReadP.val_main_v51, Cert.ReferenceIdeal.ReadP.val_main_v52, Cert.ReferenceIdeal.ReadP.val_main_c_11, Cert.ReferenceIdeal.ReadP.val_main_v53, Cert.ReferenceIdeal.ReadP.val_main_v54, Cert.ReferenceIdeal.ReadP.val_main_v55, Cert.ReferenceIdeal.ReadP.val_main_v56, Cert.ReferenceIdeal.ReadP.val_main_v57, Cert.ReferenceIdeal.ReadP.val_main_v58, Cert.ReferenceIdeal.ReadP.val_main_v59, Cert.ReferenceIdeal.ReadP.val_main_cst_12, Cert.ReferenceIdeal.ReadP.val_main_v60, Cert.ReferenceIdeal.ReadP.val_main_v61, Cert.ReferenceIdeal.ReadP.val_main_v62, Cert.ReferenceIdeal.ReadP.val_main_v63, Cert.ReferenceIdeal.ReadP.val_main_v64, Cert.ReferenceIdeal.ReadP.val_main_v65]
  rfl

theorem st_v66 (h31 : V4 m outs c main_v31 = Cert.ReferenceIdeal.ReadP.val_main_v31 (a0 m c) (a3 m c)) (h49 : V7 m outs c main_v49 = Cert.ReferenceIdeal.ReadP.val_main_v49 (a0 m c) (a1 m c) (a3 m c) (a4 m c) (a5 m c)) : V9 m outs c main_v66 = Cert.ReferenceIdeal.ReadP.val_main_v66 (a0 m c) (a1 m c) (a3 m c) (a4 m c) (a5 m c) (a6 m c) := by
  have e0 : V8 m outs c main_v65 = Cert.ReferenceIdeal.ReadP.val_main_v65 (a0 m c) (a1 m c) (a3 m c) (a4 m c) (a5 m c) (a6 m c) := st_v65 m outs c h31 h49
  show StableHlo.after hostOps2_1 (V8 m outs c) (Proc.devRef .tc main_v66) = _
  generalize V8 m outs c = W at e0 ⊢
  after_results_simp
  rw [e0]
  simp only [Cert.ReferenceIdeal.ReadP.val_main_call2_cst, Cert.ReferenceIdeal.ReadP.val_main_call2_v0, Cert.ReferenceIdeal.ReadP.val_main_v66]
  rfl

set_option maxHeartbeats 1000000 in
theorem st_v83 (h31 : V4 m outs c main_v31 = Cert.ReferenceIdeal.ReadP.val_main_v31 (a0 m c) (a3 m c)) (h49 : V7 m outs c main_v49 = Cert.ReferenceIdeal.ReadP.val_main_v49 (a0 m c) (a1 m c) (a3 m c) (a4 m c) (a5 m c)) (h67 : V10 m outs c main_v67 = Cert.ReferenceIdeal.ReadP.val_main_v67 (a0 m c) (a1 m c) (a3 m c) (a4 m c) (a5 m c) (a6 m c) (a7 m c)) : V11 m outs c main_v83 = Cert.ReferenceIdeal.ReadP.val_main_v83 (a0 m c) (a1 m c) (a3 m c) (a4 m c) (a5 m c) (a6 m c) (a7 m c) (a8 m c) := by
  have e0 : V10 m outs c main_v30 = Cert.ReferenceIdeal.ReadP.val_main_v30 (a1 m c) := (V10_of m outs c main_v30 (by decide)).trans <| (V9_of m outs c main_v30 (by decide)).trans <| (V8_of m outs c main_v30 (by decide)).trans <| (V7_of m outs c main_v30 (by decide)).trans <| (V6_of m outs c main_v30 (by decide)).trans <| (V5_of m outs c main_v30 (by decide)).trans <| (V4_of m outs c main_v30 (by decide)).trans (st_v30 m c)
  have e1 : V10 m outs c main_v3 = Cert.ReferenceIdeal.ReadP.val_main_v3 (a1 m c) := (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m c main_v3 (by decide)).trans <| (V2_of m c main_v3 (by decide)).trans (st_v3 m c)
  have e2 : V10 m outs c main_v6 = Cert.ReferenceIdeal.ReadP.val_main_v6 (a1 m c) := (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)).trans <| (V4_of m outs c main_v6 (by decide)).trans <| (V3_of m c main_v6 (by decide)).trans <| (V2_of m c main_v6 (by decide)).trans (st_v6 m c)
  have e3 : V10 m outs c main_v67 = Cert.ReferenceIdeal.ReadP.val_main_v67 (a0 m c) (a1 m c) (a3 m c) (a4 m c) (a5 m c) (a6 m c) (a7 m c) := h67
  have e4 : V10 m outs c main_arg8 = a8 m c := (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl
  show StableHlo.after hostOps3 (V10 m outs c) (Proc.devRef .tc main_v83) = _
  generalize V10 m outs c = W at e0 e1 e2 e3 e4 ⊢
  after_results_simp
  rw [e0, e1, e2, e3, e4]
  simp only [Cert.ReferenceIdeal.ReadP.val_main_v68, Cert.ReferenceIdeal.ReadP.val_main_c_13, Cert.ReferenceIdeal.ReadP.val_main_v69, Cert.ReferenceIdeal.ReadP.val_main_v70, Cert.ReferenceIdeal.ReadP.val_main_c_14, Cert.ReferenceIdeal.ReadP.val_main_v71, Cert.ReferenceIdeal.ReadP.val_main_v72, Cert.ReferenceIdeal.ReadP.val_main_v73, Cert.ReferenceIdeal.ReadP.val_main_v74, Cert.ReferenceIdeal.ReadP.val_main_v75, Cert.ReferenceIdeal.ReadP.val_main_v76, Cert.ReferenceIdeal.ReadP.val_main_v77, Cert.ReferenceIdeal.ReadP.val_main_cst_15, Cert.ReferenceIdeal.ReadP.val_main_v78, Cert.ReferenceIdeal.ReadP.val_main_v79, Cert.ReferenceIdeal.ReadP.val_main_v80, Cert.ReferenceIdeal.ReadP.val_main_v81, Cert.ReferenceIdeal.ReadP.val_main_v82, Cert.ReferenceIdeal.ReadP.val_main_v83]
  rfl

set_option maxHeartbeats 1000000 in
theorem st_v105 (h31 : V4 m outs c main_v31 = Cert.ReferenceIdeal.ReadP.val_main_v31 (a0 m c) (a3 m c)) (h49 : V7 m outs c main_v49 = Cert.ReferenceIdeal.ReadP.val_main_v49 (a0 m c) (a1 m c) (a3 m c) (a4 m c) (a5 m c)) (h67 : V10 m outs c main_v67 = Cert.ReferenceIdeal.ReadP.val_main_v67 (a0 m c) (a1 m c) (a3 m c) (a4 m c) (a5 m c) (a6 m c) (a7 m c)) (h84 : V12 m outs c main_v84 = Cert.ReferenceIdeal.ReadP.val_main_v84 (a0 m c) (a1 m c) (a3 m c) (a4 m c) (a5 m c) (a6 m c) (a9 m c)) : V13 m outs c main_v105 = Cert.ReferenceIdeal.ReadP.val_main_v105 (a0 m c) (a1 m c) (a2 m c) (a3 m c) (a4 m c) (a5 m c) (a6 m c) (a7 m c) (a8 m c) (a9 m c) (a10 m c) := by
  have e0 : V12 m outs c main_v30 = Cert.ReferenceIdeal.ReadP.val_main_v30 (a1 m c) := (V12_of m outs c main_v30 (by decide)).trans <| (V11_of m outs c main_v30 (by decide)).trans <| (V10_of m outs c main_v30 (by decide)).trans <| (V9_of m outs c main_v30 (by decide)).trans <| (V8_of m outs c main_v30 (by decide)).trans <| (V7_of m outs c main_v30 (by decide)).trans <| (V6_of m outs c main_v30 (by decide)).trans <| (V5_of m outs c main_v30 (by decide)).trans <| (V4_of m outs c main_v30 (by decide)).trans (st_v30 m c)
  have e1 : V12 m outs c main_v3 = Cert.ReferenceIdeal.ReadP.val_main_v3 (a1 m c) := (V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide)).trans <| (V3_of m c main_v3 (by decide)).trans <| (V2_of m c main_v3 (by decide)).trans (st_v3 m c)
  have e2 : V12 m outs c main_v6 = Cert.ReferenceIdeal.ReadP.val_main_v6 (a1 m c) := (V12_of m outs c main_v6 (by decide)).trans <| (V11_of m outs c main_v6 (by decide)).trans <| (V10_of m outs c main_v6 (by decide)).trans <| (V9_of m outs c main_v6 (by decide)).trans <| (V8_of m outs c main_v6 (by decide)).trans <| (V7_of m outs c main_v6 (by decide)).trans <| (V6_of m outs c main_v6 (by decide)).trans <| (V5_of m outs c main_v6 (by decide)).trans <| (V4_of m outs c main_v6 (by decide)).trans <| (V3_of m c main_v6 (by decide)).trans <| (V2_of m c main_v6 (by decide)).trans (st_v6 m c)
  have e3 : V12 m outs c main_v84 = Cert.ReferenceIdeal.ReadP.val_main_v84 (a0 m c) (a1 m c) (a3 m c) (a4 m c) (a5 m c) (a6 m c) (a9 m c) := h84
  have e4 : V12 m outs c main_arg10 = a10 m c := (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans rfl
  have e5 : V12 m outs c main_v83 = Cert.ReferenceIdeal.ReadP.val_main_v83 (a0 m c) (a1 m c) (a3 m c) (a4 m c) (a5 m c) (a6 m c) (a7 m c) (a8 m c) := (V12_of m outs c main_v83 (by decide)).trans (st_v83 m outs c h31 h49 h67)
  have e6 : V12 m outs c main_arg2 = a2 m c := (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl
  show StableHlo.after hostOps4 (V12 m outs c) (Proc.devRef .tc main_v105) = _
  generalize V12 m outs c = W at e0 e1 e2 e3 e4 e5 e6 ⊢
  after_results_simp
  rw [e0, e1, e2, e3, e4, e5, e6]
  simp only [Cert.ReferenceIdeal.ReadP.val_main_v85, Cert.ReferenceIdeal.ReadP.val_main_c_16, Cert.ReferenceIdeal.ReadP.val_main_v86, Cert.ReferenceIdeal.ReadP.val_main_v87, Cert.ReferenceIdeal.ReadP.val_main_c_17, Cert.ReferenceIdeal.ReadP.val_main_v88, Cert.ReferenceIdeal.ReadP.val_main_v89, Cert.ReferenceIdeal.ReadP.val_main_v90, Cert.ReferenceIdeal.ReadP.val_main_v91, Cert.ReferenceIdeal.ReadP.val_main_v92, Cert.ReferenceIdeal.ReadP.val_main_v93, Cert.ReferenceIdeal.ReadP.val_main_v94, Cert.ReferenceIdeal.ReadP.val_main_cst_18, Cert.ReferenceIdeal.ReadP.val_main_v95, Cert.ReferenceIdeal.ReadP.val_main_v96, Cert.ReferenceIdeal.ReadP.val_main_v97, Cert.ReferenceIdeal.ReadP.val_main_v98, Cert.ReferenceIdeal.ReadP.val_main_v99, Cert.ReferenceIdeal.ReadP.val_main_v100, Cert.ReferenceIdeal.ReadP.val_main_cst_19, Cert.ReferenceIdeal.ReadP.val_main_v101, Cert.ReferenceIdeal.ReadP.val_main_v102, Cert.ReferenceIdeal.ReadP.val_main_v103, Cert.ReferenceIdeal.ReadP.val_main_v104, Cert.ReferenceIdeal.ReadP.val_main_v105]
  rfl

end Cert.Bridge

end
-- ==== Proof.KI.Value0.lean ====
/-
  Region 0, read as a value on the extended reals: the output array after the ten grid points is the matrix
  product of the two operand arrays as the region finds them, entry (r, q) = Σ_k left (r, k) · right (k, q).
  The body's payload at an index is the sum over the contraction index; the block a grid point t writes back is
  rows [1000 t, 1000 t + 1000) of that product, because the left block at t is those rows of the left operand and
  the right block is the whole right operand; the ten row blocks cover the array, row r lying in block r / 1000.
-/
import proofs.«161064_j52209622450442_1_alg».proof.Proof.KI.Region0
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_off0 : (![0, 0] : Fin 2 → Nat) = fun _ => 0 := funext fun a => by fin_cases a <;> rfl

/-- The operand indices of the block product: at output index `i` and contraction index `s` the left operand is read at
    row `i 0`, column `s`, and the right operand at row `s`, column `i 1`. -/
theorem lhs0_row (i : S1000x64.Idx) (s : dot_S1000x128_S128x64_S1000x64_1_0_0_1_n_n.contr.Idx) :
    (dot_S1000x128_S128x64_S1000x64_1_0_0_1_n_n.lhsIdx i s 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs0_col (i : S1000x64.Idx) (s : dot_S1000x128_S128x64_S1000x64_1_0_0_1_n_n.contr.Idx) :
    (dot_S1000x128_S128x64_S1000x64_1_0_0_1_n_n.lhsIdx i s 1).val = (s ⟨0, by decide⟩).val :=
  dot_S1000x128_S128x64_S1000x64_1_0_0_1_n_n.lhsIdx_val_of_single rfl i s
theorem rhs0_row (i : S1000x64.Idx) (s : dot_S1000x128_S128x64_S1000x64_1_0_0_1_n_n.contr.Idx) :
    (dot_S1000x128_S128x64_S1000x64_1_0_0_1_n_n.rhsIdx i s 0).val = (s ⟨0, by decide⟩).val :=
  dot_S1000x128_S128x64_S1000x64_1_0_0_1_n_n.rhsIdx_val_of_single rfl i s
theorem rhs0_col (i : S1000x64.Idx) (s : dot_S1000x128_S128x64_S1000x64_1_0_0_1_n_n.contr.Idx) :
    (dot_S1000x128_S128x64_S1000x64_1_0_0_1_n_n.rhsIdx i s 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The body's payload at row `p`, column `q` of the output block: the product of the two blocks, the sum over the
    contraction index of the left block's row `p` times the right block's column `q` (the accumulator is the zero splat). -/
theorem pay0_apply (x0 : Vec Ideal S1000x128 .f32) (x1 : Vec Ideal S128x64 .f32) (p : Fin 1000) (q : Fin 64) :
    (k0_pay1 (F := Ideal) x0 x1 : S1000x64.Idx → EReal) (ix2 p q)
      = ∑ k : Fin 128, (x0 : S1000x128.Idx → EReal) (ix2 p k) * (x1 : S128x64.Idx → EReal) (ix2 k q) := by
  unfold k0_pay1
  refine (Ideal.matmul_constant_zero_apply dot_S1000x128_S128x64_S1000x64_1_0_0_1_n_n none x0 x1 (ix2 p q)).trans ?_
  rw [← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q) ((contrEquiv1 dot_S1000x128_S128x64_S1000x64_1_0_0_1_n_n 128 rfl rfl).symm k) = ix2 p k :=
    funext fun a => Fin.ext (by
      match a with
      | ⟨0, _⟩ => exact lhs0_row _ _
      | ⟨1, _⟩ => exact (lhs0_col _ _).trans hk)
  have er : dot_S1000x128_S128x64_S1000x64_1_0_0_1_n_n.rhsIdx (ix2 p q) ((contrEquiv1 dot_S1000x128_S128x64_S1000x64_1_0_0_1_n_n 128 rfl rfl).symm k) = ix2 k q :=
    funext fun a => Fin.ext (by
      match a with
      | ⟨0, _⟩ => exact (rhs0_row _ _).trans hk
      | ⟨1, _⟩ => exact rhs0_col _ _)
  rw [el, er]

/-- The matrix product of a left and a right array, entry by entry. -/
abbrev prod0 (a : S10000x128.Idx → EReal) (b : S128x64.Idx → EReal) : S10000x64.Idx → EReal :=
  fun i => ∑ k : Fin 128, a (ix2 (⟨(i 0).val, (i 0).isLt⟩ : Fin 10000) k) * b (ix2 k (⟨(i 1).val, (i 1).isLt⟩ : Fin 64))

/-- The index maps, decided over the grid: at point `t` the left and the output windows sit at row block `t`, column
    block 0; the right window at block (0, 0). -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays: entry (p, q) of the body's
    result is Σ_k (left block) (p, k) · (right block) (k, q); the left block's row p is row 1000 t + p of the left
    array, the right block is the right array, and the output block's entry (p, q) is entry (1000 t + p, q) of the array. -/
theorem flushed0_eq (c : Dev nD) (t : Fin cfg0.N) :
    (dat0 (F := Ideal) V c).flushed 2 t
      = ((cfg0.win 2).blk t).view.read (Elt Ideal) (prod0 (V c main_arg0) (V c main_arg3)) := by
  show (cfg0.win 2).cut (grid0.coords t) ((dat0 (F := Ideal) V c).after 2 t) = _
  rw [after0_2]
  unfold out0_2
  rw [View.canon_unit_zero zero_off0]
  simp only [View.ld_unit_zero (S := S1000x128) zero_off0, View.ld_unit_zero (S := S128x64) zero_off0]
  obtain ⟨e00, e01, e10, e11, e20, e21⟩ := blockIdx0 t
  funext j
  obtain ⟨p, q, rfl⟩ : ∃ (p : Fin 1000) (q : Fin 64), j = ix2 p q := ⟨j 0, j 1, eq_ix2 j⟩
  show k0_pay1 (F := Ideal) (iblk0 V c 0 t) (iblk0 V c 1 t) (ix2 p q)
    = prod0 (V c main_arg0) (V c main_arg3) (((cfg0.win 2).blk t).view.emb (ix2 p q))
  refine (pay0_apply (iblk0 V c 0 t) (iblk0 V c 1 t) p q).trans ?_
  refine Finset.sum_congr rfl fun k _ => ?_
  have hl : (iblk0 V c 0 t : S1000x128.Idx → EReal) (ix2 p k)
      = (V c main_arg0 : S10000x128.Idx → EReal) (ix2 (⟨((((cfg0.win 2).blk t).view.emb (ix2 p q)) 0).val, ((((cfg0.win 2).blk t).view.emb (ix2 p q)) 0).isLt⟩ : Fin 10000) k) := by
    show (V c main_arg0 : S10000x128.Idx → EReal) (((cfg0.win 0).blk t).view.emb (ix2 p k)) = _
    refine congrArg _ (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 128 + 1 * k.val = k.val; omega
  have hr : (iblk0 V c 1 t : S128x64.Idx → EReal) (ix2 k q)
      = (V c main_arg3 : S128x64.Idx → EReal) (ix2 k (⟨((((cfg0.win 2).blk t).view.emb (ix2 p q)) 1).val, ((((cfg0.win 2).blk t).view.emb (ix2 p q)) 1).isLt⟩ : Fin 64)) := by
    show (V c main_arg3 : S128x64.Idx → EReal) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hl, hr]

/-- An index of the output array is in point `t`'s block iff each coordinate is in the block's range on its axis. -/
theorem mem_blk0 (t : Fin cfg0.N) (i : S10000x64.Idx) :
    i ∈ ((cfg0.win 2).blk t).view.set ↔ ∀ a : Fin 2, win0_2.index t a * S1000x64.size a ≤ (i a).val ∧ (i a).val < win0_2.index t a * S1000x64.size a + S1000x64.size a := by
  show i ∈ ((View.whole main_v31).slice (win0_2.rect t)).set ↔ _
  rw [View.set_slice_whole, Rect.mem_set_unit]
  exact Iff.rfl

/-- The ten row blocks cover the output array: row `r` lies in the block of point `r / 1000`. -/
theorem cover0 (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  have hN : cfg0.N = 10 := N_0
  have ht : (i 0).val / 1000 < cfg0.N := by rw [hN]; omega
  obtain ⟨-, -, -, -, e20, e21⟩ := blockIdx0 ⟨(i 0).val / 1000, ht⟩
  refine ⟨⟨(i 0).val / 1000, ht⟩, flush0_2 _, ?_⟩
  rw [mem_blk0]
  intro a
  match a with
  | ⟨0, _⟩ =>
    show win0_2.index ⟨(i 0).val / 1000, ht⟩ (0 : Fin 2) * 1000 ≤ (i 0).val ∧ (i 0).val < win0_2.index ⟨(i 0).val / 1000, ht⟩ (0 : Fin 2) * 1000 + 1000
    rw [e20]
    show (i 0).val / 1000 * 1000 ≤ (i 0).val ∧ (i 0).val < (i 0).val / 1000 * 1000 + 1000
    omega
  | ⟨1, _⟩ =>
    show win0_2.index ⟨(i 0).val / 1000, ht⟩ (1 : Fin 2) * 64 ≤ (i 1).val ∧ (i 1).val < win0_2.index ⟨(i 0).val / 1000, ht⟩ (1 : Fin 2) * 64 + 64
    rw [e21]
    omega

/-- The output array after the run is the product of the two operand arrays. -/
theorem array0 (c : Dev nD) :
    (dat0 (F := Ideal) V c).arrAt 2 cfg0.N = prod0 (V c main_arg0) (V c main_arg3) :=
  (dat0 (F := Ideal) V c).arrAt_eq_of_cover 2 (prod0 (V c main_arg0) (V c main_arg3)) (fun t _ => flushed0_eq V c t) cover0

/-- The product read at row `r`, column `q`. -/
theorem prod0_apply (a : S10000x128.Idx → EReal) (b : S128x64.Idx → EReal) (r : Fin 10000) (q : Fin 64) :
    prod0 a b (ix2 r q) = ∑ k : Fin 128, a (ix2 r k) * b (ix2 k q) := rfl

/-- Entry (r, q) of the output array after the run: Σ_k left (r, k) · right (k, q), the three arrays named as
    functions on their literal index types. -/
theorem final0 (c : Dev nD) (a : S10000x128.Idx → EReal) (b : S128x64.Idx → EReal) (o : S10000x64.Idx → EReal)
    (ha : a = V c main_arg0) (hb : b = V c main_arg3) (ho : o = (dat0 (F := Ideal) V c).arrAt 2 cfg0.N)
    (r : Fin 10000) (q : Fin 64) :
    o (ix2 r q) = ∑ k : Fin 128, a (ix2 r k) * b (ix2 k q) := by
  rw [ho, ha, hb, array0]

end Cert.KernelIdeal.RegionValue

end
-- ==== Proof.KI.Value1.lean ====
/-
  Region 1, read as a value on the extended reals: the output array after the ten grid points is the matrix
  product of the two operand arrays as the region finds them, entry (r, q) = Σ_k left (r, k) · right (k, q).
  The body's payload at an index is the sum over the contraction index; the block a grid point t writes back is
  rows [1000 t, 1000 t + 1000) of that product, because the left block at t is those rows of the left operand and
  the right block is the whole right operand; the ten row blocks cover the array, row r lying in block r / 1000.
-/
import proofs.«161064_j52209622450442_1_alg».proof.Proof.KI.Region1
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_off1 : (![0, 0] : Fin 2 → Nat) = fun _ => 0 := funext fun a => by fin_cases a <;> rfl

/-- The operand indices of the block product: at output index `i` and contraction index `s` the left operand is read at
    row `i 0`, column `s`, and the right operand at row `s`, column `i 1`. -/
theorem lhs1_row (i : S1000x64.Idx) (s : dot_S1000x64_S64x64_S1000x64_1_0_0_1_n_n.contr.Idx) :
    (dot_S1000x64_S64x64_S1000x64_1_0_0_1_n_n.lhsIdx i s 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs1_col (i : S1000x64.Idx) (s : dot_S1000x64_S64x64_S1000x64_1_0_0_1_n_n.contr.Idx) :
    (dot_S1000x64_S64x64_S1000x64_1_0_0_1_n_n.lhsIdx i s 1).val = (s ⟨0, by decide⟩).val :=
  dot_S1000x64_S64x64_S1000x64_1_0_0_1_n_n.lhsIdx_val_of_single rfl i s
theorem rhs1_row (i : S1000x64.Idx) (s : dot_S1000x64_S64x64_S1000x64_1_0_0_1_n_n.contr.Idx) :
    (dot_S1000x64_S64x64_S1000x64_1_0_0_1_n_n.rhsIdx i s 0).val = (s ⟨0, by decide⟩).val :=
  dot_S1000x64_S64x64_S1000x64_1_0_0_1_n_n.rhsIdx_val_of_single rfl i s
theorem rhs1_col (i : S1000x64.Idx) (s : dot_S1000x64_S64x64_S1000x64_1_0_0_1_n_n.contr.Idx) :
    (dot_S1000x64_S64x64_S1000x64_1_0_0_1_n_n.rhsIdx i s 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The body's payload at row `p`, column `q` of the output block: the product of the two blocks, the sum over the
    contraction index of the left block's row `p` times the right block's column `q` (the accumulator is the zero splat). -/
theorem pay1_apply (x0 : Vec Ideal S1000x64 .f32) (x1 : Vec Ideal S64x64 .f32) (p : Fin 1000) (q : Fin 64) :
    (k1_pay1 (F := Ideal) x0 x1 : S1000x64.Idx → EReal) (ix2 p q)
      = ∑ k : Fin 64, (x0 : S1000x64.Idx → EReal) (ix2 p k) * (x1 : S64x64.Idx → EReal) (ix2 k q) := by
  unfold k1_pay1
  refine (Ideal.matmul_constant_zero_apply dot_S1000x64_S64x64_S1000x64_1_0_0_1_n_n none (shapeCast S1000x64 x0 shapeCasts_S1000x64_S1000x64) x1 (ix2 p q)).trans ?_
  rw [← Equiv.sum_comp (contrEquiv1 dot_S1000x64_S64x64_S1000x64_1_0_0_1_n_n 64 rfl rfl).symm]
  refine Finset.sum_congr rfl fun k _ => ?_
  have hk := contrEquiv1_symm_val dot_S1000x64_S64x64_S1000x64_1_0_0_1_n_n 64 rfl rfl k
  have el : dot_S1000x64_S64x64_S1000x64_1_0_0_1_n_n.lhsIdx (ix2 p q) ((contrEquiv1 dot_S1000x64_S64x64_S1000x64_1_0_0_1_n_n 64 rfl rfl).symm k) = ix2 p k :=
    funext fun a => Fin.ext (by
      match a with
      | ⟨0, _⟩ => exact lhs1_row _ _
      | ⟨1, _⟩ => exact (lhs1_col _ _).trans hk)
  have er : dot_S1000x64_S64x64_S1000x64_1_0_0_1_n_n.rhsIdx (ix2 p q) ((contrEquiv1 dot_S1000x64_S64x64_S1000x64_1_0_0_1_n_n 64 rfl rfl).symm k) = ix2 k q :=
    funext fun a => Fin.ext (by
      match a with
      | ⟨0, _⟩ => exact (rhs1_row _ _).trans hk
      | ⟨1, _⟩ => exact rhs1_col _ _)
  rw [el, er, shapeCast_self]

/-- The matrix product of a left and a right array, entry by entry. -/
abbrev prod1 (a : S10000x64.Idx → EReal) (b : S64x64.Idx → EReal) : S10000x64.Idx → EReal :=
  fun i => ∑ k : Fin 64, a (ix2 (⟨(i 0).val, (i 0).isLt⟩ : Fin 10000) k) * b (ix2 k (⟨(i 1).val, (i 1).isLt⟩ : Fin 64))

/-- The index maps, decided over the grid: at point `t` the left and the output windows sit at row block `t`, column
    block 0; the right window at block (0, 0). -/
theorem blockIdx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two operand arrays: entry (p, q) of the body's
    result is Σ_k (left block) (p, k) · (right block) (k, q); the left block's row p is row 1000 t + p of the left
    array, the right block is the right array, and the output block's entry (p, q) is entry (1000 t + p, q) of the array. -/
theorem flushed1_eq (c : Dev nD) (t : Fin cfg1.N) :
    (dat1 (F := Ideal) V c).flushed 2 t
      = ((cfg1.win 2).blk t).view.read (Elt Ideal) (prod1 (V c main_v48) (V c main_arg5)) := by
  show (cfg1.win 2).cut (grid1.coords t) ((dat1 (F := Ideal) V c).after 2 t) = _
  rw [after1_2]
  unfold out1_2
  rw [View.canon_unit_zero zero_off1]
  simp only [View.ld_unit_zero (S := S1000x64) zero_off1, View.ld_unit_zero (S := S64x64) zero_off1]
  obtain ⟨e00, e01, e10, e11, e20, e21⟩ := blockIdx1 t
  funext j
  obtain ⟨p, q, rfl⟩ : ∃ (p : Fin 1000) (q : Fin 64), j = ix2 p q := ⟨j 0, j 1, eq_ix2 j⟩
  show k1_pay1 (F := Ideal) (iblk1 V c 0 t) (iblk1 V c 1 t) (ix2 p q)
    = prod1 (V c main_v48) (V c main_arg5) (((cfg1.win 2).blk t).view.emb (ix2 p q))
  refine (pay1_apply (iblk1 V c 0 t) (iblk1 V c 1 t) p q).trans ?_
  refine Finset.sum_congr rfl fun k _ => ?_
  have hl : (iblk1 V c 0 t : S1000x64.Idx → EReal) (ix2 p k)
      = (V c main_v48 : S10000x64.Idx → EReal) (ix2 (⟨((((cfg1.win 2).blk t).view.emb (ix2 p q)) 0).val, ((((cfg1.win 2).blk t).view.emb (ix2 p q)) 0).isLt⟩ : Fin 10000) k) := by
    show (V c main_v48 : S10000x64.Idx → EReal) (((cfg1.win 0).blk t).view.emb (ix2 p k)) = _
    refine congrArg _ (funext fun a => Fin.ext ?_)
    match a with
    | ⟨0, _⟩ => show win1_0.index t (0 : Fin 2) * 1000 + 1 * p.val = win1_2.index t (0 : Fin 2) * 1000 + 1 * p.val; omega
    | ⟨1, _⟩ => show win1_0.index t (1 : Fin 2) * 64 + 1 * k.val = k.val; omega
  have hr : (iblk1 V c 1 t : S64x64.Idx → EReal) (ix2 k q)
      = (V c main_arg5 : S64x64.Idx → EReal) (ix2 k (⟨((((cfg1.win 2).blk t).view.emb (ix2 p q)) 1).val, ((((cfg1.win 2).blk t).view.emb (ix2 p q)) 1).isLt⟩ : Fin 64)) := by
    show (V c main_arg5 : S64x64.Idx → EReal) (((cfg1.win 1).blk t).view.emb (ix2 k q)) = _
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = win1_2.index t (1 : Fin 2) * 64 + 1 * q.val; omega
  rw [hl, hr]

/-- An index of the output array is in point `t`'s block iff each coordinate is in the block's range on its axis. -/
theorem mem_blk1 (t : Fin cfg1.N) (i : S10000x64.Idx) :
    i ∈ ((cfg1.win 2).blk t).view.set ↔ ∀ a : Fin 2, win1_2.index t a * S1000x64.size a ≤ (i a).val ∧ (i a).val < win1_2.index t a * S1000x64.size a + S1000x64.size a := by
  show i ∈ ((View.whole main_v49).slice (win1_2.rect t)).set ↔ _
  rw [View.set_slice_whole, Rect.mem_set_unit]
  exact Iff.rfl

/-- The ten row blocks cover the output array: row `r` lies in the block of point `r / 1000`. -/
theorem cover1 (i : S10000x64.Idx) :
    ∃ t : Fin cfg1.N, (cfg1.win 2).flush t = true ∧ i ∈ ((cfg1.win 2).blk t).view.set := by
  have hi0 : (i 0).val < 10000 := (i 0).isLt
  have hi1 : (i 1).val < 64 := (i 1).isLt
  have hN : cfg1.N = 10 := N_1
  have ht : (i 0).val / 1000 < cfg1.N := by rw [hN]; omega
  obtain ⟨-, -, -, -, e20, e21⟩ := blockIdx1 ⟨(i 0).val / 1000, ht⟩
  refine ⟨⟨(i 0).val / 1000, ht⟩, flush1_2 _, ?_⟩
  rw [mem_blk1]
  intro a
  match a with
  | ⟨0, _⟩ =>
    show win1_2.index ⟨(i 0).val / 1000, ht⟩ (0 : Fin 2) * 1000 ≤ (i 0).val ∧ (i 0).val < win1_2.index ⟨(i 0).val / 1000, ht⟩ (0 : Fin 2) * 1000 + 1000
    rw [e20]
    show (i 0).val / 1000 * 1000 ≤ (i 0).val ∧ (i 0).val < (i 0).val / 1000 * 1000 + 1000
    omega
  | ⟨1, _⟩ =>
    show win1_2.index ⟨(i 0).val / 1000, ht⟩ (1 : Fin 2) * 64 ≤ (i 1).val ∧ (i 1).val < win1_2.index ⟨(i 0).val / 1000, ht⟩ (1 : Fin 2) * 64 + 64
    rw [e21]
    omega

/-- The output array after the run is the product of the two operand arrays. -/
theorem array1 (c : Dev nD) :
    (dat1 (F := Ideal) V c).arrAt 2 cfg1.N = prod1 (V c main_v48) (V c main_arg5) :=
  (dat1 (F := Ideal) V c).arrAt_eq_of_cover 2 (prod1 (V c main_v48) (V c main_arg5)) (fun t _ => flushed1_eq V c t) cover1

/-- The product read at row `r`, column `q`. -/
theorem prod1_apply (a : S10000x64.Idx → EReal) (b : S64x64.Idx → EReal) (r : Fin 10000) (q : Fin 64) :
    prod1 a b (ix2 r q) = ∑ k : Fin 64, a (ix2 r k) * b (ix2 k q) := rfl

/-- Entry (r, q) of the output array after the run: Σ_k left (r, k) · right (k, q), the three arrays named as
    functions on their literal index types. -/
theorem final1 (c : Dev nD) (a : S10000x64.Idx → EReal) (b : S64x64.Idx → EReal) (o : S10000x64.Idx → EReal)
    (ha : a = V c main_v48) (hb : b = V c main_arg5) (ho : o = (dat1 (F := Ideal) V c).arrAt 2 cfg1.N)
    (r : Fin 10000) (q : Fin 64) :
    o (ix2 r q) = ∑ k : Fin 64, a (ix2 r k) * b (ix2 k q) := by
  rw [ho, ha, hb, array1]

end Cert.KernelIdeal.RegionValue

end
-- ==== Proof.KI.Value2.lean ====
/-
  Region 2, read as a value on the extended reals: the output array after the ten grid points is the matrix
  product of the two operand arrays as the region finds them, entry (r, q) = Σ_k left (r, k) · right (k, q).
  The body's payload at an index is the sum over the contraction index; the block a grid point t writes back is
  rows [1000 t, 1000 t + 1000) of that product, because the left block at t is those rows of the left operand and
  the right block is the whole right operand; the ten row blocks cover the array, row r lying in block r / 1000.
-/
import proofs.«161064_j52209622450442_1_alg».proof.Proof.KI.Region2
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_off2 : (![0, 0] : Fin 2 → Nat) = fun _ => 0 := funext fun a => by fin_cases a <;> rfl

/-- The operand indices of the block product: at output index `i` and contraction index `s` the left operand is read at
    row `i 0`, column `s`, and the right operand at row `s`, column `i 1`. -/
theorem lhs2_row (i : S1000x32.Idx) (s : dot_S1000x64_S64x32_S1000x32_1_0_0_1_n_n.contr.Idx) :
    (dot_S1000x64_S64x32_S1000x32_1_0_0_1_n_n.lhsIdx i s 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs2_col (i : S1000x32.Idx) (s : dot_S1000x64_S64x32_S1000x32_1_0_0_1_n_n.contr.Idx) :
    (dot_S1000x64_S64x32_S1000x32_1_0_0_1_n_n.lhsIdx i s 1).val = (s ⟨0, by decide⟩).val :=
  dot_S1000x64_S64x32_S1000x32_1_0_0_1_n_n.lhsIdx_val_of_single rfl i s
theorem rhs2_row (i : S1000x32.Idx) (s : dot_S1000x64_S64x32_S1000x32_1_0_0_1_n_n.contr.Idx) :
    (dot_S1000x64_S64x32_S1000x32_1_0_0_1_n_n.rhsIdx i s 0).val = (s ⟨0, by decide⟩).val :=
  dot_S1000x64_S64x32_S1000x32_1_0_0_1_n_n.rhsIdx_val_of_single rfl i s
theorem rhs2_col (i : S1000x32.Idx) (s : dot_S1000x64_S64x32_S1000x32_1_0_0_1_n_n.contr.Idx) :
    (dot_S1000x64_S64x32_S1000x32_1_0_0_1_n_n.rhsIdx i s 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

/-- The body's payload at row `p`, column `q` of the output block: the product of the two blocks, the sum over the
    contraction index of the left block's row `p` times the right block's column `q` (the accumulator is the zero splat). -/
theorem pay2_apply (x0 : Vec Ideal S1000x64 .f32) (x1 : Vec Ideal S64x32 .f32) (p : Fin 1000) (q : Fin 32) :
    (k2_pay1 (F := Ideal) x0 x1 : S1000x32.Idx → EReal) (ix2 p q)
      = ∑ k : Fin 64, (x0 : S1000x64.Idx → EReal) (ix2 p k) * (x1 : S64x32.Idx → EReal) (ix2 k q) := by
  unfold k2_pay1
  refine (Ideal.matmul_constant_zero_apply dot_S1000x64_S64x32_S1000x32_1_0_0_1_n_n none (shapeCast S1000x64 x0 shapeCasts_S1000x64_S1000x64) x1 (ix2 p q)).trans ?_
  rw [← Equiv.sum_comp (contrEquiv1 dot_S1000x64_S64x32_S1000x32_1_0_0_1_n_n 64 rfl rfl).symm]
  refine Finset.sum_congr rfl fun k _ => ?_
  have hk := contrEquiv1_symm_val dot_S1000x64_S64x32_S1000x32_1_0_0_1_n_n 64 rfl rfl k
  have el : dot_S1000x64_S64x32_S1000x32_1_0_0_1_n_n.lhsIdx (ix2 p q) ((contrEquiv1 dot_S1000x64_S64x32_S1000x32_1_0_0_1_n_n 64 rfl rfl).symm k) = ix2 p k :=
    funext fun a => Fin.ext (by
      match a with
      | ⟨0, _⟩ => exact lhs2_row _ _
      | ⟨1, _⟩ => exact (lhs2_col _ _).trans hk)
  have er : dot_S1000x64_S64x32_S1000x32_1_0_0_1_n_n.rhsIdx (ix2 p q) ((contrEquiv1 dot_S1000x64_S64x32_S1000x32_1_0_0_1_n_n 64 rfl rfl).symm k) = ix2 k q :=
    funext fun a => Fin.ext (by
      match a with
      | ⟨0, _⟩ => exact (rhs2_row _ _).trans hk
      | ⟨1, _⟩ => exact rhs2_col _ _)
  rw [el, er, shapeCast_self]

/-- The matrix product of a left and a right array, entry by entry. -/
abbrev prod2 (a : S10000x64.Idx → EReal) (b : S64x32.Idx → EReal) : S10000x32.Idx → EReal :=
  fun i => ∑ k : Fin 64, a (ix2 (⟨(i 0).val, (i 0).isLt⟩ : Fin 10000) k) * b (ix2 k (⟨(i 1).val, (i 1).isLt⟩ : Fin 32))

/-- The index maps, decided over the grid: at point `t` the left and the output windows sit at row block `t`, column
    block 0; the right window at block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two operand arrays: entry (p, q) of the body's
    result is Σ_k (left block) (p, k) · (right block) (k, q); the left block's row p is row 1000 t + p of the left
    array, the right block is the right array, and the output block's entry (p, q) is entry (1000 t + p, q) of the array. -/
theorem flushed2_eq (c : Dev nD) (t : Fin cfg2.N) :
    (dat2 (F := Ideal) V c).flushed 2 t
      = ((cfg2.win 2).blk t).view.read (Elt Ideal) (prod2 (V c main_v66) (V c main_arg7)) := by
  show (cfg2.win 2).cut (grid2.coords t) ((dat2 (F := Ideal) V c).after 2 t) = _
  rw [after2_2]
  unfold out2_2
  rw [View.canon_unit_zero zero_off2]
  simp only [View.ld_unit_zero (S := S1000x64) zero_off2, View.ld_unit_zero (S := S64x32) zero_off2]
  obtain ⟨e00, e01, e10, e11, e20, e21⟩ := blockIdx2 t
  funext j
  obtain ⟨p, q, rfl⟩ : ∃ (p : Fin 1000) (q : Fin 32), j = ix2 p q := ⟨j 0, j 1, eq_ix2 j⟩
  show k2_pay1 (F := Ideal) (iblk2 V c 0 t) (iblk2 V c 1 t) (ix2 p q)
    = prod2 (V c main_v66) (V c main_arg7) (((cfg2.win 2).blk t).view.emb (ix2 p q))
  refine (pay2_apply (iblk2 V c 0 t) (iblk2 V c 1 t) p q).trans ?_
  refine Finset.sum_congr rfl fun k _ => ?_
  have hl : (iblk2 V c 0 t : S1000x64.Idx → EReal) (ix2 p k)
      = (V c main_v66 : S10000x64.Idx → EReal) (ix2 (⟨((((cfg2.win 2).blk t).view.emb (ix2 p q)) 0).val, ((((cfg2.win 2).blk t).view.emb (ix2 p q)) 0).isLt⟩ : Fin 10000) k) := by
    show (V c main_v66 : S10000x64.Idx → EReal) (((cfg2.win 0).blk t).view.emb (ix2 p k)) = _
    refine congrArg _ (funext fun a => Fin.ext ?_)
    match a with
    | ⟨0, _⟩ => show win2_0.index t (0 : Fin 2) * 1000 + 1 * p.val = win2_2.index t (0 : Fin 2) * 1000 + 1 * p.val; omega
    | ⟨1, _⟩ => show win2_0.index t (1 : Fin 2) * 64 + 1 * k.val = k.val; omega
  have hr : (iblk2 V c 1 t : S64x32.Idx → EReal) (ix2 k q)
      = (V c main_arg7 : S64x32.Idx → EReal) (ix2 k (⟨((((cfg2.win 2).blk t).view.emb (ix2 p q)) 1).val, ((((cfg2.win 2).blk t).view.emb (ix2 p q)) 1).isLt⟩ : Fin 32)) := by
    show (V c main_arg7 : S64x32.Idx → EReal) (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  rw [hl, hr]

/-- An index of the output array is in point `t`'s block iff each coordinate is in the block's range on its axis. -/
theorem mem_blk2 (t : Fin cfg2.N) (i : S10000x32.Idx) :
    i ∈ ((cfg2.win 2).blk t).view.set ↔ ∀ a : Fin 2, win2_2.index t a * S1000x32.size a ≤ (i a).val ∧ (i a).val < win2_2.index t a * S1000x32.size a + S1000x32.size a := by
  show i ∈ ((View.whole main_v67).slice (win2_2.rect t)).set ↔ _
  rw [View.set_slice_whole, Rect.mem_set_unit]
  exact Iff.rfl

/-- The ten row blocks cover the output array: row `r` lies in the block of point `r / 1000`. -/
theorem cover2 (i : S10000x32.Idx) :
    ∃ t : Fin cfg2.N, (cfg2.win 2).flush t = true ∧ i ∈ ((cfg2.win 2).blk t).view.set := by
  have hi0 : (i 0).val < 10000 := (i 0).isLt
  have hi1 : (i 1).val < 32 := (i 1).isLt
  have hN : cfg2.N = 10 := N_2
  have ht : (i 0).val / 1000 < cfg2.N := by rw [hN]; omega
  obtain ⟨-, -, -, -, e20, e21⟩ := blockIdx2 ⟨(i 0).val / 1000, ht⟩
  refine ⟨⟨(i 0).val / 1000, ht⟩, flush2_2 _, ?_⟩
  rw [mem_blk2]
  intro a
  match a with
  | ⟨0, _⟩ =>
    show win2_2.index ⟨(i 0).val / 1000, ht⟩ (0 : Fin 2) * 1000 ≤ (i 0).val ∧ (i 0).val < win2_2.index ⟨(i 0).val / 1000, ht⟩ (0 : Fin 2) * 1000 + 1000
    rw [e20]
    show (i 0).val / 1000 * 1000 ≤ (i 0).val ∧ (i 0).val < (i 0).val / 1000 * 1000 + 1000
    omega
  | ⟨1, _⟩ =>
    show win2_2.index ⟨(i 0).val / 1000, ht⟩ (1 : Fin 2) * 32 ≤ (i 1).val ∧ (i 1).val < win2_2.index ⟨(i 0).val / 1000, ht⟩ (1 : Fin 2) * 32 + 32
    rw [e21]
    omega

/-- The output array after the run is the product of the two operand arrays. -/
theorem array2 (c : Dev nD) :
    (dat2 (F := Ideal) V c).arrAt 2 cfg2.N = prod2 (V c main_v66) (V c main_arg7) :=
  (dat2 (F := Ideal) V c).arrAt_eq_of_cover 2 (prod2 (V c main_v66) (V c main_arg7)) (fun t _ => flushed2_eq V c t) cover2

/-- The product read at row `r`, column `q`. -/
theorem prod2_apply (a : S10000x64.Idx → EReal) (b : S64x32.Idx → EReal) (r : Fin 10000) (q : Fin 32) :
    prod2 a b (ix2 r q) = ∑ k : Fin 64, a (ix2 r k) * b (ix2 k q) := rfl

/-- Entry (r, q) of the output array after the run: Σ_k left (r, k) · right (k, q), the three arrays named as
    functions on their literal index types. -/
theorem final2 (c : Dev nD) (a : S10000x64.Idx → EReal) (b : S64x32.Idx → EReal) (o : S10000x32.Idx → EReal)
    (ha : a = V c main_v66) (hb : b = V c main_arg7) (ho : o = (dat2 (F := Ideal) V c).arrAt 2 cfg2.N)
    (r : Fin 10000) (q : Fin 32) :
    o (ix2 r q) = ∑ k : Fin 64, a (ix2 r k) * b (ix2 k q) := by
  rw [ho, ha, hb, array2]

end Cert.KernelIdeal.RegionValue

end
-- ==== Proof.KI.Value3.lean ====
/-
  Region 3, read as a value on the extended reals: the output array after the ten grid points is the matrix
  product of the two operand arrays as the region finds them, entry (r, q) = Σ_k left (r, k) · right (k, q).
  The body's payload at an index is the sum over the contraction index; the block a grid point t writes back is
  rows [1000 t, 1000 t + 1000) of that product, because the left block at t is those rows of the left operand and
  the right block is the whole right operand; the ten row blocks cover the array, row r lying in block r / 1000.
-/
import proofs.«161064_j52209622450442_1_alg».proof.Proof.KI.Region3
import Idealize.ShloMosaic.Lib.ValueIdx
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zero_off3 : (![0, 0] : Fin 2 → Nat) = fun _ => 0 := funext fun a => by fin_cases a <;> rfl

/-- The operand indices of the block product: at output index `i` and contraction index `s` the left operand is read at
    row `i 0`, column `s`, and the right operand at row `s`, column `i 1`. -/
theorem lhs3_row (i : S1000x32.Idx) (s : dot_S1000x64_S64x32_S1000x32_1_0_0_1_n_n.contr.Idx) :
    (dot_S1000x64_S64x32_S1000x32_1_0_0_1_n_n.lhsIdx i s 0).val = (i 0).val := by
  unfold DotDims.lhsIdx
  rw [dif_neg (show ¬(0 : Fin S1000x64.rank) ∈ dot_S1000x64_S64x32_S1000x32_1_0_0_1_n_n.lhsBatch by decide), dif_pos (show (0 : Fin S1000x64.rank) ∈ dot_S1000x64_S64x32_S1000x32_1_0_0_1_n_n.lhsNonContracting by decide)]
  rfl
theorem lhs3_col (i : S1000x32.Idx) (s : dot_S1000x64_S64x32_S1000x32_1_0_0_1_n_n.contr.Idx) :
    (dot_S1000x64_S64x32_S1000x32_1_0_0_1_n_n.lhsIdx i s 1).val = (s ⟨0, by decide⟩).val :=
  dot_S1000x64_S64x32_S1000x32_1_0_0_1_n_n.lhsIdx_val_of_single rfl i s
theorem rhs3_row (i : S1000x32.Idx) (s : dot_S1000x64_S64x32_S1000x32_1_0_0_1_n_n.contr.Idx) :
    (dot_S1000x64_S64x32_S1000x32_1_0_0_1_n_n.rhsIdx i s 0).val = (s ⟨0, by decide⟩).val :=
  dot_S1000x64_S64x32_S1000x32_1_0_0_1_n_n.rhsIdx_val_of_single rfl i s
theorem rhs3_col (i : S1000x32.Idx) (s : dot_S1000x64_S64x32_S1000x32_1_0_0_1_n_n.contr.Idx) :
    (dot_S1000x64_S64x32_S1000x32_1_0_0_1_n_n.rhsIdx i s 1).val = (i 1).val := by
  unfold DotDims.rhsIdx
  rw [dif_neg (show ¬(1 : Fin S64x32.rank) ∈ dot_S1000x64_S64x32_S1000x32_1_0_0_1_n_n.rhsBatch by decide), dif_pos (show (1 : Fin S64x32.rank) ∈ dot_S1000x64_S64x32_S1000x32_1_0_0_1_n_n.rhsNonContracting by decide)]
  rfl

/-- The body's payload at row `p`, column `q` of the output block: the product of the two blocks, the sum over the
    contraction index of the left block's row `p` times the right block's column `q` (the accumulator is the zero splat). -/
theorem pay3_apply (x0 : Vec Ideal S1000x64 .f32) (x1 : Vec Ideal S64x32 .f32) (p : Fin 1000) (q : Fin 32) :
    (k3_pay1 (F := Ideal) x0 x1 : S1000x32.Idx → EReal) (ix2 p q)
      = ∑ k : Fin 64, (x0 : S1000x64.Idx → EReal) (ix2 p k) * (x1 : S64x32.Idx → EReal) (ix2 k q) := by
  unfold k3_pay1
  refine (Ideal.matmul_constant_zero_apply dot_S1000x64_S64x32_S1000x32_1_0_0_1_n_n none (shapeCast S1000x64 x0 shapeCasts_S1000x64_S1000x64) x1 (ix2 p q)).trans ?_
  rw [← Equiv.sum_comp (contrEquiv1 dot_S1000x64_S64x32_S1000x32_1_0_0_1_n_n 64 rfl rfl).symm]
  refine Finset.sum_congr rfl fun k _ => ?_
  have hk := contrEquiv1_symm_val dot_S1000x64_S64x32_S1000x32_1_0_0_1_n_n 64 rfl rfl k
  have el : dot_S1000x64_S64x32_S1000x32_1_0_0_1_n_n.lhsIdx (ix2 p q) ((contrEquiv1 dot_S1000x64_S64x32_S1000x32_1_0_0_1_n_n 64 rfl rfl).symm k) = ix2 p k :=
    funext fun a => Fin.ext (by
      match a with
      | ⟨0, _⟩ => exact lhs3_row _ _
      | ⟨1, _⟩ => exact (lhs3_col _ _).trans hk)
  have er : dot_S1000x64_S64x32_S1000x32_1_0_0_1_n_n.rhsIdx (ix2 p q) ((contrEquiv1 dot_S1000x64_S64x32_S1000x32_1_0_0_1_n_n 64 rfl rfl).symm k) = ix2 k q :=
    funext fun a => Fin.ext (by
      match a with
      | ⟨0, _⟩ => exact (rhs3_row _ _).trans hk
      | ⟨1, _⟩ => exact rhs3_col _ _)
  rw [el, er, shapeCast_self]

/-- The matrix product of a left and a right array, entry by entry. -/
abbrev prod3 (a : S10000x64.Idx → EReal) (b : S64x32.Idx → EReal) : S10000x32.Idx → EReal :=
  fun i => ∑ k : Fin 64, a (ix2 (⟨(i 0).val, (i 0).isLt⟩ : Fin 10000) k) * b (ix2 k (⟨(i 1).val, (i 1).isLt⟩ : Fin 32))

/-- The index maps, decided over the grid: at point `t` the left and the output windows sit at row block `t`, column
    block 0; the right window at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two operand arrays: entry (p, q) of the body's
    result is Σ_k (left block) (p, k) · (right block) (k, q); the left block's row p is row 1000 t + p of the left
    array, the right block is the right array, and the output block's entry (p, q) is entry (1000 t + p, q) of the array. -/
theorem flushed3_eq (c : Dev nD) (t : Fin cfg3.N) :
    (dat3 (F := Ideal) V c).flushed 2 t
      = ((cfg3.win 2).blk t).view.read (Elt Ideal) (prod3 (V c main_v66) (V c main_arg9)) := by
  show (cfg3.win 2).cut (grid3.coords t) ((dat3 (F := Ideal) V c).after 2 t) = _
  rw [after3_2]
  unfold out3_2
  rw [View.canon_unit_zero zero_off3]
  simp only [View.ld_unit_zero (S := S1000x64) zero_off3, View.ld_unit_zero (S := S64x32) zero_off3]
  obtain ⟨e00, e01, e10, e11, e20, e21⟩ := blockIdx3 t
  funext j
  obtain ⟨p, q, rfl⟩ : ∃ (p : Fin 1000) (q : Fin 32), j = ix2 p q := ⟨j 0, j 1, eq_ix2 j⟩
  show k3_pay1 (F := Ideal) (iblk3 V c 0 t) (iblk3 V c 1 t) (ix2 p q)
    = prod3 (V c main_v66) (V c main_arg9) (((cfg3.win 2).blk t).view.emb (ix2 p q))
  refine (pay3_apply (iblk3 V c 0 t) (iblk3 V c 1 t) p q).trans ?_
  refine Finset.sum_congr rfl fun k _ => ?_
  have hl : (iblk3 V c 0 t : S1000x64.Idx → EReal) (ix2 p k)
      = (V c main_v66 : S10000x64.Idx → EReal) (ix2 (⟨((((cfg3.win 2).blk t).view.emb (ix2 p q)) 0).val, ((((cfg3.win 2).blk t).view.emb (ix2 p q)) 0).isLt⟩ : Fin 10000) k) := by
    show (V c main_v66 : S10000x64.Idx → EReal) (((cfg3.win 0).blk t).view.emb (ix2 p k)) = _
    refine congrArg _ (funext fun a => Fin.ext ?_)
    match a with
    | ⟨0, _⟩ => show win3_0.index t (0 : Fin 2) * 1000 + 1 * p.val = win3_2.index t (0 : Fin 2) * 1000 + 1 * p.val; omega
    | ⟨1, _⟩ => show win3_0.index t (1 : Fin 2) * 64 + 1 * k.val = k.val; omega
  have hr : (iblk3 V c 1 t : S64x32.Idx → EReal) (ix2 k q)
      = (V c main_arg9 : S64x32.Idx → EReal) (ix2 k (⟨((((cfg3.win 2).blk t).view.emb (ix2 p q)) 1).val, ((((cfg3.win 2).blk t).view.emb (ix2 p q)) 1).isLt⟩ : Fin 32)) := by
    show (V c main_arg9 : S64x32.Idx → EReal) (((cfg3.win 1).blk t).view.emb (ix2 k q)) = _
    refine congrArg _ (funext fun a => Fin.ext ?_)
    match a with
    | ⟨0, _⟩ => show win3_1.index t (0 : Fin 2) * 64 + 1 * k.val = k.val; omega
    | ⟨1, _⟩ => show win3_1.index t (1 : Fin 2) * 32 + 1 * q.val = win3_2.index t (1 : Fin 2) * 32 + 1 * q.val; omega
  rw [hl, hr]

/-- An index of the output array is in point `t`'s block iff each coordinate is in the block's range on its axis. -/
theorem mem_blk3 (t : Fin cfg3.N) (i : S10000x32.Idx) :
    i ∈ ((cfg3.win 2).blk t).view.set ↔ ∀ a : Fin 2, win3_2.index t a * S1000x32.size a ≤ (i a).val ∧ (i a).val < win3_2.index t a * S1000x32.size a + S1000x32.size a := by
  show i ∈ ((View.whole main_v84).slice (win3_2.rect t)).set ↔ _
  rw [View.set_slice_whole, Rect.mem_set_unit]
  exact Iff.rfl

/-- The ten row blocks cover the output array: row `r` lies in the block of point `r / 1000`. -/
theorem cover3 (i : S10000x32.Idx) :
    ∃ t : Fin cfg3.N, (cfg3.win 2).flush t = true ∧ i ∈ ((cfg3.win 2).blk t).view.set := by
  have hi0 : (i 0).val < 10000 := (i 0).isLt
  have hi1 : (i 1).val < 32 := (i 1).isLt
  have hN : cfg3.N = 10 := N_3
  have ht : (i 0).val / 1000 < cfg3.N := by rw [hN]; omega
  obtain ⟨-, -, -, -, e20, e21⟩ := blockIdx3 ⟨(i 0).val / 1000, ht⟩
  refine ⟨⟨(i 0).val / 1000, ht⟩, flush3_2 _, ?_⟩
  rw [mem_blk3]
  intro a
  match a with
  | ⟨0, _⟩ =>
    show win3_2.index ⟨(i 0).val / 1000, ht⟩ (0 : Fin 2) * 1000 ≤ (i 0).val ∧ (i 0).val < win3_2.index ⟨(i 0).val / 1000, ht⟩ (0 : Fin 2) * 1000 + 1000
    rw [e20]
    show (i 0).val / 1000 * 1000 ≤ (i 0).val ∧ (i 0).val < (i 0).val / 1000 * 1000 + 1000
    omega
  | ⟨1, _⟩ =>
    show win3_2.index ⟨(i 0).val / 1000, ht⟩ (1 : Fin 2) * 32 ≤ (i 1).val ∧ (i 1).val < win3_2.index ⟨(i 0).val / 1000, ht⟩ (1 : Fin 2) * 32 + 32
    rw [e21]
    omega

/-- The output array after the run is the product of the two operand arrays. -/
theorem array3 (c : Dev nD) :
    (dat3 (F := Ideal) V c).arrAt 2 cfg3.N = prod3 (V c main_v66) (V c main_arg9) :=
  (dat3 (F := Ideal) V c).arrAt_eq_of_cover 2 (prod3 (V c main_v66) (V c main_arg9)) (fun t _ => flushed3_eq V c t) cover3

/-- The product read at row `r`, column `q`. -/
theorem prod3_apply (a : S10000x64.Idx → EReal) (b : S64x32.Idx → EReal) (r : Fin 10000) (q : Fin 32) :
    prod3 a b (ix2 r q) = ∑ k : Fin 64, a (ix2 r k) * b (ix2 k q) := rfl

/-- Entry (r, q) of the output array after the run: Σ_k left (r, k) · right (k, q), the three arrays named as
    functions on their literal index types. -/
theorem final3 (c : Dev nD) (a : S10000x64.Idx → EReal) (b : S64x32.Idx → EReal) (o : S10000x32.Idx → EReal)
    (ha : a = V c main_v66) (hb : b = V c main_arg9) (ho : o = (dat3 (F := Ideal) V c).arrAt 2 cfg3.N)
    (r : Fin 10000) (q : Fin 32) :
    o (ix2 r q) = ∑ k : Fin 64, a (ix2 r k) * b (ix2 k q) := by
  rw [ho, ha, hb, array3]

end Cert.KernelIdeal.RegionValue

end
-- ==== Proof.KI.Value4.lean ====
/- THE VALUE of region 4 at the ideal instance. The decode kernel's grid point `t` reads rows [200t, 200t+200) of `z`
   through window 0 and all of `z` through window 1, rounds both to bf16 (the identity on ideal values), multiplies the
   first by the transpose of the second into a zero accumulator — entry (p, q) is the sum over the 32 features of
   `z[200t+p, k] * z[q, k]` —, applies the logistic function lane by lane and stores the 200 x 10000 block at rows
   [200t, 200t+200) of the output. The 50 blocks tile the 10000 x 10000 output, so after the region entry (r, q) of it
   is `logistic (∑ k, z[r, k] * z[q, k])`. -/
import proofs.«161064_j52209622450442_1_alg».proof.Proof.KI.Region4
import Idealize.ShloMosaic.Lib.ValueIdx
import Idealize.ShloMosaic.Lib.Pipeline.Value
import Idealize.ShloMosaic.PureOps.Ideal.Laws

noncomputable section

namespace Cert.KernelIdeal.RegionValue

open Cert.KernelIdeal Cert.KernelIdeal.Gen Idealize.ShloMosaic ValueIdx
open Idealize.ShloMosaic.TcCoe Idealize.SL.Sem
open Idealize.ShloMosaic.Pipeline (Dat)
open scoped BigOperators

/-! ## The product's operand indices

The matrix product contracts axis 1 of the 200 x 32 left operand with axis 0 of the 32 x 10000 right operand: at
output index `i` and contraction index `q` the left operand is read at `(i 0, q)` and the right at `(q, i 1)`. -/

theorem lhs4_0 (i : S200x10000.Idx) (q : dot_S200x32_S32x10000_S200x10000_1_0_0_1_n_n.contr.Idx) :
    (dot_S200x32_S32x10000_S200x10000_1_0_0_1_n_n.lhsIdx i q 0).val = (i 0).val := by
  unfold DotDims.lhsIdx
  rw [dif_neg (show ¬(0 : Fin S200x32.rank) ∈ dot_S200x32_S32x10000_S200x10000_1_0_0_1_n_n.lhsBatch by decide), dif_pos (show (0 : Fin S200x32.rank) ∈ dot_S200x32_S32x10000_S200x10000_1_0_0_1_n_n.lhsNonContracting by decide)]
  rfl
theorem lhs4_1 (i : S200x10000.Idx) (q : dot_S200x32_S32x10000_S200x10000_1_0_0_1_n_n.contr.Idx) :
    (dot_S200x32_S32x10000_S200x10000_1_0_0_1_n_n.lhsIdx i q 1).val = (q ⟨0, by decide⟩).val :=
  dot_S200x32_S32x10000_S200x10000_1_0_0_1_n_n.lhsIdx_val_of_single rfl i q
theorem rhs4_0 (i : S200x10000.Idx) (q : dot_S200x32_S32x10000_S200x10000_1_0_0_1_n_n.contr.Idx) :
    (dot_S200x32_S32x10000_S200x10000_1_0_0_1_n_n.rhsIdx i q 0).val = (q ⟨0, by decide⟩).val :=
  dot_S200x32_S32x10000_S200x10000_1_0_0_1_n_n.rhsIdx_val_of_single rfl i q
theorem rhs4_1 (i : S200x10000.Idx) (q : dot_S200x32_S32x10000_S200x10000_1_0_0_1_n_n.contr.Idx) :
    (dot_S200x32_S32x10000_S200x10000_1_0_0_1_n_n.rhsIdx i q 1).val = (i 1).val := by
  unfold DotDims.rhsIdx
  rw [dif_neg (show ¬(1 : Fin S32x10000.rank) ∈ dot_S200x32_S32x10000_S200x10000_1_0_0_1_n_n.rhsBatch by decide), dif_pos (show (1 : Fin S32x10000.rank) ∈ dot_S200x32_S32x10000_S200x10000_1_0_0_1_n_n.rhsNonContracting by decide)]
  rfl

/-! ## The body's payload at an index -/

/-- Entry (p, q) of what the body stores: the logistic function of the inner product of row `p` of the first block
    with row `q` of the second. The shape casts are identities, rounding to bf16 is the identity on ideal values, the
    transpose swaps the second operand's coordinates, and the product into a zero accumulator is the plain sum. -/
theorem pay4_apply (x0 : Vec Ideal S200x32 .f32) (x1 : Vec Ideal S10000x32 .f32) (p : Fin 200) (q : Fin 10000) :
    k4_pay1 (F := Ideal) x0 x1 (ix2 p q) = Ideal.logistic (∑ k : Fin 32, x0 (ix2 p k) * x1 (ix2 q k)) := by
  unfold k4_pay1
  simp only [shapeCast_self]
  show Ideal.logistic _ = Ideal.logistic _
  refine congrArg Ideal.logistic ?_
  refine Eq.trans (Ideal.matmul_constant_zero_apply dot_S200x32_S32x10000_S200x10000_1_0_0_1_n_n none (truncf .bf16 x0 bitsLt_bf16_f32)
    (transpose S32x10000 [1, 0] (truncf .bf16 x1 bitsLt_bf16_f32) transposes_S10000x32_p1_0_S32x10000) (ix2 p q)) ?_
  rw [← Equiv.sum_comp (contrEquiv1 dot_S200x32_S32x10000_S200x10000_1_0_0_1_n_n 32 rfl rfl).symm]
  refine Finset.sum_congr rfl fun k _ => ?_
  have hk := contrEquiv1_symm_val dot_S200x32_S32x10000_S200x10000_1_0_0_1_n_n 32 rfl rfl k
  refine congrArg₂ (· * ·) ?_ ?_
  · show x0 _ = x0 _
    refine congrArg x0 (funext fun a => Fin.ext ?_)
    match a with
    | ⟨0, _⟩ => exact lhs4_0 (ix2 p q) _
    | ⟨1, _⟩ => exact (lhs4_1 (ix2 p q) _).trans hk
  · refine (transpose_apply [1, 0] _ transposes_S10000x32_p1_0_S32x10000 _ (ix2 q k) (fun b => ?_)).trans rfl
    match b with
    | ⟨0, _⟩ => exact ((rhs4_0 (ix2 p q) _).trans hk).symm
    | ⟨1, _⟩ => exact (rhs4_1 (ix2 p q) _).symm

/-! ## The decoded matrix -/

/-- Entry (r, q) of the decoded matrix of `z`: the logistic function of the inner product of rows `r` and `q`. -/
def decodeAt (z : S10000x32.Idx → EReal) (r q : Fin 10000) : EReal :=
  Ideal.logistic (∑ k : Fin 32, z (ix2 r k) * z (ix2 q k))

/-- The decoded matrix as one function of `z`, index by index. -/
def decode (z : S10000x32.Idx → EReal) : S10000x10000.Idx → EReal :=
  fun i => decodeAt z ⟨(i 0).val, idx2_lt0 i⟩ ⟨(i 1).val, idx2_lt1 i⟩

/-- The body's payload on two blocks that hold rows of `z` is the decoded matrix there: if row `j 0` of the first
    block is row `i 0` of `z` and row `j 1` of the second is row `i 1` of `z`, entry `j` of the payload is entry `i`
    of the decoded matrix. -/
theorem pay4_block (z : S10000x32.Idx → EReal) (x0 : Vec Ideal S200x32 .f32) (x1 : Vec Ideal S10000x32 .f32)
    (j : S200x10000.Idx) (i : S10000x10000.Idx)
    (h0 : ∀ k : Fin 32, x0 (ix2 (⟨(j 0).val, idx2_lt0 j⟩ : Fin 200) k) = z (ix2 (⟨(i 0).val, idx2_lt0 i⟩ : Fin 10000) k))
    (h1 : ∀ k : Fin 32, x1 (ix2 (⟨(j 1).val, idx2_lt1 j⟩ : Fin 10000) k) = z (ix2 (⟨(i 1).val, idx2_lt1 i⟩ : Fin 10000) k)) :
    k4_pay1 (F := Ideal) x0 x1 j = decode z i := by
  have ej : j = ix2 (⟨(j 0).val, idx2_lt0 j⟩ : Fin 200) (⟨(j 1).val, idx2_lt1 j⟩ : Fin 10000) := by
    funext a; match a with | ⟨0, _⟩ => rfl | ⟨1, _⟩ => rfl
  refine (congrArg (k4_pay1 (F := Ideal) x0 x1) ej).trans ?_
  refine (pay4_apply x0 x1 ⟨(j 0).val, idx2_lt0 j⟩ ⟨(j 1).val, idx2_lt1 j⟩).trans ?_
  unfold decode decodeAt
  refine congrArg Ideal.logistic (Finset.sum_congr rfl fun k _ => ?_)
  rw [h0 k, h1 k]

/-! ## From blocks to the array -/

theorem hz4 : (![0, 0] : Fin 2 → Nat) = fun _ => 0 := funext fun a => by fin_cases a <;> rfl

/-- The index maps over the grid: at point `t` windows 0 and 2 sit at block row `t`, window 1 at the one block that
    is the whole array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is block `t` of the decoded matrix of `z` as the region finds it: row `p` of window 0's
    block is row `200 t + p` of `z`, which is the row of the output the block's row `p` lands on, and window 1's
    block is all of `z`. -/
theorem flushed4_eq (V : (c : Dev nD) → (b : Ref sig .tc) → Buf (Elt Ideal) ((c : Thread nD τ).loc b)) (c : Dev nD) (t : Fin cfg4.N) :
    (dat4 (F := Ideal) V c).flushed 2 t = ((cfg4.win 2).blk t).view.read (Elt Ideal) (decode (V c main_v105)) := by
  show (cfg4.win 2).cut (grid4.coords t) ((dat4 (F := Ideal) V c).after 2 t) = _
  rw [after4_2]
  unfold out4_2
  rw [View.canon_unit_zero hz4]
  simp only [View.ld_unit_zero (S := S200x32) hz4, View.ld_unit_zero (S := S10000x32) hz4]
  obtain ⟨e00, e01, e10, e11, e20, e21⟩ := idx_facts4 t
  funext j
  show k4_pay1 (F := Ideal) (iblk4 V c 0 t) (iblk4 V c 1 t) j = decode (V c main_v105) (((cfg4.win 2).blk t).view.emb j)
  refine pay4_block (V c main_v105) (iblk4 V c 0 t) (iblk4 V c 1 t) j (((cfg4.win 2).blk t).view.emb j) (fun k => ?_) (fun k => ?_)
  · show V c main_v105 (((cfg4.win 0).blk t).view.emb (ix2 (⟨(j 0).val, idx2_lt0 j⟩ : Fin 200) k)) = V c main_v105 _
    refine congrArg (V c main_v105) (funext fun a => Fin.ext ?_)
    match a with
    | ⟨0, _⟩ => show win4_0.index t (0 : Fin 2) * 200 + 1 * (j 0).val = win4_2.index t (0 : Fin 2) * 200 + 1 * (j 0).val; omega
    | ⟨1, _⟩ => show win4_0.index t (1 : Fin 2) * 32 + 1 * k.val = k.val; omega
  · show V c main_v105 (((cfg4.win 1).blk t).view.emb (ix2 (⟨(j 1).val, idx2_lt1 j⟩ : Fin 10000) k)) = V c main_v105 _
    refine congrArg (V c main_v105) (funext fun a => Fin.ext ?_)
    match a with
    | ⟨0, _⟩ => show win4_1.index t (0 : Fin 2) * 10000 + 1 * (j 1).val = win4_2.index t (1 : Fin 2) * 10000 + 1 * (j 1).val; omega
    | ⟨1, _⟩ => show win4_1.index t (1 : Fin 2) * 32 + 1 * k.val = k.val; omega

/-- An index of the output is in point `t`'s block iff each coordinate is in the block's range on its axis. -/
theorem mem_blk4 (t : Fin cfg4.N) (i : S10000x10000.Idx) :
    i ∈ ((cfg4.win 2).blk t).view.set ↔ ∀ a : Fin 2, win4_2.index t a * S200x10000.size a ≤ (i a).val ∧ (i a).val < win4_2.index t a * S200x10000.size a + S200x10000.size a := by
  show i ∈ ((View.whole main_v106).slice (win4_2.rect t)).set ↔ _
  rw [View.set_slice_whole, Rect.mem_set_unit]
  exact Iff.rfl

/-- THE COVER: row `r` of the output is in the block of point `r / 200`, which is written back. -/
theorem cover4 (i : S10000x10000.Idx) : ∃ t : Fin cfg4.N, (cfg4.win 2).flush t = true ∧ i ∈ ((cfg4.win 2).blk t).view.set := by
  have hi0 : (i 0).val < 10000 := idx2_lt0 i
  have hi1 : (i 1).val < 10000 := idx2_lt1 i
  have hN : cfg4.N = 50 := N_4
  obtain ⟨t, ht⟩ : ∃ t : Fin cfg4.N, t.val = (i 0).val / 200 := ⟨⟨(i 0).val / 200, by rw [hN]; omega⟩, rfl⟩
  obtain ⟨-, -, -, -, e20, e21⟩ := idx_facts4 t
  refine ⟨t, flush4_2 t, ?_⟩
  rw [mem_blk4]
  intro a
  match a with
  | ⟨0, _⟩ => show win4_2.index t (0 : Fin 2) * 200 ≤ (i 0).val ∧ (i 0).val < win4_2.index t (0 : Fin 2) * 200 + 200; omega
  | ⟨1, _⟩ => show win4_2.index t (1 : Fin 2) * 10000 ≤ (i 1).val ∧ (i 1).val < win4_2.index t (1 : Fin 2) * 10000 + 10000; omega

/-- THE OUTPUT after the region: the decoded matrix of `z` as the region finds it. -/
theorem arrAt4_eq (V : (c : Dev nD) → (b : Ref sig .tc) → Buf (Elt Ideal) ((c : Thread nD τ).loc b)) (c : Dev nD) :
    (dat4 (F := Ideal) V c).arrAt 2 cfg4.N = decode (V c main_v105) :=
  (dat4 (F := Ideal) V c).arrAt_eq_of_cover 2 (decode (V c main_v105)) (fun t _ => flushed4_eq V c t) cover4

/-- Entry (r, q) of the output after the region is `logistic (∑ k, z[r, k] * z[q, k])`, for `z` the shared input array as
    the region finds it. -/
theorem final4 (V : (c : Dev nD) → (b : Ref sig .tc) → Buf (Elt Ideal) ((c : Thread nD τ).loc b)) (c : Dev nD) (r q : Fin 10000)
    (z : S10000x32.Idx → EReal) (hz : z = V c main_v105) :
    ((dat4 (F := Ideal) V c).arrAt 2 cfg4.N : S10000x10000.Idx → EReal) (ValueIdx.ix2 r q)
      = Ideal.logistic (∑ k : Fin 32, z (ValueIdx.ix2 r k) * z (ValueIdx.ix2 q k)) := by
  subst hz
  rw [arrAt4_eq V c]
  rfl

/-- The same, the right side folded as `decodeAt`. -/
theorem final4_decodeAt (V : (c : Dev nD) → (b : Ref sig .tc) → Buf (Elt Ideal) ((c : Thread nD τ).loc b)) (c : Dev nD) (r q : Fin 10000) :
    ((dat4 (F := Ideal) V c).arrAt 2 cfg4.N : S10000x10000.Idx → EReal) (ValueIdx.ix2 r q) = decodeAt (V c main_v105) r q :=
  final4 V c r q (V c main_v105) rfl

end Cert.KernelIdeal.RegionValue

end
-- ==== Proof.BridgeDot.lean ====
/-
  The five kernel regions against the reference's matrix products, at the extended reals. A dense region's result
  array is the product of its two operand arrays, entry (r, q) = Σ_k left (r, k) · right (k, q), which is what the
  reference's contraction of axis 1 with axis 0 is; its operands are, by the host stretches' lemmas, the
  reference's values of the same names. The decode region's result is the logistic function of z · zᵀ, entry
  (r, q) = logistic (Σ_k z (r, k) · z (q, k)), and the reference's transpose, contraction, negation, exponential,
  1 + · and 1 / · spell the same function.
-/
import proofs.«161064_j52209622450442_1_alg».proof.Proof.KI.Run
import proofs.«161064_j52209622450442_1_alg».proof.Proof.KI.Value0
import proofs.«161064_j52209622450442_1_alg».proof.Proof.KI.Value1
import proofs.«161064_j52209622450442_1_alg».proof.Proof.KI.Value2
import proofs.«161064_j52209622450442_1_alg».proof.Proof.KI.Value3
import proofs.«161064_j52209622450442_1_alg».proof.Proof.KI.Value4
import proofs.«161064_j52209622450442_1_alg».proof.Proof.BridgeHost
import Idealize.ShloMosaic.Lib.ValueIdx
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem Idealize.ShloMosaic.StableHlo
open Idealize.ShloMosaic.ValueIdx
open scoped BigOperators

variable (m : (ℓ : Loc nD τ sig) → Buf (Elt Ideal) ℓ) (c : Dev nD)

/-- Region 0's result array holds the reference's product `main_v31`. -/
theorem dot31 : V4 m (outs m) c main_v31 = Cert.ReferenceIdeal.ReadP.val_main_v31 (a0 m c) (a3 m c) := by
  rw [V4_eq]
  have hU : U4 m c main_v31 = (dat0 (atTc (V3 m)) c).arrAt 2 cfg0.N := by
    show Function.update _ (Proc.devRef .tc main_v31 : DevRef τ sig) _ (Proc.devRef .tc main_v31) = _
    rw [Function.update_self]
  refine hU.trans ?_
  rw [Cert.KernelIdeal.RegionValue.array0]
  have eL : atTc (V3 m) c main_arg0 = a0 m c := by
    exact (V3_of m c main_arg0 (by decide)).trans <| (V2_of m c main_arg0 (by decide)).trans <| (V1_of m c main_arg0 (by decide)).trans rfl
  have eR : atTc (V3 m) c main_arg3 = a3 m c := by
    exact (V3_of m c main_arg3 (by decide)).trans <| (V2_of m c main_arg3 (by decide)).trans <| (V1_of m c main_arg3 (by decide)).trans rfl
  rw [eL, eR]
  funext i
  obtain ⟨r, q, rfl⟩ : ∃ (r : Fin 10000) (q : Fin 64), i = ix2 r q := ⟨i 0, i 1, eq_ix2 i⟩
  refine Eq.trans ?_ (Cert.ReferenceIdeal.ReadP.val_main_v31_apply (a0 m c) (a3 m c) (ix2 r q)).symm
  refine Finset.sum_congr rfl fun k _ => ?_
  have el : Cert.ReferenceIdeal.ReadP.lidx_main_v31 (ix2 r q) k = ix2 r k :=
    funext fun a => Fin.ext (by match a with | ⟨0, _⟩ => rfl | ⟨1, _⟩ => rfl)
  have er : Cert.ReferenceIdeal.ReadP.ridx_main_v31 (ix2 r q) k = ix2 k q :=
    funext fun a => Fin.ext (by match a with | ⟨0, _⟩ => rfl | ⟨1, _⟩ => rfl)
  rw [el, er]

/-- Region 1's result array holds the reference's product `main_v49`. -/
theorem dot49 : V7 m (outs m) c main_v49 = Cert.ReferenceIdeal.ReadP.val_main_v49 (a0 m c) (a1 m c) (a3 m c) (a4 m c) (a5 m c) := by
  rw [V7_eq]
  have hU : U7 m c main_v49 = (dat1 (atTc (U6 m)) c).arrAt 2 cfg1.N := by
    show Function.update _ (Proc.devRef .tc main_v49 : DevRef τ sig) _ (Proc.devRef .tc main_v49) = _
    rw [Function.update_self]
  refine hU.trans ?_
  rw [Cert.KernelIdeal.RegionValue.array1]
  have eL : atTc (U6 m) c main_v48 = Cert.ReferenceIdeal.ReadP.val_main_v48 (a0 m c) (a1 m c) (a3 m c) (a4 m c) := by
    show U6 m c (Proc.devRef .tc main_v48) = _
    rw [← V6_eq]; exact (st_v48 m (outs m) c (dot31 m c))
  have eR : atTc (U6 m) c main_arg5 = a5 m c := by
    show U6 m c (Proc.devRef .tc main_arg5) = _
    rw [← V6_eq]; exact (V6_of m (outs m) c main_arg5 (by decide)).trans <| (V5_of m (outs m) c main_arg5 (by decide)).trans <| (V4_of m (outs m) c main_arg5 (by decide)).trans <| (V3_of m c main_arg5 (by decide)).trans <| (V2_of m c main_arg5 (by decide)).trans <| (V1_of m c main_arg5 (by decide)).trans rfl
  rw [eL, eR]
  funext i
  obtain ⟨r, q, rfl⟩ : ∃ (r : Fin 10000) (q : Fin 64), i = ix2 r q := ⟨i 0, i 1, eq_ix2 i⟩
  refine Eq.trans ?_ (Cert.ReferenceIdeal.ReadP.val_main_v49_apply (a0 m c) (a1 m c) (a3 m c) (a4 m c) (a5 m c) (ix2 r q)).symm
  refine Finset.sum_congr rfl fun k _ => ?_
  have el : Cert.ReferenceIdeal.ReadP.lidx_main_v49 (ix2 r q) k = ix2 r k :=
    funext fun a => Fin.ext (by match a with | ⟨0, _⟩ => rfl | ⟨1, _⟩ => rfl)
  have er : Cert.ReferenceIdeal.ReadP.ridx_main_v49 (ix2 r q) k = ix2 k q :=
    funext fun a => Fin.ext (by match a with | ⟨0, _⟩ => rfl | ⟨1, _⟩ => rfl)
  rw [el, er]

/-- Region 2's result array holds the reference's product `main_v67`. -/
theorem dot67 : V10 m (outs m) c main_v67 = Cert.ReferenceIdeal.ReadP.val_main_v67 (a0 m c) (a1 m c) (a3 m c) (a4 m c) (a5 m c) (a6 m c) (a7 m c) := by
  rw [V10_eq]
  have hU : U10 m c main_v67 = (dat2 (atTc (U9 m)) c).arrAt 2 cfg2.N := by
    show Function.update _ (Proc.devRef .tc main_v67 : DevRef τ sig) _ (Proc.devRef .tc main_v67) = _
    rw [Function.update_self]
  refine hU.trans ?_
  rw [Cert.KernelIdeal.RegionValue.array2]
  have eL : atTc (U9 m) c main_v66 = Cert.ReferenceIdeal.ReadP.val_main_v66 (a0 m c) (a1 m c) (a3 m c) (a4 m c) (a5 m c) (a6 m c) := by
    show U9 m c (Proc.devRef .tc main_v66) = _
    rw [← V9_eq]; exact (st_v66 m (outs m) c (dot31 m c) (dot49 m c))
  have eR : atTc (U9 m) c main_arg7 = a7 m c := by
    show U9 m c (Proc.devRef .tc main_arg7) = _
    rw [← V9_eq]; exact (V9_of m (outs m) c main_arg7 (by decide)).trans <| (V8_of m (outs m) c main_arg7 (by decide)).trans <| (V7_of m (outs m) c main_arg7 (by decide)).trans <| (V6_of m (outs m) c main_arg7 (by decide)).trans <| (V5_of m (outs m) c main_arg7 (by decide)).trans <| (V4_of m (outs m) c main_arg7 (by decide)).trans <| (V3_of m c main_arg7 (by decide)).trans <| (V2_of m c main_arg7 (by decide)).trans <| (V1_of m c main_arg7 (by decide)).trans rfl
  rw [eL, eR]
  funext i
  obtain ⟨r, q, rfl⟩ : ∃ (r : Fin 10000) (q : Fin 32), i = ix2 r q := ⟨i 0, i 1, eq_ix2 i⟩
  refine Eq.trans ?_ (Cert.ReferenceIdeal.ReadP.val_main_v67_apply (a0 m c) (a1 m c) (a3 m c) (a4 m c) (a5 m c) (a6 m c) (a7 m c) (ix2 r q)).symm
  refine Finset.sum_congr rfl fun k _ => ?_
  have el : Cert.ReferenceIdeal.ReadP.lidx_main_v67 (ix2 r q) k = ix2 r k :=
    funext fun a => Fin.ext (by match a with | ⟨0, _⟩ => rfl | ⟨1, _⟩ => rfl)
  have er : Cert.ReferenceIdeal.ReadP.ridx_main_v67 (ix2 r q) k = ix2 k q :=
    funext fun a => Fin.ext (by match a with | ⟨0, _⟩ => rfl | ⟨1, _⟩ => rfl)
  rw [el, er]

/-- Region 3's result array holds the reference's product `main_v84`. -/
theorem dot84 : V12 m (outs m) c main_v84 = Cert.ReferenceIdeal.ReadP.val_main_v84 (a0 m c) (a1 m c) (a3 m c) (a4 m c) (a5 m c) (a6 m c) (a9 m c) := by
  rw [V12_eq]
  have hU : U12 m c main_v84 = (dat3 (atTc (U11 m)) c).arrAt 2 cfg3.N := by
    show Function.update _ (Proc.devRef .tc main_v84 : DevRef τ sig) _ (Proc.devRef .tc main_v84) = _
    rw [Function.update_self]
  refine hU.trans ?_
  rw [Cert.KernelIdeal.RegionValue.array3]
  have eL : atTc (U11 m) c main_v66 = Cert.ReferenceIdeal.ReadP.val_main_v66 (a0 m c) (a1 m c) (a3 m c) (a4 m c) (a5 m c) (a6 m c) := by
    show U11 m c (Proc.devRef .tc main_v66) = _
    rw [← V11_eq]; exact (V11_of m (outs m) c main_v66 (by decide)).trans <| (V10_of m (outs m) c main_v66 (by decide)).trans (st_v66 m (outs m) c (dot31 m c) (dot49 m c))
  have eR : atTc (U11 m) c main_arg9 = a9 m c := by
    show U11 m c (Proc.devRef .tc main_arg9) = _
    rw [← V11_eq]; exact (V11_of m (outs m) c main_arg9 (by decide)).trans <| (V10_of m (outs m) c main_arg9 (by decide)).trans <| (V9_of m (outs m) c main_arg9 (by decide)).trans <| (V8_of m (outs m) c main_arg9 (by decide)).trans <| (V7_of m (outs m) c main_arg9 (by decide)).trans <| (V6_of m (outs m) c main_arg9 (by decide)).trans <| (V5_of m (outs m) c main_arg9 (by decide)).trans <| (V4_of m (outs m) c main_arg9 (by decide)).trans <| (V3_of m c main_arg9 (by decide)).trans <| (V2_of m c main_arg9 (by decide)).trans <| (V1_of m c main_arg9 (by decide)).trans rfl
  rw [eL, eR]
  funext i
  obtain ⟨r, q, rfl⟩ : ∃ (r : Fin 10000) (q : Fin 32), i = ix2 r q := ⟨i 0, i 1, eq_ix2 i⟩
  refine Eq.trans ?_ (Cert.ReferenceIdeal.ReadP.val_main_v84_apply (a0 m c) (a1 m c) (a3 m c) (a4 m c) (a5 m c) (a6 m c) (a9 m c) (ix2 r q)).symm
  refine Finset.sum_congr rfl fun k _ => ?_
  have el : Cert.ReferenceIdeal.ReadP.lidx_main_v84 (ix2 r q) k = ix2 r k :=
    funext fun a => Fin.ext (by match a with | ⟨0, _⟩ => rfl | ⟨1, _⟩ => rfl)
  have er : Cert.ReferenceIdeal.ReadP.ridx_main_v84 (ix2 r q) k = ix2 k q :=
    funext fun a => Fin.ext (by match a with | ⟨0, _⟩ => rfl | ⟨1, _⟩ => rfl)
  rw [el, er]

/-- The latent vectors the decode region reads are the reference's `main_v105`. -/
theorem z_eq : atTc (U13 m) c main_v105 = Cert.ReferenceIdeal.ReadP.val_main_v105 (a0 m c) (a1 m c) (a2 m c) (a3 m c) (a4 m c) (a5 m c) (a6 m c) (a7 m c) (a8 m c) (a9 m c) (a10 m c) := by
  show U13 m c (Proc.devRef .tc main_v105) = _
  rw [← V13_eq]; exact st_v105 m (outs m) c (dot31 m c) (dot49 m c) (dot67 m c) (dot84 m c)

/-- The bit pattern of 1.0 denotes the real 1. -/
theorem ofBits_one_f32 : Ideal.ofBits .f32 0x3F800000#32 = 1 := by
  simp [Ideal.ofBits, Ideal.ieee]
  rw [← EReal.coe_mul, ← EReal.coe_one]
  congr 1
  norm_num

/-- The decode region's result array holds the reference's result: both are the logistic function of z · zᵀ. -/
theorem dot106 : U14 m c main_v106 = Cert.ReferenceIdeal.ReadP.val_main_v113 (a0 m c) (a1 m c) (a2 m c) (a3 m c) (a4 m c) (a5 m c) (a6 m c) (a7 m c) (a8 m c) (a9 m c) (a10 m c) := by
  have hU : U14 m c main_v106 = (dat4 (atTc (U13 m)) c).arrAt 2 cfg4.N := by
    show Function.update _ (Proc.devRef .tc main_v106 : DevRef τ sig) _ (Proc.devRef .tc main_v106) = _
    rw [Function.update_self]
  refine hU.trans ?_
  rw [Cert.KernelIdeal.RegionValue.arrAt4_eq, z_eq]
  generalize hZ : Cert.ReferenceIdeal.ReadP.val_main_v105 (F := Ideal) (a0 m c) (a1 m c) (a2 m c) (a3 m c) (a4 m c) (a5 m c) (a6 m c) (a7 m c) (a8 m c) (a9 m c) (a10 m c) = Z
  funext i
  obtain ⟨r, q, rfl⟩ : ∃ (r : Fin 10000) (q : Fin 10000), i = ix2 r q := ⟨i 0, i 1, eq_ix2 i⟩
  show Ideal.logistic (∑ k : Fin 32, Z (ix2 r k) * Z (ix2 q k)) = _
  rw [Cert.ReferenceIdeal.ReadP.val_main_v113_apply, Cert.ReferenceIdeal.ReadP.val_main_v112_apply, Cert.ReferenceIdeal.ReadP.val_main_cst_21_apply,
    Cert.ReferenceIdeal.ReadP.val_main_v111_apply, Cert.ReferenceIdeal.ReadP.val_main_v110_apply, Cert.ReferenceIdeal.ReadP.val_main_cst_20_apply,
    Cert.ReferenceIdeal.ReadP.val_main_v109_apply, Cert.ReferenceIdeal.ReadP.val_main_v108_apply, Cert.ReferenceIdeal.ReadP.val_main_v107_apply]
  have hs : (∑ k : Fin 32, (Cert.ReferenceIdeal.ReadP.val_main_v105 (F := Ideal) (a0 m c) (a1 m c) (a2 m c) (a3 m c) (a4 m c) (a5 m c) (a6 m c) (a7 m c) (a8 m c) (a9 m c) (a10 m c)) (Cert.ReferenceIdeal.ReadP.lidx_main_v107 (ix2 r q) k)
        * (Cert.ReferenceIdeal.ReadP.val_main_v106 (F := Ideal) (a0 m c) (a1 m c) (a2 m c) (a3 m c) (a4 m c) (a5 m c) (a6 m c) (a7 m c) (a8 m c) (a9 m c) (a10 m c)) (Cert.ReferenceIdeal.ReadP.ridx_main_v107 (ix2 r q) k))
      = ∑ k : Fin 32, Z (ix2 r k) * Z (ix2 q k) := by
    refine Finset.sum_congr rfl fun k _ => ?_
    rw [Cert.ReferenceIdeal.ReadP.val_main_v106_apply, hZ]
    have el : Cert.ReferenceIdeal.ReadP.lidx_main_v107 (ix2 r q) k = ix2 r k :=
      funext fun a => Fin.ext (by match a with | ⟨0, _⟩ => rfl | ⟨1, _⟩ => rfl)
    have er : Cert.ReferenceIdeal.ReadP.idx_main_v106 (Cert.ReferenceIdeal.ReadP.ridx_main_v107 (ix2 r q) k) = ix2 q k :=
      funext fun a => Fin.ext (by match a with | ⟨0, _⟩ => rfl | ⟨1, _⟩ => rfl)
    rw [el, er]
  rw [hs]
  simp only [Ideal.hostDivf_def, Ideal.addf_def, Ideal.hostUnary_exp_def, Ideal.hostNegf_def, Ideal.negf_def, Ideal.ofBits_def, ofBits_one_f32]
  rfl

end Cert.Bridge

end
-- ==== Proof.lean ====
/-
  A variational graph auto-encoder's forward pass: two graph-convolution layers with rectifiers, a mean layer and a
  log-deviation layer (clipped at 10), the reparameterisation z = μ + ε · exp(logσ), and the inner-product decoder
  sigmoid(z · zᵀ). The kernel's program computes each layer's dense feature transform x · W in a tiled kernel region
  (ten row blocks of 1000) and the decoder in a fifth region (fifty row blocks of 200, the operands rounded to bf16
  on the way into the product), and leaves the edge normalisation, the gathers and the scatter-adds to host
  operations; the reference does everything in host operations. On the extended reals the rounding is the identity,
  a tiled product is the product, the kernel's logistic is 1 / (1 + e⁻ˣ) as the reference spells it, and the host
  operations around the regions are the reference's own, so the two programs compute one function of the arguments.
  No law used needs finiteness: the precondition is never opened. The kernel's idealisation rewrote nothing, so the
  fourth conjunct is trivial. The frames: each kernel program runs as the chain of its host stretches and regions
  (Proof/K/Run.lean and Proof/KI/Run.lean), the reference as its list of host operations (Proof/RefRun.lean).
-/
import proofs.«161064_j52209622450442_1_alg».proof.Defs
import proofs.«161064_j52209622450442_1_alg».proof.Proof.Gen.Kernel
import proofs.«161064_j52209622450442_1_alg».proof.Proof.Gen.KernelIdeal
import proofs.«161064_j52209622450442_1_alg».proof.Proof.Gen.ReferenceIdeal
import proofs.«161064_j52209622450442_1_alg».proof.Proof.Gen.Pre_finite_inputs
import proofs.«161064_j52209622450442_1_alg».proof.Proof.K.Run
import proofs.«161064_j52209622450442_1_alg».proof.Proof.KI.Run
import proofs.«161064_j52209622450442_1_alg».proof.Proof.RefRun
import proofs.«161064_j52209622450442_1_alg».proof.Proof.RefRead
import proofs.«161064_j52209622450442_1_alg».proof.Proof.BridgeHost
import proofs.«161064_j52209622450442_1_alg».proof.Proof.BridgeDot
import Idealize.ShloMosaic.Adequacy
import Idealize.ShloMosaic.Init

set_option maxRecDepth 16384

noncomputable section

namespace Cert.Proof

open Idealize.ShloMosaic Idealize.ShloMosaic.TcCoe Idealize.SL.Sem

/-- The kernel's program as printed runs, and its arguments end as launched. -/
theorem frame_k : Cert.frame_Kernel := fun m ρ _ =>
  (θ_run Cert.Kernel.defs _ _).mono (fun r h c => ⟨(h c _ (Cert.Kernel.Gen.mem_uc Cert.Kernel.main_arg0 (by decide))).trans (Cert.Kernel.Gen.U14_arg m c _ (Cert.Kernel.Gen.V14_main_arg0 m _ c)),
      (h c _ (Cert.Kernel.Gen.mem_uc Cert.Kernel.main_arg1 (by decide))).trans (Cert.Kernel.Gen.U14_arg m c _ (Cert.Kernel.Gen.V14_main_arg1 m _ c)),
      (h c _ (Cert.Kernel.Gen.mem_uc Cert.Kernel.main_arg2 (by decide))).trans (Cert.Kernel.Gen.U14_arg m c _ (Cert.Kernel.Gen.V14_main_arg2 m _ c)),
      (h c _ (Cert.Kernel.Gen.mem_uc Cert.Kernel.main_arg3 (by decide))).trans (Cert.Kernel.Gen.U14_arg m c _ (Cert.Kernel.Gen.V14_main_arg3 m _ c)),
      (h c _ (Cert.Kernel.Gen.mem_uc Cert.Kernel.main_arg4 (by decide))).trans (Cert.Kernel.Gen.U14_arg m c _ (Cert.Kernel.Gen.V14_main_arg4 m _ c)),
      (h c _ (Cert.Kernel.Gen.mem_uc Cert.Kernel.main_arg5 (by decide))).trans (Cert.Kernel.Gen.U14_arg m c _ (Cert.Kernel.Gen.V14_main_arg5 m _ c)),
      (h c _ (Cert.Kernel.Gen.mem_uc Cert.Kernel.main_arg6 (by decide))).trans (Cert.Kernel.Gen.U14_arg m c _ (Cert.Kernel.Gen.V14_main_arg6 m _ c)),
      (h c _ (Cert.Kernel.Gen.mem_uc Cert.Kernel.main_arg7 (by decide))).trans (Cert.Kernel.Gen.U14_arg m c _ (Cert.Kernel.Gen.V14_main_arg7 m _ c)),
      (h c _ (Cert.Kernel.Gen.mem_uc Cert.Kernel.main_arg8 (by decide))).trans (Cert.Kernel.Gen.U14_arg m c _ (Cert.Kernel.Gen.V14_main_arg8 m _ c)),
      (h c _ (Cert.Kernel.Gen.mem_uc Cert.Kernel.main_arg9 (by decide))).trans (Cert.Kernel.Gen.U14_arg m c _ (Cert.Kernel.Gen.V14_main_arg9 m _ c)),
      (h c _ (Cert.Kernel.Gen.mem_uc Cert.Kernel.main_arg10 (by decide))).trans (Cert.Kernel.Gen.U14_arg m c _ (Cert.Kernel.Gen.V14_main_arg10 m _ c))⟩)
    (Cert.Kernel.Gen.run_all (F := Bits) m ρ)

/-- The same for its reading at the extended reals. -/
theorem frame_ki : Cert.frame_KernelIdeal := fun m ρ _ =>
  (θ_run Cert.KernelIdeal.defs _ _).mono (fun r h c => ⟨(h c _ (Cert.KernelIdeal.Gen.mem_uc Cert.KernelIdeal.main_arg0 (by decide))).trans (Cert.KernelIdeal.Gen.U14_arg m c _ (Cert.KernelIdeal.Gen.V14_main_arg0 m _ c)),
      (h c _ (Cert.KernelIdeal.Gen.mem_uc Cert.KernelIdeal.main_arg1 (by decide))).trans (Cert.KernelIdeal.Gen.U14_arg m c _ (Cert.KernelIdeal.Gen.V14_main_arg1 m _ c)),
      (h c _ (Cert.KernelIdeal.Gen.mem_uc Cert.KernelIdeal.main_arg2 (by decide))).trans (Cert.KernelIdeal.Gen.U14_arg m c _ (Cert.KernelIdeal.Gen.V14_main_arg2 m _ c)),
      (h c _ (Cert.KernelIdeal.Gen.mem_uc Cert.KernelIdeal.main_arg3 (by decide))).trans (Cert.KernelIdeal.Gen.U14_arg m c _ (Cert.KernelIdeal.Gen.V14_main_arg3 m _ c)),
      (h c _ (Cert.KernelIdeal.Gen.mem_uc Cert.KernelIdeal.main_arg4 (by decide))).trans (Cert.KernelIdeal.Gen.U14_arg m c _ (Cert.KernelIdeal.Gen.V14_main_arg4 m _ c)),
      (h c _ (Cert.KernelIdeal.Gen.mem_uc Cert.KernelIdeal.main_arg5 (by decide))).trans (Cert.KernelIdeal.Gen.U14_arg m c _ (Cert.KernelIdeal.Gen.V14_main_arg5 m _ c)),
      (h c _ (Cert.KernelIdeal.Gen.mem_uc Cert.KernelIdeal.main_arg6 (by decide))).trans (Cert.KernelIdeal.Gen.U14_arg m c _ (Cert.KernelIdeal.Gen.V14_main_arg6 m _ c)),
      (h c _ (Cert.KernelIdeal.Gen.mem_uc Cert.KernelIdeal.main_arg7 (by decide))).trans (Cert.KernelIdeal.Gen.U14_arg m c _ (Cert.KernelIdeal.Gen.V14_main_arg7 m _ c)),
      (h c _ (Cert.KernelIdeal.Gen.mem_uc Cert.KernelIdeal.main_arg8 (by decide))).trans (Cert.KernelIdeal.Gen.U14_arg m c _ (Cert.KernelIdeal.Gen.V14_main_arg8 m _ c)),
      (h c _ (Cert.KernelIdeal.Gen.mem_uc Cert.KernelIdeal.main_arg9 (by decide))).trans (Cert.KernelIdeal.Gen.U14_arg m c _ (Cert.KernelIdeal.Gen.V14_main_arg9 m _ c)),
      (h c _ (Cert.KernelIdeal.Gen.mem_uc Cert.KernelIdeal.main_arg10 (by decide))).trans (Cert.KernelIdeal.Gen.U14_arg m c _ (Cert.KernelIdeal.Gen.V14_main_arg10 m _ c))⟩)
    (Cert.KernelIdeal.Gen.run_all (F := Ideal) m ρ)

/-- The reference runs: its list of host operations, the results dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten by the idealisation. -/
theorem preserves : Cert.preserves_Kernel_KernelIdeal := trivial

/-- Both programs end with the predicted adjacency sigmoid(z · zᵀ) of the same latent vectors z. -/
theorem algebraic : Cert.algebraic_KernelIdeal_ReferenceIdeal := by
  intro m ρ m' ρ' _ hagree
  refine ⟨fun c => Cert.KernelIdeal.Gen.U14 m c Cert.KernelIdeal.main_v106, ?_, ?_⟩
  · exact (θ_run Cert.KernelIdeal.defs _ _).mono (fun r h c => ⟨h c _ (Cert.KernelIdeal.Gen.mem_uc Cert.KernelIdeal.main_v106 (by decide)),
      (h c _ (Cert.KernelIdeal.Gen.mem_uc Cert.KernelIdeal.main_arg0 (by decide))).trans (Cert.KernelIdeal.Gen.U14_arg m c _ (Cert.KernelIdeal.Gen.V14_main_arg0 m _ c)),
      (h c _ (Cert.KernelIdeal.Gen.mem_uc Cert.KernelIdeal.main_arg1 (by decide))).trans (Cert.KernelIdeal.Gen.U14_arg m c _ (Cert.KernelIdeal.Gen.V14_main_arg1 m _ c)),
      (h c _ (Cert.KernelIdeal.Gen.mem_uc Cert.KernelIdeal.main_arg2 (by decide))).trans (Cert.KernelIdeal.Gen.U14_arg m c _ (Cert.KernelIdeal.Gen.V14_main_arg2 m _ c)),
      (h c _ (Cert.KernelIdeal.Gen.mem_uc Cert.KernelIdeal.main_arg3 (by decide))).trans (Cert.KernelIdeal.Gen.U14_arg m c _ (Cert.KernelIdeal.Gen.V14_main_arg3 m _ c)),
      (h c _ (Cert.KernelIdeal.Gen.mem_uc Cert.KernelIdeal.main_arg4 (by decide))).trans (Cert.KernelIdeal.Gen.U14_arg m c _ (Cert.KernelIdeal.Gen.V14_main_arg4 m _ c)),
      (h c _ (Cert.KernelIdeal.Gen.mem_uc Cert.KernelIdeal.main_arg5 (by decide))).trans (Cert.KernelIdeal.Gen.U14_arg m c _ (Cert.KernelIdeal.Gen.V14_main_arg5 m _ c)),
      (h c _ (Cert.KernelIdeal.Gen.mem_uc Cert.KernelIdeal.main_arg6 (by decide))).trans (Cert.KernelIdeal.Gen.U14_arg m c _ (Cert.KernelIdeal.Gen.V14_main_arg6 m _ c)),
      (h c _ (Cert.KernelIdeal.Gen.mem_uc Cert.KernelIdeal.main_arg7 (by decide))).trans (Cert.KernelIdeal.Gen.U14_arg m c _ (Cert.KernelIdeal.Gen.V14_main_arg7 m _ c)),
      (h c _ (Cert.KernelIdeal.Gen.mem_uc Cert.KernelIdeal.main_arg8 (by decide))).trans (Cert.KernelIdeal.Gen.U14_arg m c _ (Cert.KernelIdeal.Gen.V14_main_arg8 m _ c)),
      (h c _ (Cert.KernelIdeal.Gen.mem_uc Cert.KernelIdeal.main_arg9 (by decide))).trans (Cert.KernelIdeal.Gen.U14_arg m c _ (Cert.KernelIdeal.Gen.V14_main_arg9 m _ c)),
      (h c _ (Cert.KernelIdeal.Gen.mem_uc Cert.KernelIdeal.main_arg10 (by decide))).trans (Cert.KernelIdeal.Gen.U14_arg m c _ (Cert.KernelIdeal.Gen.V14_main_arg10 m _ c))⟩)
      (Cert.KernelIdeal.Gen.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v113_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.dot106 m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
